-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S8192x4096 .f32) (main_arg1 : FVec F S11008x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S8192x4096 : Shape := ⟨2, ![8192, 4096]⟩
abbrev S11008x4096 : Shape := ⟨2, ![11008, 4096]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S_ : Shape := ⟨0, ![]⟩
abbrev S1x1 : Shape := ⟨2, ![1, 1]⟩
abbrev S8192x11008 : Shape := ⟨2, ![8192, 11008]⟩
abbrev S2048x512 : Shape := ⟨2, ![2048, 512]⟩
abbrev S2048x1 : Shape := ⟨2, ![2048, 1]⟩
abbrev S1024x512 : Shape := ⟨2, ![1024, 512]⟩
abbrev S2048x1024 : Shape := ⟨2, ![2048, 1024]⟩

abbrev nBuf : Space → Nat
  | .hbm => 17
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S8192x4096, .bf16⟩
  | .hbm, ⟨3, _⟩ => ⟨S8192x1, .f32⟩
  | .hbm, ⟨4, _⟩ => ⟨S11008x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S11008x4096, .bf16⟩
  | .hbm, ⟨16, _⟩ => ⟨S8192x11008, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | .local _ .vmem, ⟨8, _⟩ => ⟨S1x1, .f32⟩
  | .local _ .vmem, ⟨9, _⟩ => ⟨S512x4096, .bf16⟩
  | .local _ .vmem, ⟨10, _⟩ => ⟨S512x4096, .bf16⟩
  | .local _ .vmem, ⟨11, _⟩ => ⟨S2048x512, .bf16⟩
  | .local _ .vmem, ⟨12, _⟩ => ⟨S2048x512, .bf16⟩
  | .local _ .vmem, ⟨13, _⟩ => ⟨S2048x1, .f32⟩
  | .local _ .vmem, ⟨14, _⟩ => ⟨S2048x1, .f32⟩
  | .local _ .vmem, ⟨15, _⟩ => ⟨S1024x512, .bf16⟩
  | .local _ .vmem, ⟨16, _⟩ => ⟨S1024x512, .bf16⟩
  | .local _ .vmem, ⟨17, _⟩ => ⟨S1x1, .f32⟩
  | .local _ .vmem, ⟨18, _⟩ => ⟨S2048x1024, .f32⟩
  | .local _ .vmem, ⟨19, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 11, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  reducesTo_S11008x4096_S_d0_1 : S11008x4096.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x4096 : S1x1.Broadcasts S512x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S1x1_S2048x1 : S1x1.Broadcasts S2048x1
  broadcasts_S2048x1_S2048x1024 : S2048x1.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S512x4096.size a < S11008x4096.size a
  hwx1_0 : ∀ i : grid1.Coords, EltTy.bits .f32 = 32 ∨ (Rect.unit (s := S11008x4096) (fun a => cc1_transform_0 i a * S512x4096.size a) (fun a => (Pipeline.Clip.of (cc1_transform_0 i a) (S512x4096.size a) (S11008x4096.size a)).extent (S512x4096.size a)) fun a => Pipeline.Clip.inb (Pipeline.Clip.ok_of (hstart1_0 i a))).WholeWords (EltTy.packing .f32)
  hwxs1_0 : ∀ i : grid1.Coords, EltTy.bits .f32 = 32 ∨ (Rect.unit (s := S512x4096) (fun _ => 0) (fun a => (Pipeline.Clip.of (cc1_transform_0 i a) (S512x4096.size a) (S11008x4096.size a)).extent (S512x4096.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S512x4096.size a < S11008x4096.size a
  hwx1_2 : ∀ i : grid1.Coords, EltTy.bits .bf16 = 32 ∨ (Rect.unit (s := S11008x4096) (fun a => cc1_transform_2 i a * S512x4096.size a) (fun a => (Pipeline.Clip.of (cc1_transform_2 i a) (S512x4096.size a) (S11008x4096.size a)).extent (S512x4096.size a)) fun a => Pipeline.Clip.inb (Pipeline.Clip.ok_of (hstart1_2 i a))).WholeWords (EltTy.packing .bf16)
  hwxs1_2 : ∀ i : grid1.Coords, EltTy.bits .bf16 = 32 ∨ (Rect.unit (s := S512x4096) (fun _ => 0) (fun a => (Pipeline.Clip.of (cc1_transform_2 i a) (S512x4096.size a) (S11008x4096.size a)).extent (S512x4096.size a)) fun a => (Nat.zero_add _).trans_le (Pipeline.Clip.extent_le (Pipeline.Clip.ok_of (hstart1_2 i a)))).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x4096.size a
  hwx2_0 : ∀ i : grid2.Coords, EltTy.bits .bf16 = 32 ∨ (Rect.block (s := S8192x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1024x512.size a < S11008x4096.size a
  hwx2_2 : ∀ i : grid2.Coords, EltTy.bits .bf16 = 32 ∨ (Rect.unit (s := S11008x4096) (fun a => cc2_transform_2 i a * S1024x512.size a) (fun a => (Pipeline.Clip.of (cc2_transform_2 i a) (S1024x512.size a) (S11008x4096.size a)).extent (S1024x512.size a)) fun a => Pipeline.Clip.inb (Pipeline.Clip.ok_of (hstart2_2 i a))).WholeWords (EltTy.packing .bf16)
  hwxs2_2 : ∀ i : grid2.Coords, EltTy.bits .bf16 = 32 ∨ (Rect.unit (s := S1024x512) (fun _ => 0) (fun a => (Pipeline.Clip.of (cc2_transform_2 i a) (S1024x512.size a) (S11008x4096.size a)).extent (S1024x512.size a)) fun a => (Nat.zero_add _).trans_le (Pipeline.Clip.extent_le (Pipeline.Clip.ok_of (hstart2_2 i a)))).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S2048x1024.size a < S8192x11008.size a
  hwx2_4 : ∀ i : grid2.Coords, EltTy.bits .f32 = 32 ∨ (Rect.unit (s := S8192x11008) (fun a => cc2_transform_4 i a * S2048x1024.size a) (fun a => (Pipeline.Clip.of (cc2_transform_4 i a) (S2048x1024.size a) (S8192x11008.size a)).extent (S2048x1024.size a)) fun a => Pipeline.Clip.inb (Pipeline.Clip.ok_of (hstart2_4 i a))).WholeWords (EltTy.packing .f32)
  hwxs2_4 : ∀ i : grid2.Coords, EltTy.bits .f32 = 32 ∨ (Rect.unit (s := S2048x1024) (fun _ => 0) (fun a => (Pipeline.Clip.of (cc2_transform_4 i a) (S2048x1024.size a) (S8192x11008.size a)).extent (S2048x1024.size a)) fun a => (Nat.zero_add _).trans_le (Pipeline.Clip.extent_le (Pipeline.Clip.ok_of (hstart2_4 i a)))).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg1) S512x4096.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v6) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v7) S512x4096.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpecClip (Memref.whole main_v7) S1024x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v6) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpecClip (Memref.whole main_v8) S2048x1024.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S11008x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S11008x4096, .f32⟩
  | .hbm, ⟨41, _⟩ => ⟨S11008x4096, .f32⟩
  | .hbm, ⟨42, _⟩ => ⟨S11008x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S11008x4096, .f32⟩
  | .hbm, ⟨47, _⟩ => ⟨S11008x4096, .f32⟩
  | .hbm, ⟨48, _⟩ => ⟨S_, .f32⟩
  | .hbm, ⟨49, _⟩ => ⟨S11008x4096, .f32⟩
  | .hbm, ⟨50, _⟩ => ⟨S11008x4096, .f32⟩
  | .hbm, ⟨51, _⟩ => ⟨S8192x4096, .f32⟩
  | .hbm, ⟨52, _⟩ => ⟨S8192x4096, .f32⟩
  | .hbm, ⟨53, _⟩ => ⟨S8192x11008, .f32⟩
  | .hbm, ⟨54, _⟩ => ⟨S8192x11008, .f32⟩
  | .hbm, ⟨55, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_cst_8 : Ref sig .tc := ⟨.hbm, 35, rfl⟩
abbrev main_call3_v0 : Ref sig .tc := ⟨.hbm, 36, rfl⟩
abbrev main_v17 : Ref sig .tc := ⟨.hbm, 37, rfl⟩
abbrev main_cst_9 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_10 : Ref sig .tc := ⟨.hbm, 43, rfl⟩
abbrev main_cst_11 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S11008x4096_S_d0_1 : S11008x4096.ReducesTo [0, 1] S_
  bcast_S_S11008x4096 : S_.BroadcastsInDim S11008x4096 (![] : Fin 0 → Fin S11008x4096.rank)
  bcast_S_S8192x11008 : S_.BroadcastsInDim S8192x11008 (![] : Fin 0 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.FrameBRuns.lean ====
import proofs.«119196_j24962349924855_2_alg».proof.Proof.Gen.Kernel.Launch
import proofs.«119196_j24962349924855_2_alg».proof.Proof.Gen.Kernel.Skeleton
import proofs.«119196_j24962349924855_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The matmul body's two conditions, in closed form over the grid

The grid is 4 x 11 x 8 and the last coordinate is the position along the contracted axis: the body zeroes the output
block at position 0 and rescales it at position 7. -/

/-- "The position along the contracted axis is 0", as the body's scalar chain computes it. -/
abbrev cond2_0 (i : grid2.Coords) : Prop := (Scalar.cmpi .ne (Scalar.extui (Scalar.cmpi .eq (BitVec.ofNat 32 (i 2).val) 0#32)) 0#32) = 1#1
/-- "The position along the contracted axis is 7". -/
abbrev cond2_1 (i : grid2.Coords) : Prop := (Scalar.cmpi .ne (Scalar.extui (Scalar.cmpi .eq (BitVec.ofNat 32 (i 2).val) 7#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 = 7 :=
  (by decide +kernel : ∀ t : Fin grid2.N, cond2_1 (grid2.coords t) ↔ t.val % 8 = 7)

/-- One staging buffer of the output window, through which its contents are stated. -/
abbrev VO2_4 : View sig .tc .vmem S2048x1024 .f32 := (Memref.whole cc2_stg4_0 : Memref sig .tc .vmem S2048x1024 .f32).view
/-- Each window's current staging memref at point `t`, as the pipeline passes it, and its wholeness. -/
abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)

set_option maxHeartbeats 4000000 in
/-- The matmul body in this case of its two conditionals, on whole staging buffers: the four input buffers at their
    contents and returned as they were, the output block's buffer with the case's stores written, as pieces (last
    first) the run itself finds. -/
noncomputable def kernelRun2_A (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : cond2_0 i) (hc1 : ¬cond2_1 i)
    (x3 : Vec F S2048x512 .bf16) (x4 : Vec F S2048x1 .f32) (x5 : Vec F S1024x512 .bf16) (x6 : Vec F S1x1 .f32)  :
    { L4 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L4)) -∗ K ⟨⟩))
          ⊢ wp frame (wpE (defs₀ (F := F)) Variants.none c none) E (cc2__bitlinear_matmul_kernel i arg3 harg3 arg4 harg4 arg5 harg5 arg6 harg6 arg7 harg7) K } := by
  refine ⟨?_, fun E K => ?run⟩
  case run =>
    simp only [cc2__bitlinear_matmul_kernel_eq_skeleton]; unfold cc2__bitlinear_matmul_kernel_skel
    unfold owns
    iintro ⟨⟨%f3, %hf3, H3⟩, ⟨%f4, %hf4, H4⟩, ⟨%f5, %hf5, H5⟩, ⟨%f6, %hf6, H6⟩, ⟨%d7, %f7, -, H7⟩, Hk⟩
    obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- The matmul body in this case of its two conditionals, on whole staging buffers: the four input buffers at their
    contents and returned as they were, the output block's buffer with the case's stores written, as pieces (last
    first) the run itself finds. -/
noncomputable def kernelRun2_B (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : ¬cond2_1 i)
    (x3 : Vec F S2048x512 .bf16) (x4 : Vec F S2048x1 .f32) (x5 : Vec F S1024x512 .bf16) (x6 : Vec F S1x1 .f32) (xo7 : Vec F S2048x1024 .f32) :
    { L4 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo7
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L4)) -∗ K ⟨⟩))
          ⊢ wp frame (wpE (defs₀ (F := F)) Variants.none c none) E (cc2__bitlinear_matmul_kernel i arg3 harg3 arg4 harg4 arg5 harg5 arg6 harg6 arg7 harg7) K } := by
  refine ⟨?_, fun E K => ?run⟩
  case run =>
    simp only [cc2__bitlinear_matmul_kernel_eq_skeleton]; unfold cc2__bitlinear_matmul_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- The matmul body in this case of its two conditionals, on whole staging buffers: the four input buffers at their
    contents and returned as they were, the output block's buffer with the case's stores written, as pieces (last
    first) the run itself finds. -/
noncomputable def kernelRun2_C (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : cond2_1 i)
    (x3 : Vec F S2048x512 .bf16) (x4 : Vec F S2048x1 .f32) (x5 : Vec F S1024x512 .bf16) (x6 : Vec F S1x1 .f32) (xo7 : Vec F S2048x1024 .f32) :
    { L4 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo7
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L4)) -∗ K ⟨⟩))
          ⊢ wp frame (wpE (defs₀ (F := F)) Variants.none c none) E (cc2__bitlinear_matmul_kernel i arg3 harg3 arg4 harg4 arg5 harg5 arg6 harg6 arg7 harg7) K } := by
  refine ⟨?_, fun E K => ?run⟩
  case run =>
    simp only [cc2__bitlinear_matmul_kernel_eq_skeleton]; unfold cc2__bitlinear_matmul_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.Kernel.R2

end
-- ==== Proof.FrameBR2.lean ====
import proofs.«119196_j24962349924855_2_alg».proof.Proof.FrameBRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrameB

open Cert.Kernel Cert.Kernel.Gen Cert.Kernel.R2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The matmul pipeline (grid 4 x 11 x 8), relationally

The output block's staging buffer overhangs the output array at the last column block, and what the body leaves in
the part inside the array depends on the whole of both operand buffers; so nothing is said of what any staging buffer
holds: the arrays are named at entry, every window's relation is the trivial one, and the body is shown to run from any
contents to some contents. -/

/-- The relational proof data: the arrays as the region finds them, nothing constrained of the staging buffers, the
    class's invariant (the scoped rest and the generator register), nothing owed, full shares. -/
def rdat2 (c : Dev nD) : RDat τ (Elt F) Unit ℕ (UR sig nD τ) ℕ cfg2 c where
  A w := V c (Pipeline.arrRef spec2 w)
  after _ _ _ _ := True
  Φ _ := Pipeline.ΦA spec2 c
  q _ := fullShare
  owed _ := 0

theorem A_eq2 (c : Dev nD) (w : Fin cfg2.W) : (rdat2 V c).A w = V c (Pipeline.arrRef spec2 w) := by
  dsimp only [rdat2]

set_option maxHeartbeats 1600000 in
/-- The body at any point, from any contents of the five current staging buffers: the position along the contracted
    axis says which case of the two conditionals the point is in; the case's run applies; every buffer comes back at
    some contents. -/
theorem sound_body2 (c : Dev nD) (t : Fin cfg2.N) (Y : (w : Fin cfg2.W) → (cfg2.win w).block.Idx → Elt F (cfg2.win w).elt) :
    iprop((rdat2 V c).Φ t.castSucc ∗ (rdat2 V c).owesAt () t.castSucc
        ∗ owns (c : Thread nD τ) (st2_0 t) fullShare (Y 0)
        ∗ owns (c : Thread nD τ) (st2_1 t) fullShare (Y 1)
        ∗ owns (c : Thread nD τ) (st2_2 t) fullShare (Y 2)
        ∗ owns (c : Thread nD τ) (st2_3 t) fullShare (Y 3)
        ∗ owns (c : Thread nD τ) (st2_4 t) fullShare (Y 4))
      ⊢ wp frame (wpE (defs₀ (F := F)) Variants.none c none) Set.univ (bodyAt2 t) (fun _ =>
          iprop((rdat2 V c).Φ t.succ ∗ (rdat2 V c).owesAt () t.succ
            ∗ (∃ X, ⌜(rdat2 V c).after 0 t (Y 0) X⌝ ∗ owns (c : Thread nD τ) (st2_0 t) fullShare X)
            ∗ (∃ X, ⌜(rdat2 V c).after 1 t (Y 1) X⌝ ∗ owns (c : Thread nD τ) (st2_1 t) fullShare X)
            ∗ (∃ X, ⌜(rdat2 V c).after 2 t (Y 2) X⌝ ∗ owns (c : Thread nD τ) (st2_2 t) fullShare X)
            ∗ (∃ X, ⌜(rdat2 V c).after 3 t (Y 3) X⌝ ∗ owns (c : Thread nD τ) (st2_3 t) fullShare X)
            ∗ (∃ X, ⌜(rdat2 V c).after 4 t (Y 4) X⌝ ∗ owns (c : Thread nD τ) (st2_4 t) fullShare X))) := by
  unfold bodyAt2
  rw [show (rdat2 V c).Φ t.succ = (rdat2 V c).Φ t.castSucc from rfl,
    show (rdat2 V c).owesAt () t.succ = (rdat2 V c).owesAt () t.castSucc from rfl]
  by_cases h0 : t.val % 8 = 0
  · have h1 : ¬ t.val % 8 = 7 := by omega
    iintro ⟨HΦ, Ho, H0, H1, H2, H3, H4⟩
    iapply ((kernelRun2_A c (grid2.coords t) _ _ _ _ _ _ _ _ _ _ ((hcond2_0 t).mpr h0) (fun h => h1 ((hcond2_1 t).mp h)) (Y 0) (Y 1) (Y 2) (Y 3)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e, H4⟩⟩
    isplitl [HΦ]; · iexact HΦ
    isplitl [Ho]; · iexact Ho
    isplitl [H0]
    · iexists (Y 0); isplitr; · ipureintro; exact True.intro
      iexact H0
    isplitl [H1]
    · iexists (Y 1); isplitr; · ipureintro; exact True.intro
      iexact H1
    isplitl [H2]
    · iexists (Y 2); isplitr; · ipureintro; exact True.intro
      iexact H2
    isplitl [H3]
    · iexists (Y 3); isplitr; · ipureintro; exact True.intro
      iexact H3
    iexists _; isplitr
    swap
    · iapply (owns_intro (c : Thread nD τ) _ fullShare _)
      iexact H4
    ipureintro; exact True.intro
  · by_cases h1 : t.val % 8 = 7
    ·
      iintro ⟨HΦ, Ho, H0, H1, H2, H3, H4⟩
      iapply ((kernelRun2_C c (grid2.coords t) _ _ _ _ _ _ _ _ _ _ (fun h => h0 ((hcond2_0 t).mp h)) ((hcond2_1 t).mpr h1) (Y 0) (Y 1) (Y 2) (Y 3) (Y 4)).2 Set.univ _)
      isplitl [H0]; · iexact H0
      isplitl [H1]; · iexact H1
      isplitl [H2]; · iexact H2
      isplitl [H3]; · iexact H3
      isplitl [H4]; · iexact H4
      iintro ⟨H0, H1, H2, H3, ⟨%e, H4⟩⟩
      isplitl [HΦ]; · iexact HΦ
      isplitl [Ho]; · iexact Ho
      isplitl [H0]
      · iexists (Y 0); isplitr; · ipureintro; exact True.intro
        iexact H0
      isplitl [H1]
      · iexists (Y 1); isplitr; · ipureintro; exact True.intro
        iexact H1
      isplitl [H2]
      · iexists (Y 2); isplitr; · ipureintro; exact True.intro
        iexact H2
      isplitl [H3]
      · iexists (Y 3); isplitr; · ipureintro; exact True.intro
        iexact H3
      iexists _; isplitr
      swap
      · iapply (owns_intro (c : Thread nD τ) _ fullShare _)
        iexact H4
      ipureintro; exact True.intro
    ·
      iintro ⟨HΦ, Ho, H0, H1, H2, H3, H4⟩
      iapply ((kernelRun2_B c (grid2.coords t) _ _ _ _ _ _ _ _ _ _ (fun h => h0 ((hcond2_0 t).mp h)) (fun h => h1 ((hcond2_1 t).mp h)) (Y 0) (Y 1) (Y 2) (Y 3) (Y 4)).2 Set.univ _)
      isplitl [H0]; · iexact H0
      isplitl [H1]; · iexact H1
      isplitl [H2]; · iexact H2
      isplitl [H3]; · iexact H3
      isplitl [H4]; · iexact H4
      iintro ⟨H0, H1, H2, H3, ⟨%e, H4⟩⟩
      isplitl [HΦ]; · iexact HΦ
      isplitl [Ho]; · iexact Ho
      isplitl [H0]
      · iexists (Y 0); isplitr; · ipureintro; exact True.intro
        iexact H0
      isplitl [H1]
      · iexists (Y 1); isplitr; · ipureintro; exact True.intro
        iexact H1
      isplitl [H2]
      · iexists (Y 2); isplitr; · ipureintro; exact True.intro
        iexact H2
      isplitl [H3]
      · iexists (Y 3); isplitr; · ipureintro; exact True.intro
        iexact H3
      iexists _; isplitr
      swap
      · iapply (owns_intro (c : Thread nD τ) _ fullShare _)
        iexact H4
      ipureintro; exact True.intro

/-- The relational body obligation, at every point. -/
theorem body_obligation2 (c : Dev nD) : (rdat2 (F := F) V c).BodyObligation (defs₀ (F := F)) Variants.none () Set.univ := fun t Y _ => by
  rw [bigSep_W2, bigSep_W2]
  exact sound_body2 V c t Y

end Cert.Kernel.FrameB

end
-- ==== Proof.FrameBLib.lean ====
import proofs.«119196_j24962349924855_2_alg».proof.Proof.Gen.Kernel.Launch
import proofs.«119196_j24962349924855_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # Two facts about a pipeline's arrays, of relational proof data

The arrays "at some contents they may hold after the write-backs" are the arrays at SOME contents; and the arrays at
any contents beside the other unscoped buffers are the core's unscoped buffers at the valuation that has the arrays at
those contents. -/

/-- The arrays after the write-backs below `n`, opened: at some contents (what they may be is dropped). -/
theorem arraysAt_open {cfg : Cfg sig Λ₀} {c : Dev nD} (rd : RDat τ (Elt F) Unit ℕ (UR sig nD τ) ℕ cfg c) (n : Nat) :
    (rd.arraysAt n : sProp 𝕄) ⊢ iprop(∃ G, rd.arrays G) := by
  unfold RDat.arraysAt RDat.arrays
  iintro Ha
  ihave Ha' := (BI.bigSep_exists_pi Finset.univ (fun w G => iprop(⌜rd.ArrAt w n G⌝
      ∗ (cfg.win w).arr.view.loc (c : Thread nD τ) ↦[(cfg.win w).arr.view.set]{rd.share w} G))) $$ Ha
  icases Ha' with ⟨%A, Ha⟩
  ihave Ha2 := (BI.bigSep_pure_sep Finset.univ (fun w => rd.ArrAt w n (A w))
      (fun w => (cfg.win w).arr.view.loc (c : Thread nD τ) ↦[(cfg.win w).arr.view.set]{rd.share w} A w)) $$ Ha
  icases Ha2 with ⟨-, Ha⟩
  iexists A; iexact Ha

/-- Pipeline `p`'s arrays at contents `G` and the unscoped rest at `V` are the core's unscoped buffers at any
    valuation `V'` that has the arrays at `G` and agrees with `V` off them. -/
theorem bufs_of_arrays {p : Fin 3} (hw : Pipeline.WinFacts (Pipeline.pin (pcfgs (F := F)) adm p).spec)
    (harr : ∀ w, ((Pipeline.pin (pcfgs (F := F)) adm p).spec w).arr.IsWhole) (c : Dev nD)
    (rdats : (p : Fin 3) → (c : Dev nD) → RDat τ (Elt F) Unit ℕ (UR sig nD τ) ℕ (Pipeline.pin (pcfgs (F := F)) adm p) c)
    (hshare : ∀ w, (rdats p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats p c).arrays G ∗ Pipeline.unscopedRest (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hG])) (Entails.of_eq ?_)
  unfold Pipeline.unscopedRest
  exact bigSep_congr fun b hb => by rw [hrest b (Finset.mem_sdiff.mp hb).2]

end Cert.Kernel.FrameB

end
-- ==== Proof.FrameBR0Blocks.lean ====
import proofs.«119196_j24962349924855_2_alg».proof.Proof.Gen.Kernel.Launch
import proofs.«119196_j24962349924855_2_alg».proof.Proof.Gen.Kernel.Skeleton
import proofs.«119196_j24962349924855_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The row-quantizing pipeline (grid 16): blocks, the body's triple, the proof data, the obligation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x4096 := Rect.unit (s := S512x4096) ![0, 0] S512x4096.size inb_S512x4096_S512x4096_0_0
abbrev r0_1 : Rect S512x1 := Rect.unit (s := S512x1) ![0, 0] S512x1.size inb_S512x1_S512x1_0_0

/-! ## What the body leaves in each output window's buffer -/

/-- The quantized block: one whole-buffer store of the rounded, clamped, scaled rows. -/
def out0_1 (x0 : Vec F S512x4096 .f32) : Vec F S512x4096 .bf16 :=
  View.canon [⟨r0_0, k0_pay2 (View.ld x0 r0_0)⟩]

/-- The row maxima: one whole-buffer store of the floored row maximum of absolute values. -/
def out0_2 (x0 : Vec F S512x4096 .f32) : Vec F S512x1 .f32 :=
  View.canon [⟨r0_1, k0_pay1 (View.ld x0 r0_0)⟩]

/-- Each store is of the whole buffer, so it covers it. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

end Cert.Kernel.R0

end
-- ==== Proof.FrameBR0Body.lean ====
import proofs.«119196_j24962349924855_2_alg».proof.Proof.Gen.Kernel.Launch
import proofs.«119196_j24962349924855_2_alg».proof.Proof.Gen.Kernel.Skeleton
import proofs.«119196_j24962349924855_2_alg».proof.Proof.Gen.Kernel.Points
import proofs.«119196_j24962349924855_2_alg».proof.Proof.FrameBR0Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging memrefs, the input's at read contents `x0` and the two outputs' at anything, runs to the
    continuation holding the input's as it was and each output's at `out0_W x0`. -/
theorem sound_kernel0 (c : Dev nD) (E : Set ℕ) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__quantize_x_kernel i arg1 harg1 arg2 harg2 arg3 harg3) K := by
  simp only [cc0__quantize_x_kernel_eq_skeleton]; unfold cc0__quantize_x_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of the pipeline on core `c`: the arrays as the region finds them; after the body at point `t` the
    input's buffer at its block and each output's at `out0_W` of the input block; the class's invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0' (c : Dev nD) : BodyObligation (dat0 (F := F) V c) (defs₀ (F := F)) Variants.none () Set.univ := fun t => by
  rw [bigSep_W0, bigSep_W0]
  exact sound_body0 V c t

theorem body_obligation0 (c : Dev nD) : BodyObligationLoose (dat0 (F := F) V c) (defs₀ (F := F)) Variants.none () Set.univ :=
  (body_obligation0' V c).loose

end Cert.Kernel.R0

end
-- ==== Proof.FrameBR1Blocks.lean ====
import proofs.«119196_j24962349924855_2_alg».proof.Proof.Gen.Kernel.Launch
import proofs.«119196_j24962349924855_2_alg».proof.Proof.Gen.Kernel.Skeleton
import proofs.«119196_j24962349924855_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The weight-quantizing pipeline (grid 22, last block overhanging the array): blocks and the body's store -/

/-- Window `w`'s block at point `t`, read off its array as the region finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scale's window (uncut, fetched at the first point only) holds its block at every point, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S512x4096 := Rect.unit (s := S512x4096) ![0, 0] S512x4096.size inb_S512x4096_S512x4096_0_0
abbrev r1_s : Rect S1x1 := Rect.unit (s := S1x1) ![0, 0] S1x1.size inb_S1x1_S1x1_0_0

theorem zeros2 : (![0, 0] : Fin 2 → Nat) = fun _ => 0 := by funext a; fin_cases a <;> rfl

/-! ## What the body leaves in the output window's buffer -/

/-- The ternary block: one whole-buffer store of the rounded, clamped, scaled weights. -/
def out1_2 (x1 : Vec F S1x1 .f32) (x0 : Vec F S512x4096 .f32) : Vec F S512x4096 .bf16 :=
  View.canon [⟨r1_0, k1_pay1 (View.ld x1 r1_s) (View.ld x0 r1_0)⟩]

/-- The store is of the whole buffer, so it covers it. -/
theorem cover1_2 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-- Through whole-buffer rectangles the store's payload is the payload of the buffers' contents. -/
theorem out1_2_eq (x1 : Vec F S1x1 .f32) (x0 : Vec F S512x4096 .f32) : out1_2 x1 x0 = k1_pay1 x1 x0 := by
  unfold out1_2
  rw [View.canon_unit_zero zeros2, View.ld_unit_zero zeros2, View.ld_unit_zero zeros2]

/-- The payload is elementwise in the weights: its value at an index reads the weights at that index only. -/
theorem k1_pay1_pointwise (x1 : Vec F S1x1 .f32) (x0 : Vec F S512x4096 .f32) (j : S512x4096.Idx) :
    k1_pay1 x1 x0 j = k1_pay1 x1 (fun _ => x0 j) j := rfl

theorem k1_pay1_congr (x1 : Vec F S1x1 .f32) (X Y : Vec F S512x4096 .f32) (j : S512x4096.Idx) (h : X j = Y j) :
    k1_pay1 x1 X j = k1_pay1 x1 Y j := by
  rw [k1_pay1_pointwise x1 X j, k1_pay1_pointwise x1 Y j, h]

end Cert.Kernel.R1

end
-- ==== Proof.FrameBR1Body.lean ====
import proofs.«119196_j24962349924855_2_alg».proof.Proof.Gen.Kernel.Launch
import proofs.«119196_j24962349924855_2_alg».proof.Proof.Gen.Kernel.Skeleton
import proofs.«119196_j24962349924855_2_alg».proof.Proof.Gen.Kernel.Points
import proofs.«119196_j24962349924855_2_alg».proof.Proof.FrameBR1Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging memrefs, the weights' at read contents `x0`, the scale's at `x1` and the output's at
    anything, runs to the continuation holding the inputs' as they were and the output's at `out1_2 x1 x0`. -/
theorem sound_kernel1 (c : Dev nD) (E : Set ℕ) (i : grid1.Coords)
    (arg1 : Memref sig .tc .vmem S512x4096 .f32) (harg1 : arg1.IsWhole)
    (arg2 : Memref sig .tc .vmem S1x1 .f32) (harg2 : arg2.IsWhole)
    (arg3 : Memref sig .tc .vmem S512x4096 .bf16) (harg3 : arg3.IsWhole)
    (x0 : Vec F S512x4096 .f32) (x1 : Vec F S1x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x1 x0)) -∗ K ⟨⟩))
      ⊢ wp frame (wpE (defs₀ (F := F)) Variants.none c none) E (cc1__quantize_w_kernel i arg1 harg1 arg2 harg2 arg3 harg3) K := by
  simp only [cc1__quantize_w_kernel_eq_skeleton]; unfold cc1__quantize_w_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The weights' block at point `t` (its rows inside the array), filled out to the staging buffer's shape with the zero
    word: past the array's end nothing is stated of the buffer, and this filler is never read. -/
def wblk8 (c : Dev nD) (t : Fin cfg1.N) : S512x4096.Idx → Elt F .f32 :=
  win1_0.fill (grid1.coords t) (fun _ => Scalar.ofBits .f32 0#32) (iblk1 V c 0 t)

/-- The proof data of the pipeline on core `c`: the arrays as the region finds them; after the body at point `t` the
    weights' buffer at `wblk8`, the scale's at its block, the output's at the body's store of those two; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => wblk8 V c t
    | ⟨1, _⟩ => iblk1 V c 1 t
    | ⟨2, _⟩ => out1_2 (iblk1 V c 1 t) (wblk8 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = wblk8 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 1 t) (wblk8 V c t) := by dsimp only [dat1]

/-- The weights' buffer, fetched at every point: the block on the rows inside the array, `d` past them. -/
theorem before1_0 (c : Dev nD) (t : Fin cfg1.N) (d) :
    (dat1 V c).before 0 t d = win1_0.fill (grid1.coords t) d (iblk1 V c 0 t) := by
  unfold Dat.before; rw [if_pos (fetch1_0 t)]; rfl

/-- The scale's buffer holds its block at every point, fetched there or not. -/
theorem before1_1 (c : Dev nD) (t : Fin cfg1.N) (d) : (dat1 V c).before 1 t d = iblk1 V c 1 t :=
  before1_1_of V (dat1 V c) (A_eq1 V c 1) (after1_1 V c) t d

/-- On the rows inside the array the filled block is the block. -/
theorem cut_wblk8 (c : Dev nD) (t : Fin cfg1.N) : win1_0.cut (grid1.coords t) (wblk8 V c t) = iblk1 V c 0 t :=
  win1_0.cut_fill _ _ _

/-- On the rows inside the array the body's store does not depend on what fills the weights' buffer past them: the
    payload is elementwise. -/
theorem cut_out1_2 (c : Dev nD) (t : Fin cfg1.N) (x1 : Vec F S1x1 .f32) (d : S512x4096.Idx → Elt F .f32) :
    win1_2.cut (grid1.coords t) (out1_2 x1 (win1_0.fill (grid1.coords t) d (iblk1 V c 0 t)))
      = win1_2.cut (grid1.coords t) (out1_2 x1 (wblk8 V c t)) := by
  funext j
  show out1_2 x1 (win1_0.fill (grid1.coords t) d (iblk1 V c 0 t)) (win1_2.xinj (grid1.coords t) j)
    = out1_2 x1 (wblk8 V c t) (win1_2.xinj (grid1.coords t) j)
  rw [out1_2_eq, out1_2_eq]
  refine k1_pay1_congr x1 _ _ _ ?_
  unfold wblk8
  exact (win1_0.fill_xinj (grid1.coords t) d (iblk1 V c 0 t) j).trans
    (win1_0.fill_xinj (grid1.coords t) _ (iblk1 V c 0 t) j).symm

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the two windows whose last block overhangs the array stated on the rows inside it only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare
        ((cfg1.win 2).fill (cfg1.grid.coords t) d ((cfg1.win 2).cut (cfg1.grid.coords t) ((dat1 V c).after 2 t)))))

/-- The body at any point. The weights' buffer arrives holding its block filled out with some `d₀` past the array's end
    and leaves so; the scale's holds its block; the output's leaves holding the body's store, which on the rows inside
    the array is the store computed from the zero-filled block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ _ _ _ _ _ _ _
    (win1_0.fill (grid1.coords t) d0 (iblk1 V c 0 t)) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after1_0]
    change _ ⊢ owns (c : Thread nD τ) (st1_0 t) fullShare (win1_0.fill (grid1.coords t) d0 (win1_0.cut (grid1.coords t) (wblk8 V c t)))
    rw [cut_wblk8]; try iexact H0
  isplitl [H1]
  · rw [after1_1]; iexact H1
  · iexists (out1_2 (iblk1 V c 1 t) (win1_0.fill (grid1.coords t) d0 (iblk1 V c 0 t)))
    rw [after1_2]
    change _ ⊢ owns (c : Thread nD τ) (st1_2 t) fullShare (win1_2.fill (grid1.coords t) _ (win1_2.cut (grid1.coords t) (out1_2 (iblk1 V c 1 t) (wblk8 V c t))))
    rw [win1_2.fill_congr_cut (grid1.coords t) (cut_out1_2 V c t (iblk1 V c 1 t) d0)]; try iexact H2

/-- The library's body obligation, at every point. -/
theorem body_obligation1 (c : Dev nD) : BodyObligationLoose (dat1 (F := F) V c) (defs₀ (F := F)) Variants.none () Set.univ := fun t => by
  rw [bigSep_W1, bigSep_W1]
  exact sound_body1 V c t

end Cert.Kernel.R1

end
-- ==== Proof.FrameBVals.lean ====
import proofs.«119196_j24962349924855_2_alg».proof.Proof.FrameBR2
import proofs.«119196_j24962349924855_2_alg».proof.Proof.FrameBLib
import proofs.«119196_j24962349924855_2_alg».proof.Proof.FrameBR0Body
import proofs.«119196_j24962349924855_2_alg».proof.Proof.FrameBR1Body
import proofs.«119196_j24962349924855_2_alg».proof.Proof.Gen.Kernel.Regions

set_option maxRecDepth 16384

noncomputable section

namespace Cert.Kernel.FrameB

open Cert.Kernel Cert.Kernel.Gen Cert.Kernel.R0 Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary of the run: a fold from the launch memory

The run is: the row-quantizing region, three host stretches (the weights' mean absolute value, its floor, the
reciprocal), the weight-quantizing region, the matmul region. -/

/-- Core `c`'s buffers at launch (the first region's entry). -/
abbrev W0 : Dev nD → Valuation τ sig (Elt F) := fun c b => m ((c : Dev nD), b)
/-- The same read at the TensorCore's references. -/
abbrev VR0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VX0 : (c : Dev nD) → (b : Ref sig .tc) → Buf (Elt F) ((c : Thread nD τ).loc b) := fun c b => W1 m c b
theorem hF0 (c : Dev nD) (w : Fin cfg0.W) : (dat0 (VR0 m) c).arrAt w cfg0.N = VX0 m c (Pipeline.arrRef spec0 w) :=
  (W1_arr m c w).symm
theorem hrest0 (c : Dev nD) : ∀ b, b ∉ Finset.univ.image (Pipeline.arrRef spec0) → VX0 m c b = VR0 m c b :=
  fun b hb => W1_of_ne m c b fun w e => hb (Finset.mem_image.mpr ⟨w, Finset.mem_univ _, e⟩)

/-- After each of the three host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
/-- The same read at the TensorCore's references (the second region's entry). -/
abbrev VR1 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (VR1 m) c).arrAt w cfg1.N
theorem W5_arr (c : Dev nD) (w : Fin cfg1.W) :
    W5 m c (Proc.devRef .tc (Pipeline.arrRef spec1 w)) = (dat1 (VR1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references (the second region's exit, the third's entry). -/
abbrev VR2 : (c : Dev nD) → (b : Ref sig .tc) → Buf (Elt F) ((c : Thread nD τ).loc b) := fun c b => W5 m c b
theorem hF1 (c : Dev nD) (w : Fin cfg1.W) : (dat1 (VR1 m) c).arrAt w cfg1.N = VR2 m c (Pipeline.arrRef spec1 w) :=
  (W5_arr m c w).symm
theorem hrest1 (c : Dev nD) : ∀ b, b ∉ Finset.univ.image (Pipeline.arrRef spec1) → VR2 m c b = VR1 m c b :=
  fun b hb => W5_of_ne m c b fun w e => hb (Finset.mem_image.mpr ⟨w, Finset.mem_univ _, e⟩)

/-- At the third region's exit, its arrays at ANY contents `A`: every other buffer as entered. -/
def W6 (c : Dev nD) (A : (w : Fin 5) → Buf (Elt F) ((spec2 w).arr.view.loc (c : Thread nD τ))) : Valuation τ sig (Elt F) :=
  Pipeline.withArrays spec2 c (W5 m c) A
theorem W6_arr (c : Dev nD) (A : (w : Fin 5) → Buf (Elt F) ((spec2 w).arr.view.loc (c : Thread nD τ))) (w : Fin 5) :
    W6 m c A (Proc.devRef .tc (Pipeline.arrRef spec2 w)) = A w := by
  unfold W6; exact Pipeline.withArrays_arr spec2 launch2.win.arr_inj c _ _ w
theorem W6_of_ne (c : Dev nD) (A : (w : Fin 5) → Buf (Elt F) ((spec2 w).arr.view.loc (c : Thread nD τ))) (b : Ref sig .tc)
    (hb : ∀ w, Pipeline.arrRef spec2 w ≠ b) : W6 m c A (Proc.devRef .tc b) = W5 m c (Proc.devRef .tc b) := by
  unfold W6; exact Pipeline.withArrays_of_ne spec2 c _ _ b hb

/-! ### The arguments end as launched: no host stretch writes one, a region reads it through an input window or
    bypasses it, so the fold at an argument's buffer walks back to the launch memory -/

theorem W6_main_arg0 (c : Dev nD) (A : (w : Fin 5) → Buf (Elt F) ((spec2 w).arr.view.loc (c : Thread nD τ))) :
    W6 m c A (Proc.devRef .tc main_arg0) = m ((c : Thread nD τ).loc main_arg0) :=
  calc W6 m c A (Proc.devRef .tc main_arg0)
    _ = W5 m c (Proc.devRef .tc main_arg0) := W6_of_ne m c A main_arg0 (by decide)
    _ = W4 m c (Proc.devRef .tc main_arg0) := W5_of_ne m c main_arg0 (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (VR0 m) c).arrAt_in 0 rfl _).trans (A_eq0 (VR0 m) c 0))
    _ = m ((c : Thread nD τ).loc main_arg0) := rfl

theorem W6_main_arg1 (c : Dev nD) (A : (w : Fin 5) → Buf (Elt F) ((spec2 w).arr.view.loc (c : Thread nD τ))) :
    W6 m c A (Proc.devRef .tc main_arg1) = m ((c : Thread nD τ).loc main_arg1) :=
  calc W6 m c A (Proc.devRef .tc main_arg1)
    _ = W5 m c (Proc.devRef .tc main_arg1) := W6_of_ne m c A main_arg1 (by decide)
    _ = W4 m c (Proc.devRef .tc main_arg1) := (W5_arr m c 0).trans (((dat1 (VR1 m) c).arrAt_in 0 rfl _).trans (A_eq1 (VR1 m) c 0))
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

/-! ## The proof data family -/

/-- Every pipeline's proof data, each at its region's entry contents: the two quantizing pipelines' exact data read
    relationally, the matmul's relational data. -/
def rdats : (p : Fin 3) → (c : Dev nD) → RDat τ (Elt F) Unit ℕ (UR sig nD τ) ℕ (Pipeline.pin (pcfgs (F := F)) adm p) c
  | ⟨0, _⟩ => fun c => (dat0 (VR0 m) c).toR
  | ⟨1, _⟩ => fun c => (dat1 (VR1 m) c).toR
  | ⟨2, _⟩ => fun c => rdat2 (VR2 m) c

end Cert.Kernel.FrameB

end
-- ==== Proof.FrameBRun.lean ====
import proofs.«119196_j24962349924855_2_alg».proof.Proof.FrameBVals
import Idealize.ShloMosaic.Lib.Pipeline.Regions

set_option maxRecDepth 16384

noncomputable section

namespace Cert.Kernel.FrameB

open Cert.Kernel Cert.Kernel.Gen Cert.Kernel.R0 Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six segments from the launch to the return -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents — the matmul's arrays
    at SOME contents, every other buffer as the matmul region found it —, the generator register at some state. -/
abbrev Tn (c : Dev nD) : sProp 𝕄 :=
  iprop((∃ A, StableHlo.held (c : Thread nD τ) (Pipeline.ucRefs τ sig) (W6 m c A)) ∗ ∃ r, prngReg c r)

/-! ## The regions as segments -/

set_option backward.isDefEq.respectTransparency.types false in
/-- The row-quantizing region, entered from every unscoped buffer at `W0`, left at `W1`: its arrays split out of the unscoped buffers at entry and put back at the exit contents; the generator
    register into the class invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (VR0 m) c).arrays ((dat0 (VR0 m) c).arrAt · cfg0.N)
          ∗ Pipeline.unscopedRest (Ix := Unit) (Name := ℕ) (U := UR sig nD τ) (Lvl := ℕ) spec0 c (VR0 m c))
        ⊢ (unscopedBufs c (VX0 m c) : sProp 𝕄) :=
      bufs_of_arrays (p := 0) launch0.win launch0.arr_whole c (rdats m) ((rdats m 0 c).share_full fun _ => rfl)
        (VR0 m c) (VX0 m c) ((dat0 (VR0 m) c).arrAt · cfg0.N) (hF0 m c) (hrest0 m c)
    rw [Pipeline.unscopedBufs_held] at hjoin
    refine (sep_mono (Entails.of_eq ((dat0 (VR0 m) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The weight-quantizing region, entered from every unscoped buffer at `W4`, left at `W5`: its arrays split out of the unscoped buffers at entry and put back at the exit contents; the generator
    register into the class invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).toR
  hwaits := Pipeline.RDat.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (VR1 m) c).arrays ((dat1 (VR1 m) c).arrAt · cfg1.N)
          ∗ Pipeline.unscopedRest (Ix := Unit) (Name := ℕ) (U := UR sig nD τ) (Lvl := ℕ) spec1 c (VR1 m c))
        ⊢ (unscopedBufs c (VR2 m c) : sProp 𝕄) :=
      bufs_of_arrays (p := 1) launch1.win launch1.arr_whole c (rdats m) ((rdats m 1 c).share_full fun _ => rfl)
        (VR1 m c) (VR2 m c) ((dat1 (VR1 m) c).arrAt · cfg1.N) (hF1 m c) (hrest1 m c)
    rw [Pipeline.unscopedBufs_held] at hjoin
    refine (sep_mono (Entails.of_eq ((dat1 (VR1 m) c).toR_arraysAt_eq cfg1.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The matmul region, entered from every unscoped buffer at `W5`, left with its arrays at some contents and every other
    buffer as entered (the last thread state): nothing is said of what its write-backs leave. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (VR2 m) c
  hwaits := Pipeline.RDat.hwaits_of_owed_zero _ _ _ _ L lv 2 fun _ _ => rfl
  pre c := iprop(StableHlo.held (c : Thread nD τ) (Pipeline.ucRefs τ sig) (W5 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VR2 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_open (rdats m 2 c) _) $$ Ha
    icases Ha' with ⟨%A, Ha⟩
    have hjoin := bufs_of_arrays (p := 2) launch2.win launch2.arr_whole c (rdats m) ((rdats m 2 c).share_full fun _ => rfl)
      (VR2 m c) (fun b => W6 m c A b) A (fun w => (W6_arr m c A w).symm)
      (fun b hb => W6_of_ne m c A b fun w e => hb (Finset.mem_image.mpr ⟨w, Finset.mem_univ _, e⟩))
    rw [Pipeline.unscopedBufs_held] at hjoin
    imodintro
    isplitl [Ha Hrest HY]
    · isplitl [Ha Hrest]
      · iexists A; iapply hjoin; isplitl [Ha] <;> iassumption
      iexact HY
    unfold Pipeline.RDat.owesAt Pipeline.owesWithin
    icases HO with ⟨%W, -, HO⟩; iexists W; iexact HO

/-! ## @main as segments, and the launch -/

/-- @main's six segments in order. -/
abbrev segsB : List (Pipeline.RDat.Seg (pcfgs (F := F)) adm (rdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .region (reg2 m) ]

/-- @main IS the run of the segments. -/
theorem main_run (c : Dev nD) : main (F := F) c = Pipeline.RDat.Seg.run (segsB m) := (main_chain c).trans (by chain_rfl)

set_option backward.isDefEq.respectTransparency.types false in
/-- THE FRAME, at any `F`: at the compiled mesh, from any memory with zero counters, every weakly fair execution of
    @main on the TensorCores terminates, nothing faulting, and every final state has both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m) () cellOf_inj emb₁ defs₀ 𝒱₀ L lv m ρ main (segsB m)
    (fun c Q => by rw [main_run m c])
    (by simp only [segsB, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      iintro ⟨⟨⟨%A, Hh⟩, -⟩, HSI⟩
      unfold StableHlo.held
      ihave Hr := (pointsTo_read_all (Pipeline.ucRefs τ sig) (fun b => (((c : Thread nD τ)).1, b)) (W6 m c A) s') $$ [Hh HSI]
      · isplitl [Hh] <;> iassumption
      icases Hr with ⟨%h, HSI⟩
      imodintro
      isplitr
      · ipureintro
        exact ⟨(h _ (mem_uc main_arg0 (by decide))).trans (W6_main_arg0 m c A),
          (h _ (mem_uc main_arg1 (by decide))).trans (W6_main_arg1 m c A)⟩
      · iexact HSI)
    (hQ := fun s h c => h c)

/-- info: 'Cert.Kernel.FrameB.frame' depends on axioms: [propext, Classical.choice, Quot.sound] -/
#guard_msgs in #print axioms frame

end Cert.Kernel.FrameB

end
-- ==== Proof.R0Blocks.lean ====
import proofs.«119196_j24962349924855_2_alg».proof.Proof.Gen.KernelIdeal.Launch
import proofs.«119196_j24962349924855_2_alg».proof.Proof.Gen.KernelIdeal.Skeleton
import proofs.«119196_j24962349924855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The row-quantizing pipeline (grid 16): blocks, the body's triple, the proof data, the obligation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x4096 := Rect.unit (s := S512x4096) ![0, 0] S512x4096.size inb_S512x4096_S512x4096_0_0
abbrev r0_1 : Rect S512x1 := Rect.unit (s := S512x1) ![0, 0] S512x1.size inb_S512x1_S512x1_0_0

/-! ## What the body leaves in each output window's buffer -/

/-- The quantized block: one whole-buffer store of the rounded, clamped, scaled rows. -/
def out0_1 (x0 : Vec F S512x4096 .f32) : Vec F S512x4096 .bf16 :=
  View.canon [⟨r0_0, k0_pay2 (View.ld x0 r0_0)⟩]

/-- The row maxima: one whole-buffer store of the floored row maximum of absolute values. -/
def out0_2 (x0 : Vec F S512x4096 .f32) : Vec F S512x1 .f32 :=
  View.canon [⟨r0_1, k0_pay1 (View.ld x0 r0_0)⟩]

/-- Each store is of the whole buffer, so it covers it. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

end Cert.KernelIdeal.R0

end
-- ==== Proof.R0Body.lean ====
import proofs.«119196_j24962349924855_2_alg».proof.Proof.Gen.KernelIdeal.Launch
import proofs.«119196_j24962349924855_2_alg».proof.Proof.Gen.KernelIdeal.Skeleton
import proofs.«119196_j24962349924855_2_alg».proof.Proof.Gen.KernelIdeal.Points
import proofs.«119196_j24962349924855_2_alg».proof.Proof.R0Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging memrefs, the input's at read contents `x0` and the two outputs' at anything, runs to the
    continuation holding the input's as it was and each output's at `out0_W x0`. -/
theorem sound_kernel0 (c : Dev nD) (E : Set ℕ) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__quantize_x_kernel i arg1 harg1 arg2 harg2 arg3 harg3) K := by
  simp only [cc0__quantize_x_kernel_eq_skeleton]; unfold cc0__quantize_x_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of the pipeline on core `c`: the arrays as the region finds them; after the body at point `t` the
    input's buffer at its block and each output's at `out0_W` of the input block; the class's invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0' (c : Dev nD) : BodyObligation (dat0 (F := F) V c) (defs₀ (F := F)) Variants.none () Set.univ := fun t => by
  rw [bigSep_W0, bigSep_W0]
  exact sound_body0 V c t

theorem body_obligation0 (c : Dev nD) : BodyObligationLoose (dat0 (F := F) V c) (defs₀ (F := F)) Variants.none () Set.univ :=
  (body_obligation0' V c).loose

end Cert.KernelIdeal.R0

end
-- ==== Proof.R1Blocks.lean ====
import proofs.«119196_j24962349924855_2_alg».proof.Proof.Gen.KernelIdeal.Launch
import proofs.«119196_j24962349924855_2_alg».proof.Proof.Gen.KernelIdeal.Skeleton
import proofs.«119196_j24962349924855_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The weight-quantizing pipeline (grid 22, last block overhanging the array): blocks and the body's store -/

/-- Window `w`'s block at point `t`, read off its array as the region finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scale's window (uncut, fetched at the first point only) holds its block at every point, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S512x4096 := Rect.unit (s := S512x4096) ![0, 0] S512x4096.size inb_S512x4096_S512x4096_0_0
abbrev r1_s : Rect S1x1 := Rect.unit (s := S1x1) ![0, 0] S1x1.size inb_S1x1_S1x1_0_0

theorem zeros2 : (![0, 0] : Fin 2 → Nat) = fun _ => 0 := by funext a; fin_cases a <;> rfl

/-! ## What the body leaves in the output window's buffer -/

/-- The ternary block: one whole-buffer store of the rounded, clamped, scaled weights. -/
def out1_2 (x1 : Vec F S1x1 .f32) (x0 : Vec F S512x4096 .f32) : Vec F S512x4096 .bf16 :=
  View.canon [⟨r1_0, k1_pay1 (View.ld x1 r1_s) (View.ld x0 r1_0)⟩]

/-- The store is of the whole buffer, so it covers it. -/
theorem cover1_2 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-- Through whole-buffer rectangles the store's payload is the payload of the buffers' contents. -/
theorem out1_2_eq (x1 : Vec F S1x1 .f32) (x0 : Vec F S512x4096 .f32) : out1_2 x1 x0 = k1_pay1 x1 x0 := by
  unfold out1_2
  rw [View.canon_unit_zero zeros2, View.ld_unit_zero zeros2, View.ld_unit_zero zeros2]

/-- The payload is elementwise in the weights: its value at an index reads the weights at that index only. -/
theorem k1_pay1_pointwise (x1 : Vec F S1x1 .f32) (x0 : Vec F S512x4096 .f32) (j : S512x4096.Idx) :
    k1_pay1 x1 x0 j = k1_pay1 x1 (fun _ => x0 j) j := rfl

theorem k1_pay1_congr (x1 : Vec F S1x1 .f32) (X Y : Vec F S512x4096 .f32) (j : S512x4096.Idx) (h : X j = Y j) :
    k1_pay1 x1 X j = k1_pay1 x1 Y j := by
  rw [k1_pay1_pointwise x1 X j, k1_pay1_pointwise x1 Y j, h]

end Cert.KernelIdeal.R1

end
-- ==== Proof.R1Body.lean ====
import proofs.«119196_j24962349924855_2_alg».proof.Proof.Gen.KernelIdeal.Launch
import proofs.«119196_j24962349924855_2_alg».proof.Proof.Gen.KernelIdeal.Skeleton
import proofs.«119196_j24962349924855_2_alg».proof.Proof.Gen.KernelIdeal.Points
import proofs.«119196_j24962349924855_2_alg».proof.Proof.R1Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging memrefs, the weights' at read contents `x0`, the scale's at `x1` and the output's at
    anything, runs to the continuation holding the inputs' as they were and the output's at `out1_2 x1 x0`. -/
theorem sound_kernel1 (c : Dev nD) (E : Set ℕ) (i : grid1.Coords)
    (arg1 : Memref sig .tc .vmem S512x4096 .f32) (harg1 : arg1.IsWhole)
    (arg2 : Memref sig .tc .vmem S1x1 .f32) (harg2 : arg2.IsWhole)
    (arg3 : Memref sig .tc .vmem S512x4096 .bf16) (harg3 : arg3.IsWhole)
    (x0 : Vec F S512x4096 .f32) (x1 : Vec F S1x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x1 x0)) -∗ K ⟨⟩))
      ⊢ wp frame (wpE (defs₀ (F := F)) Variants.none c none) E (cc1__quantize_w_kernel i arg1 harg1 arg2 harg2 arg3 harg3) K := by
  simp only [cc1__quantize_w_kernel_eq_skeleton]; unfold cc1__quantize_w_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The weights' block at point `t` (its rows inside the array), filled out to the staging buffer's shape with the zero
    word: past the array's end nothing is stated of the buffer, and this filler is never read. -/
def wblk8 (c : Dev nD) (t : Fin cfg1.N) : S512x4096.Idx → Elt F .f32 :=
  win1_0.fill (grid1.coords t) (fun _ => Scalar.ofBits .f32 0#32) (iblk1 V c 0 t)

/-- The proof data of the pipeline on core `c`: the arrays as the region finds them; after the body at point `t` the
    weights' buffer at `wblk8`, the scale's at its block, the output's at the body's store of those two; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => wblk8 V c t
    | ⟨1, _⟩ => iblk1 V c 1 t
    | ⟨2, _⟩ => out1_2 (iblk1 V c 1 t) (wblk8 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = wblk8 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 1 t) (wblk8 V c t) := by dsimp only [dat1]

/-- The weights' buffer, fetched at every point: the block on the rows inside the array, `d` past them. -/
theorem before1_0 (c : Dev nD) (t : Fin cfg1.N) (d) :
    (dat1 V c).before 0 t d = win1_0.fill (grid1.coords t) d (iblk1 V c 0 t) := by
  unfold Dat.before; rw [if_pos (fetch1_0 t)]; rfl

/-- The scale's buffer holds its block at every point, fetched there or not. -/
theorem before1_1 (c : Dev nD) (t : Fin cfg1.N) (d) : (dat1 V c).before 1 t d = iblk1 V c 1 t :=
  before1_1_of V (dat1 V c) (A_eq1 V c 1) (after1_1 V c) t d

/-- On the rows inside the array the filled block is the block. -/
theorem cut_wblk8 (c : Dev nD) (t : Fin cfg1.N) : win1_0.cut (grid1.coords t) (wblk8 V c t) = iblk1 V c 0 t :=
  win1_0.cut_fill _ _ _

/-- On the rows inside the array the body's store does not depend on what fills the weights' buffer past them: the
    payload is elementwise. -/
theorem cut_out1_2 (c : Dev nD) (t : Fin cfg1.N) (x1 : Vec F S1x1 .f32) (d : S512x4096.Idx → Elt F .f32) :
    win1_2.cut (grid1.coords t) (out1_2 x1 (win1_0.fill (grid1.coords t) d (iblk1 V c 0 t)))
      = win1_2.cut (grid1.coords t) (out1_2 x1 (wblk8 V c t)) := by
  funext j
  show out1_2 x1 (win1_0.fill (grid1.coords t) d (iblk1 V c 0 t)) (win1_2.xinj (grid1.coords t) j)
    = out1_2 x1 (wblk8 V c t) (win1_2.xinj (grid1.coords t) j)
  rw [out1_2_eq, out1_2_eq]
  refine k1_pay1_congr x1 _ _ _ ?_
  unfold wblk8
  exact (win1_0.fill_xinj (grid1.coords t) d (iblk1 V c 0 t) j).trans
    (win1_0.fill_xinj (grid1.coords t) _ (iblk1 V c 0 t) j).symm

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the two windows whose last block overhangs the array stated on the rows inside it only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare
        ((cfg1.win 2).fill (cfg1.grid.coords t) d ((cfg1.win 2).cut (cfg1.grid.coords t) ((dat1 V c).after 2 t)))))

/-- The body at any point. The weights' buffer arrives holding its block filled out with some `d₀` past the array's end
    and leaves so; the scale's holds its block; the output's leaves holding the body's store, which on the rows inside
    the array is the store computed from the zero-filled block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ _ _ _ _ _ _ _
    (win1_0.fill (grid1.coords t) d0 (iblk1 V c 0 t)) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after1_0]
    change _ ⊢ owns (c : Thread nD τ) (st1_0 t) fullShare (win1_0.fill (grid1.coords t) d0 (win1_0.cut (grid1.coords t) (wblk8 V c t)))
    rw [cut_wblk8]; try iexact H0
  isplitl [H1]
  · rw [after1_1]; iexact H1
  · iexists (out1_2 (iblk1 V c 1 t) (win1_0.fill (grid1.coords t) d0 (iblk1 V c 0 t)))
    rw [after1_2]
    change _ ⊢ owns (c : Thread nD τ) (st1_2 t) fullShare (win1_2.fill (grid1.coords t) _ (win1_2.cut (grid1.coords t) (out1_2 (iblk1 V c 1 t) (wblk8 V c t))))
    rw [win1_2.fill_congr_cut (grid1.coords t) (cut_out1_2 V c t (iblk1 V c 1 t) d0)]; try iexact H2

/-- The library's body obligation, at every point. -/
theorem body_obligation1 (c : Dev nD) : BodyObligationLoose (dat1 (F := F) V c) (defs₀ (F := F)) Variants.none () Set.univ := fun t => by
  rw [bigSep_W1, bigSep_W1]
  exact sound_body1 V c t

end Cert.KernelIdeal.R1

end
-- ==== Proof.Region2Runs.lean ====
import proofs.«119196_j24962349924855_2_alg».proof.Proof.Gen.KernelIdeal.Launch
import proofs.«119196_j24962349924855_2_alg».proof.Proof.Gen.KernelIdeal.Skeleton
import proofs.«119196_j24962349924855_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The matmul body's two conditions, in closed form over the grid

The grid is 4 x 11 x 8 and the last coordinate is the position along the contracted axis: the body zeroes the output
block at position 0 and rescales it at position 7. -/

/-- "The position along the contracted axis is 0", as the body's scalar chain computes it. -/
abbrev cond2_0 (i : grid2.Coords) : Prop := (Scalar.cmpi .ne (Scalar.extui (Scalar.cmpi .eq (BitVec.ofNat 32 (i 2).val) 0#32)) 0#32) = 1#1
/-- "The position along the contracted axis is 7". -/
abbrev cond2_1 (i : grid2.Coords) : Prop := (Scalar.cmpi .ne (Scalar.extui (Scalar.cmpi .eq (BitVec.ofNat 32 (i 2).val) 7#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 = 7 :=
  (by decide +kernel : ∀ t : Fin grid2.N, cond2_1 (grid2.coords t) ↔ t.val % 8 = 7)

/-- One staging buffer of the output window, through which its contents are stated. -/
abbrev VO2_4 : View sig .tc .vmem S2048x1024 .f32 := (Memref.whole cc2_stg4_0 : Memref sig .tc .vmem S2048x1024 .f32).view
/-- Each window's current staging memref at point `t`, as the pipeline passes it, and its wholeness. -/
abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)

set_option maxHeartbeats 4000000 in
/-- The matmul body in this case of its two conditionals, on whole staging buffers: the four input buffers at their
    contents and returned as they were, the output block's buffer with the case's stores written, as pieces (last
    first) the run itself finds. -/
noncomputable def kernelRun2_A (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : cond2_0 i) (hc1 : ¬cond2_1 i)
    (x3 : Vec F S2048x512 .bf16) (x4 : Vec F S2048x1 .f32) (x5 : Vec F S1024x512 .bf16) (x6 : Vec F S1x1 .f32)  :
    { L4 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L4)) -∗ K ⟨⟩))
          ⊢ wp frame (wpE (defs₀ (F := F)) Variants.none c none) E (cc2__bitlinear_matmul_kernel i arg3 harg3 arg4 harg4 arg5 harg5 arg6 harg6 arg7 harg7) K } := by
  refine ⟨?_, fun E K => ?run⟩
  case run =>
    simp only [cc2__bitlinear_matmul_kernel_eq_skeleton]; unfold cc2__bitlinear_matmul_kernel_skel
    unfold owns
    iintro ⟨⟨%f3, %hf3, H3⟩, ⟨%f4, %hf4, H4⟩, ⟨%f5, %hf5, H5⟩, ⟨%f6, %hf6, H6⟩, ⟨%d7, %f7, -, H7⟩, Hk⟩
    obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- The matmul body in this case of its two conditionals, on whole staging buffers: the four input buffers at their
    contents and returned as they were, the output block's buffer with the case's stores written, as pieces (last
    first) the run itself finds. -/
noncomputable def kernelRun2_B (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : ¬cond2_1 i)
    (x3 : Vec F S2048x512 .bf16) (x4 : Vec F S2048x1 .f32) (x5 : Vec F S1024x512 .bf16) (x6 : Vec F S1x1 .f32) (xo7 : Vec F S2048x1024 .f32) :
    { L4 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo7
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L4)) -∗ K ⟨⟩))
          ⊢ wp frame (wpE (defs₀ (F := F)) Variants.none c none) E (cc2__bitlinear_matmul_kernel i arg3 harg3 arg4 harg4 arg5 harg5 arg6 harg6 arg7 harg7) K } := by
  refine ⟨?_, fun E K => ?run⟩
  case run =>
    simp only [cc2__bitlinear_matmul_kernel_eq_skeleton]; unfold cc2__bitlinear_matmul_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 4000000 in
/-- The matmul body in this case of its two conditionals, on whole staging buffers: the four input buffers at their
    contents and returned as they were, the output block's buffer with the case's stores written, as pieces (last
    first) the run itself finds. -/
noncomputable def kernelRun2_C (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : cond2_1 i)
    (x3 : Vec F S2048x512 .bf16) (x4 : Vec F S2048x1 .f32) (x5 : Vec F S1024x512 .bf16) (x6 : Vec F S1x1 .f32) (xo7 : Vec F S2048x1024 .f32) :
    { L4 : List (View.Piece (Elt F) S2048x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo7
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L4)) -∗ K ⟨⟩))
          ⊢ wp frame (wpE (defs₀ (F := F)) Variants.none c none) E (cc2__bitlinear_matmul_kernel i arg3 harg3 arg4 harg4 arg5 harg5 arg6 harg6 arg7 harg7) K } := by
  refine ⟨?_, fun E K => ?run⟩
  case run =>
    simp only [cc2__bitlinear_matmul_kernel_eq_skeleton]; unfold cc2__bitlinear_matmul_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.R2

end
-- ==== Proof.Region2Out.lean ====
import proofs.«119196_j24962349924855_2_alg».proof.Proof.Region2Runs
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What each case leaves in the output block's staging buffer

Every store of the body writes the whole block, so in each case the pieces the run found cover the block, and what the
buffer holds afterwards is the last store's value: the running sum (the block product added to zero, or to what the
buffer held), rescaled in the last case. -/

theorem cover2_A (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : cond2_0 i) (hc1 : ¬cond2_1 i)
    (x3 : Vec F S2048x512 .bf16) (x4 : Vec F S2048x1 .f32) (x5 : Vec F S1024x512 .bf16) (x6 : Vec F S1x1 .f32) (y : S2048x1024.Idx) :
    ∃ pc ∈ (kernelRun2_A c i arg3 harg3 arg4 harg4 arg5 harg5 arg6 harg6 arg7 harg7 hc0 hc1 x3 x4 x5 x6).1, y ∈ pc.1.set :=
  View.cover_of_tiledL (kernelRun2_A c i arg3 harg3 arg4 harg4 arg5 harg5 arg6 harg6 arg7 harg7 hc0 hc1 x3 x4 x5 x6).1 S2048x1024.size (by sl_kernel_rfl) y

def out2_A (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : cond2_0 i) (hc1 : ¬cond2_1 i)
    (x3 : Vec F S2048x512 .bf16) (x4 : Vec F S2048x1 .f32) (x5 : Vec F S1024x512 .bf16) (x6 : Vec F S1x1 .f32) : Vec F S2048x1024 .f32 :=
  VO2_4.read (Elt F) (VO2_4.writes (Elt F) VO2_4.junk (kernelRun2_A c i arg3 harg3 arg4 harg4 arg5 harg5 arg6 harg6 arg7 harg7 hc0 hc1 x3 x4 x5 x6).1)

theorem cover2_B (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : ¬cond2_1 i)
    (x3 : Vec F S2048x512 .bf16) (x4 : Vec F S2048x1 .f32) (x5 : Vec F S1024x512 .bf16) (x6 : Vec F S1x1 .f32) (xo7 : Vec F S2048x1024 .f32) (y : S2048x1024.Idx) :
    ∃ pc ∈ (kernelRun2_B c i arg3 harg3 arg4 harg4 arg5 harg5 arg6 harg6 arg7 harg7 hc0 hc1 x3 x4 x5 x6 xo7).1, y ∈ pc.1.set :=
  View.cover_of_tiledL (kernelRun2_B c i arg3 harg3 arg4 harg4 arg5 harg5 arg6 harg6 arg7 harg7 hc0 hc1 x3 x4 x5 x6 xo7).1 S2048x1024.size (by sl_kernel_rfl) y

def out2_B (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : ¬cond2_1 i)
    (x3 : Vec F S2048x512 .bf16) (x4 : Vec F S2048x1 .f32) (x5 : Vec F S1024x512 .bf16) (x6 : Vec F S1x1 .f32) (xo7 : Vec F S2048x1024 .f32) : Vec F S2048x1024 .f32 :=
  VO2_4.read (Elt F) (VO2_4.writes (Elt F) VO2_4.junk (kernelRun2_B c i arg3 harg3 arg4 harg4 arg5 harg5 arg6 harg6 arg7 harg7 hc0 hc1 x3 x4 x5 x6 xo7).1)

theorem cover2_C (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : cond2_1 i)
    (x3 : Vec F S2048x512 .bf16) (x4 : Vec F S2048x1 .f32) (x5 : Vec F S1024x512 .bf16) (x6 : Vec F S1x1 .f32) (xo7 : Vec F S2048x1024 .f32) (y : S2048x1024.Idx) :
    ∃ pc ∈ (kernelRun2_C c i arg3 harg3 arg4 harg4 arg5 harg5 arg6 harg6 arg7 harg7 hc0 hc1 x3 x4 x5 x6 xo7).1, y ∈ pc.1.set :=
  View.cover_of_tiledL (kernelRun2_C c i arg3 harg3 arg4 harg4 arg5 harg5 arg6 harg6 arg7 harg7 hc0 hc1 x3 x4 x5 x6 xo7).1 S2048x1024.size (by sl_kernel_rfl) y

def out2_C (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : cond2_1 i)
    (x3 : Vec F S2048x512 .bf16) (x4 : Vec F S2048x1 .f32) (x5 : Vec F S1024x512 .bf16) (x6 : Vec F S1x1 .f32) (xo7 : Vec F S2048x1024 .f32) : Vec F S2048x1024 .f32 :=
  VO2_4.read (Elt F) (VO2_4.writes (Elt F) VO2_4.junk (kernelRun2_C c i arg3 harg3 arg4 harg4 arg5 harg5 arg6 harg6 arg7 harg7 hc0 hc1 x3 x4 x5 x6 xo7).1)

theorem hz2 : (![0, 0] : Fin 2 → Nat) = fun _ => 0 := funext fun a => by fin_cases a <;> rfl

/-- At position 0 the buffer ends at the block product added to the zero block. -/
theorem out2_A_eq (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : cond2_0 i) (hc1 : ¬cond2_1 i)
    (x3 : Vec F S2048x512 .bf16) (x4 : Vec F S2048x1 .f32) (x5 : Vec F S1024x512 .bf16) (x6 : Vec F S1x1 .f32) :
    out2_A c i arg3 harg3 arg4 harg4 arg5 harg5 arg6 harg6 arg7 harg7 hc0 hc1 x3 x4 x5 x6 = k2_pay2 x3 x5 (k2_pay1 (F := F)) := by
  unfold out2_A
  rw [View.read_writes_eq_canon _ _ _ (cover2_A c i arg3 harg3 arg4 harg4 arg5 harg5 arg6 harg6 arg7 harg7 hc0 hc1 x3 x4 x5 x6)]
  unfold kernelRun2_A
  dsimp only
  rw [View.canon_cons_unit_zero hz2]
  sl_unfold_run_names
  rw [View.readCov_unit_zero _ hz2]
  simp only [View.readAt_eq_ld, harg3.read_unread, harg5.read_unread]
  rw [View.ld_unit_zero (S := S2048x512) hz2, View.ld_unit_zero (S := S1024x512) hz2]

/-- At positions 1 to 6 it ends at the block product added to what it held. -/
theorem out2_B_eq (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : ¬cond2_1 i)
    (x3 : Vec F S2048x512 .bf16) (x4 : Vec F S2048x1 .f32) (x5 : Vec F S1024x512 .bf16) (x6 : Vec F S1x1 .f32) (xo7 : Vec F S2048x1024 .f32) :
    out2_B c i arg3 harg3 arg4 harg4 arg5 harg5 arg6 harg6 arg7 harg7 hc0 hc1 x3 x4 x5 x6 xo7 = k2_pay2 x3 x5 xo7 := by
  unfold out2_B
  rw [View.read_writes_eq_canon _ _ _ (cover2_B c i arg3 harg3 arg4 harg4 arg5 harg5 arg6 harg6 arg7 harg7 hc0 hc1 x3 x4 x5 x6 xo7)]
  unfold kernelRun2_B
  dsimp only
  rw [View.canon_unit_zero hz2]
  simp only [View.readAt_eq_ld, harg3.read_unread, harg5.read_unread, harg7.read_unread]
  rw [View.ld_unit_zero (S := S2048x512) hz2, View.ld_unit_zero (S := S1024x512) hz2, View.ld_unit_zero (S := S2048x1024) hz2]

/-- At position 7 it ends at that sum rescaled row by row. -/
theorem out2_C_eq (c : Dev nD) (i : grid2.Coords) (arg3 : Memref sig .tc .vmem S2048x512 .bf16) (harg3 : arg3.IsWhole) (arg4 : Memref sig .tc .vmem S2048x1 .f32) (harg4 : arg4.IsWhole) (arg5 : Memref sig .tc .vmem S1024x512 .bf16) (harg5 : arg5.IsWhole) (arg6 : Memref sig .tc .vmem S1x1 .f32) (harg6 : arg6.IsWhole) (arg7 : Memref sig .tc .vmem S2048x1024 .f32) (harg7 : arg7.IsWhole) (hc0 : ¬cond2_0 i) (hc1 : cond2_1 i)
    (x3 : Vec F S2048x512 .bf16) (x4 : Vec F S2048x1 .f32) (x5 : Vec F S1024x512 .bf16) (x6 : Vec F S1x1 .f32) (xo7 : Vec F S2048x1024 .f32) :
    out2_C c i arg3 harg3 arg4 harg4 arg5 harg5 arg6 harg6 arg7 harg7 hc0 hc1 x3 x4 x5 x6 xo7 = k2_pay3 x4 x6 (k2_pay2 x3 x5 xo7) := by
  unfold out2_C
  rw [View.read_writes_eq_canon _ _ _ (cover2_C c i arg3 harg3 arg4 harg4 arg5 harg5 arg6 harg6 arg7 harg7 hc0 hc1 x3 x4 x5 x6 xo7)]
  unfold kernelRun2_C
  dsimp only
  rw [View.canon_cons_unit_zero hz2]
  sl_unfold_run_names
  rw [View.readCov_unit_zero _ hz2]
  simp only [View.readAt_eq_ld, harg3.read_unread, harg4.read_unread, harg5.read_unread, harg6.read_unread, harg7.read_unread]
  rw [View.ld_unit_zero (S := S2048x512) hz2, View.ld_unit_zero (S := S1024x512) hz2, View.ld_unit_zero (S := S2048x1024) hz2,
    View.ld_unit_zero (S := S2048x1) hz2, View.ld_unit_zero (S := S1x1) hz2]

end Cert.KernelIdeal.R2

end
-- ==== Proof.Region2Dat.lean ====
import proofs.«119196_j24962349924855_2_alg».proof.Proof.Region2Out
import Idealize.ShloMosaic.Lib.Pipeline.Frame
import Idealize.ShloMosaic.Lib.Pipeline.FrameBody

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The matmul region's proof data

The region is entered with the unscoped buffers at `V`. Its grid is 4 x 11 x 8: row block `i` (2048 rows), column
block `j` (1024 columns of the result = 1024 rows of the ternary weights; the last one overhangs the 11008 rows by
256) and position `k` along the contracted axis (512 of the 4096 columns). The output block's staging buffer carries the
running sum from position 0 to position 7 of each (i, j). -/

variable (V : (c : Dev nD) → (b : Ref sig .tc) → Buf (Elt F) ((c : Thread nD τ).loc b))

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The fillers for the rows and columns past the arrays' end: the zero words. -/
abbrev z2 : Vec F S1024x512 .bf16 := fun _ => Scalar.ofBits .bf16 0#16
abbrev z4 : Vec F S2048x1024 .f32 := fun _ => Scalar.ofBits .f32 0#32

/-- The weights' block as the proof data name it: the rows inside the array, zero rows past its end. -/
def wblk (c : Dev nD) (t : Fin cfg2.N) : Vec F S1024x512 .bf16 :=
  win2_2.fill (grid2.coords t) (z2 (F := F)) (iblk2 V c 2 t)

/-- A block of running sums as the next point finds it: its columns inside the array, zeros past the end. -/
def prevOf (t' : Fin cfg2.N) (X : Vec F S2048x1024 .f32) : Vec F S2048x1024 .f32 :=
  win2_4.fill (grid2.coords t') (z4 (F := F)) (win2_4.cut (grid2.coords t') X)

/-- THE RUNNING SUM. What the output block's staging buffer holds after the body at position `n` of the grid: at
    position 0 along the contracted axis the first block product (added to zeros), at later positions the block product
    added to what the point before left, at position 7 that sum rescaled. -/
def accAt (c : Dev nD) : (n : ℕ) → n < cfg2.N → Vec F S2048x1024 .f32
  | 0, hn => k2_pay2 (iblk2 V c 0 ⟨0, hn⟩) (wblk V c ⟨0, hn⟩) (k2_pay1 (F := F))
  | n + 1, hn =>
    if (n + 1) % 8 = 0 then k2_pay2 (iblk2 V c 0 ⟨n + 1, hn⟩) (wblk V c ⟨n + 1, hn⟩) (k2_pay1 (F := F))
    else if (n + 1) % 8 = 7 then
      k2_pay3 (iblk2 V c 1 ⟨n + 1, hn⟩) (iblk2 V c 3 ⟨n + 1, hn⟩)
        (k2_pay2 (iblk2 V c 0 ⟨n + 1, hn⟩) (wblk V c ⟨n + 1, hn⟩) (prevOf ⟨n, Nat.lt_of_succ_lt hn⟩ (accAt c n (Nat.lt_of_succ_lt hn))))
    else k2_pay2 (iblk2 V c 0 ⟨n + 1, hn⟩) (wblk V c ⟨n + 1, hn⟩) (prevOf ⟨n, Nat.lt_of_succ_lt hn⟩ (accAt c n (Nat.lt_of_succ_lt hn)))

/-- The point before `t`. -/
abbrev pred2 (t : Fin cfg2.N) : Fin cfg2.N := ⟨t.val - 1, Nat.lt_of_le_of_lt (Nat.sub_le _ _) t.isLt⟩

theorem accAt_A (c : Dev nD) (t : Fin cfg2.N) (h0 : t.val % 8 = 0) :
    accAt V c t.val t.isLt = k2_pay2 (iblk2 V c 0 t) (wblk V c t) (k2_pay1 (F := F)) := by
  obtain ⟨n, hn⟩ := t
  cases n with
  | zero => exact rfl
  | succ n => exact (if_pos h0).trans rfl

theorem accAt_B (c : Dev nD) (t : Fin cfg2.N) (h0 : ¬t.val % 8 = 0) (h1 : ¬t.val % 8 = 7) :
    accAt V c t.val t.isLt = k2_pay2 (iblk2 V c 0 t) (wblk V c t) (prevOf (pred2 t) (accAt V c (pred2 t).val (pred2 t).isLt)) := by
  obtain ⟨n, hn⟩ := t
  cases n with
  | zero => exact absurd (Nat.zero_mod _) h0
  | succ n => exact (if_neg h0).trans ((if_neg h1).trans rfl)

theorem accAt_C (c : Dev nD) (t : Fin cfg2.N) (h1 : t.val % 8 = 7) :
    accAt V c t.val t.isLt = k2_pay3 (iblk2 V c 1 t) (iblk2 V c 3 t)
      (k2_pay2 (iblk2 V c 0 t) (wblk V c t) (prevOf (pred2 t) (accAt V c (pred2 t).val (pred2 t).isLt))) := by
  obtain ⟨n, hn⟩ := t
  cases n with
  | zero => exact absurd (show (0 : ℕ) % 8 = 7 from h1) (by decide)
  | succ n =>
    have h1' : (n + 1) % 8 = 7 := h1
    exact (if_neg (by omega)).trans ((if_pos h1').trans rfl)

/-- The proof data of the matmul pipeline on core `c`: the arrays as the region finds them; after the body each input's
    buffer at its block (the weights' with zero rows past the array's end) and the output's at the running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => wblk V c t
    | ⟨3, _⟩ => iblk2 V c 3 t
    | ⟨4, _⟩ => accAt V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = wblk V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = accAt V c t.val t.isLt := by dsimp only [dat2]

/-- The activations' block is in its buffer at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- The row scales' block likewise (fetched when the row block changes). -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- The global scale likewise (fetched once). -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- The weights' block is fetched at every point: its rows inside the array, whatever the buffer held past them. -/
theorem before2_2 (c : Dev nD) (t : Fin cfg2.N) (d) :
    (dat2 V c).before 2 t d = win2_2.fill (grid2.coords t) d (iblk2 V c 2 t) :=
  ((dat2 V c).before_fetched 2 t (fetch2_2 t) d).trans (by unfold Dat.fetched Dat.blockOf iblk2; rw [A_eq2]; try rfl)
/-- After position 0 the output block's buffer holds what the point before left on the columns inside the array. -/
theorem before2_4 (c : Dev nD) (t : Fin cfg2.N) (h0 : ¬t.val % 8 = 0) (d) :
    (dat2 V c).before 4 t d = win2_4.fill (grid2.coords (pred2 t)) d (win2_4.cut (grid2.coords (pred2 t)) (accAt V c (pred2 t).val (pred2 t).isLt)) := by
  have hN : t.val < 352 := lt_of_lt_of_eq t.isLt (show cfg2.N = 352 from N_2)
  rw [Dat.before_out_acc _ 4 rfl t (by omega) (Bool.eq_false_iff.mpr fun h => by have := (flush2_4 _).mp h; dsimp only at this; omega) (fun _ => rfl)]
  unfold Dat.kept
  rw [after2_4]

end Cert.KernelIdeal.R2

end
-- ==== Proof.Region2Body.lean ====
import proofs.«119196_j24962349924855_2_alg».proof.Proof.Region2Dat

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The matmul region's body obligation

The weights' window and the output window have a last block that overhangs their arrays, so the obligation states
their buffers on the part inside the array only. What makes that possible is that the part of the body's result inside
the array does not read the staging rows past the array's end: stated here as a hypothesis on the float operations
(`Local2`), which the extended reals satisfy (the product is a sum over each result element's own row and column). -/

variable (V : (c : Dev nD) → (b : Ref sig .tc) → Buf (Elt F) ((c : Thread nD τ).loc b))

/-- The columns of a block product inside the array read only the weights' rows inside the array and the running
    block's columns inside it. -/
structure Local2 (F : FTy → Type) [FloatOps F] : Prop where
  first : ∀ (t : Fin cfg2.N) (a : Vec F S2048x512 .bf16) (B : (win2_2.xblock (grid2.coords t)).Idx → Elt F .bf16)
    (d2 d2' : Vec F S1024x512 .bf16),
    win2_4.cut (grid2.coords t) (k2_pay2 a (win2_2.fill (grid2.coords t) d2 B) (k2_pay1 (F := F)))
      = win2_4.cut (grid2.coords t) (k2_pay2 a (win2_2.fill (grid2.coords t) d2' B) (k2_pay1 (F := F)))
  later : ∀ (t : Fin cfg2.N), ¬t.val % 8 = 0 → ∀ (a : Vec F S2048x512 .bf16) (B : (win2_2.xblock (grid2.coords t)).Idx → Elt F .bf16)
    (d2 d2' : Vec F S1024x512 .bf16) (C : (win2_4.xblock (grid2.coords (pred2 t))).Idx → Elt F .f32) (d d' : Vec F S2048x1024 .f32),
    win2_4.cut (grid2.coords t) (k2_pay2 a (win2_2.fill (grid2.coords t) d2 B) (win2_4.fill (grid2.coords (pred2 t)) d C))
      = win2_4.cut (grid2.coords t) (k2_pay2 a (win2_2.fill (grid2.coords t) d2' B) (win2_4.fill (grid2.coords (pred2 t)) d' C))

/-- The rescaling is entry by entry in the running block. -/
theorem k2_pay3_congr (x4 : Vec F S2048x1 .f32) (x6 : Vec F S1x1 .f32) (X Y : Vec F S2048x1024 .f32) (j : S2048x1024.Idx)
    (h : X j = Y j) : k2_pay3 x4 x6 X j = k2_pay3 x4 x6 Y j := by
  unfold k2_pay3
  show FloatOps.mulf (shapeCast S2048x1024 X shapeCasts_S2048x1024_S2048x1024 j) _ = FloatOps.mulf (shapeCast S2048x1024 Y shapeCasts_S2048x1024_S2048x1024 j) _
  rw [shapeCast_self X, shapeCast_self Y, h]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns: the weights' and the output's buffers stated on the part inside the array. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ (∃ d, owns (c : Thread nD τ) (ms2_2 t) fullShare (win2_2.fill (grid2.coords t) d (win2_2.cut (grid2.coords t) ((dat2 V c).after 2 t))))
    ∗ owns (c : Thread nD τ) (ms2_3 t) fullShare ((dat2 V c).after 3 t)
    ∗ (∃ d, owns (c : Thread nD τ) (ms2_4 t) fullShare (win2_4.fill (grid2.coords t) d (win2_4.cut (grid2.coords t) ((dat2 V c).after 4 t)))))

set_option maxHeartbeats 1600000 in
theorem sound_body2 (hloc : Local2 F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 352 := lt_of_lt_of_eq t.isLt (show cfg2.N = 352 from N_2)
  have hw : win2_2.cut (grid2.coords t) (wblk V c t) = iblk2 V c 2 t := win2_2.cut_fill _ _ _
  rw [hw]
  by_cases h0 : t.val % 8 = 0
  · have h1 : ¬cond2_1 (grid2.coords t) := fun h => by have := (hcond2_1 t).mp h; omega
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) h1 (iblk2 V c 0 t) (iblk2 V c 1 t)
      (win2_2.fill (grid2.coords t) d2 (iblk2 V c 2 t)) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexists d2; iexact H2
    isplitl [H3]; · iexact H3
    iexists (k2_pay2 (iblk2 V c 0 t) (win2_2.fill (grid2.coords t) d2 (iblk2 V c 2 t)) (k2_pay1 (F := F)))
    rw [win2_4.fill_congr_cut (grid2.coords t) (by rw [accAt_A V c t h0]; exact hloc.first t _ _ _ _)]
    unfold owns; iexists _; isplitr
    swap; · iexact H4
    ipureintro
    exact (View.read_writes_of_cover _ _ _ _ _ (cover2_A c _ _ _ _ _ _ _ _ _ _ _ _ _ _ _ _ _)).trans
      (out2_A_eq c (grid2.coords t) _ _ _ _ _ _ _ _ _ _ ((hcond2_0 t).mpr h0) h1 _ _ _ _)
  · have hc0 : ¬cond2_0 (grid2.coords t) := fun h => h0 ((hcond2_0 t).mp h)
    simp only [before2_4 V c t h0]
    by_cases h1 : t.val % 8 = 7
    · iintro ⟨HΦ, Ho, ⟨%d0, H0⟩, ⟨%d1, H1⟩, ⟨%d2, H2⟩, ⟨%d3, H3⟩, ⟨%d4, H4⟩⟩
      iapply ((kernelRun2_C c (grid2.coords t) _ _ _ _ _ _ _ _ _ _ hc0 ((hcond2_1 t).mpr h1) (iblk2 V c 0 t) (iblk2 V c 1 t)
        (win2_2.fill (grid2.coords t) d2 (iblk2 V c 2 t)) (iblk2 V c 3 t)
        (win2_4.fill (grid2.coords (pred2 t)) d4 (win2_4.cut (grid2.coords (pred2 t)) (accAt V c (pred2 t).val (pred2 t).isLt)))).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexists d2; iexact H2
      isplitl [H3]; · iexact H3
      iexists (k2_pay3 (iblk2 V c 1 t) (iblk2 V c 3 t) (k2_pay2 (iblk2 V c 0 t) (win2_2.fill (grid2.coords t) d2 (iblk2 V c 2 t))
        (win2_4.fill (grid2.coords (pred2 t)) d4 (win2_4.cut (grid2.coords (pred2 t)) (accAt V c (pred2 t).val (pred2 t).isLt)))))
      rw [win2_4.fill_congr_cut (grid2.coords t) (by
        rw [accAt_C V c t h1]
        funext y
        exact k2_pay3_congr _ _ _ _ _ (congrFun (hloc.later t h0 _ _ _ _ _ _ _) y))]
      unfold owns; iexists _; isplitr
      swap; · iexact H4
      ipureintro
      exact (View.read_writes_of_cover _ _ _ _ _ (cover2_C c _ _ _ _ _ _ _ _ _ _ _ _ _ _ _ _ _ _)).trans
        (out2_C_eq c (grid2.coords t) _ _ _ _ _ _ _ _ _ _ hc0 ((hcond2_1 t).mpr h1) _ _ _ _ _)
    · have hc1 : ¬cond2_1 (grid2.coords t) := fun h => h1 ((hcond2_1 t).mp h)
      iintro ⟨HΦ, Ho, ⟨%d0, H0⟩, ⟨%d1, H1⟩, ⟨%d2, H2⟩, ⟨%d3, H3⟩, ⟨%d4, H4⟩⟩
      iapply ((kernelRun2_B c (grid2.coords t) _ _ _ _ _ _ _ _ _ _ hc0 hc1 (iblk2 V c 0 t) (iblk2 V c 1 t)
        (win2_2.fill (grid2.coords t) d2 (iblk2 V c 2 t)) (iblk2 V c 3 t)
        (win2_4.fill (grid2.coords (pred2 t)) d4 (win2_4.cut (grid2.coords (pred2 t)) (accAt V c (pred2 t).val (pred2 t).isLt)))).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexists d2; iexact H2
      isplitl [H3]; · iexact H3
      iexists (k2_pay2 (iblk2 V c 0 t) (win2_2.fill (grid2.coords t) d2 (iblk2 V c 2 t))
        (win2_4.fill (grid2.coords (pred2 t)) d4 (win2_4.cut (grid2.coords (pred2 t)) (accAt V c (pred2 t).val (pred2 t).isLt))))
      rw [win2_4.fill_congr_cut (grid2.coords t) (by rw [accAt_B V c t h0 h1]; exact hloc.later t h0 _ _ _ _ _ _ _)]
      unfold owns; iexists _; isplitr
      swap; · iexact H4
      ipureintro
      exact (View.read_writes_of_cover _ _ _ _ _ (cover2_B c _ _ _ _ _ _ _ _ _ _ _ _ _ _ _ _ _ _)).trans
        (out2_B_eq c (grid2.coords t) _ _ _ _ _ _ _ _ _ _ hc0 hc1 _ _ _ _ _)

/-- The library's body obligation, at every point. -/
theorem body_obligation2 (hloc : Local2 F) (c : Dev nD) :
    BodyObligationLoose (dat2 (F := F) V c) (defs₀ (F := F)) Variants.none () Set.univ := fun t => by
  rw [bigSep_W2, bigSep_W2]
  exact sound_body2 V hloc c t

end Cert.KernelIdeal.R2

end
-- ==== Proof.RunI.lean ====
import proofs.«119196_j24962349924855_2_alg».proof.Proof.R0Body
import proofs.«119196_j24962349924855_2_alg».proof.Proof.R1Body
import proofs.«119196_j24962349924855_2_alg».proof.Proof.Region2Body
import proofs.«119196_j24962349924855_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.RunI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.R0 Cert.KernelIdeal.R1 Cert.KernelIdeal.R2

/-! # The run of @main: a quantize region, three stretches of host operations, a quantize region, the matmul region

The buffer contents at each boundary are a fold from the launch memory: a region leaves its arrays at what its
write-backs make of them and every other buffer as it found it; a host stretch leaves what its operations compute. -/

variable (m : (ℓ : Loc nD τ sig) → Buf (Elt F) ℓ) (ρ : Dev nD → PrngReg)

/-- Core `c`'s buffers at launch: region 0's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host stretches (region 1's entry). -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W0`, left at `W1`; its arrays split out
    of the unscoped buffers and put back at their exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m ρ) c
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`; its arrays split out
    of the unscoped buffers and put back at their exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V4 m ρ) c
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hloc : Local2 F)

set_option backward.isDefEq.respectTransparency.types false in
/-- Region 2 over the thread state: entered from every unscoped buffer at `W5`, left at `W6`; its arrays split out
    of the unscoped buffers and put back at their exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) hloc c
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .region (reg2 m ρ hloc) ]
theorem main_run (c : Dev nD) : main (F := F) c = Pipeline.Seg.run (segs m ρ hloc) := (main_chain c).trans (by chain_rfl)

set_option backward.isDefEq.respectTransparency.types false in
/-- At the compiled mesh, from any memory with zero counters: every weakly fair execution of @main terminates, nothing
    faulting, and every final state has every unscoped buffer at the last boundary's contents. -/
theorem run_all (hloc : Local2 F) : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.RunI

end
-- ==== Proof.WalkI.lean ====
import proofs.«119196_j24962349924855_2_alg».proof.Proof.RunI

set_option maxRecDepth 16384

noncomputable section

namespace Cert.KernelIdeal.RunI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Cert.KernelIdeal.R0 Cert.KernelIdeal.R1 Cert.KernelIdeal.R2

variable (m : (ℓ : Loc nD τ sig) → Buf (Elt F) ℓ) (ρ : Dev nD → PrngReg)

/-! # The fold read at the buffers the result is stated over

The contents at the last boundary, read at the two arguments (no host stretch writes one; a region reads it through
an input window or bypasses it), at the result (what the matmul pipeline leaves in its output array), and at the
matmul's four operand arrays (what the two quantizing pipelines leave, the three host stretches write none of them;
the weight scale, which the second quantizing pipeline only reads). -/

/-- A buffer none of the three host stretches writes holds after them what it held before. -/
theorem W4_of (c : Dev nD) (r : Ref sig .tc) (h2 : r ∉ hostOps1_2_W) (h1 : r ∉ hostOps1_1_W) (h0 : r ∉ hostOps1_W) :
    W4 m ρ c (Proc.devRef .tc r) = W1 m ρ c (Proc.devRef .tc r) :=
  (StableHlo.after_of_writes_sub hostOps1_2 _ hostOps1_2_writes h2).trans
    ((StableHlo.after_of_writes_sub hostOps1_1 _ hostOps1_1_writes h1).trans
      (StableHlo.after_of_writes_sub hostOps1 _ hostOps1_writes h0))

/-! ## The arguments -/

theorem V0_main_arg0 (c : Dev nD) : V0 m ρ c main_arg0 = m ((c : Thread nD τ).loc main_arg0) := rfl

theorem W1_main_arg1 (c : Dev nD) : W1 m ρ c (Proc.devRef .tc main_arg1) = m ((c : Thread nD τ).loc main_arg1) :=
  (W1_of_ne m ρ c main_arg1 (by decide)).trans rfl

theorem V4_main_arg1 (c : Dev nD) : V4 m ρ c main_arg1 = m ((c : Thread nD τ).loc main_arg1) :=
  (W4_of m ρ c main_arg1 (by decide) (by decide) (by decide)).trans (W1_main_arg1 m ρ c)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W1 m ρ c (Proc.devRef .tc main_arg0) := W4_of m ρ c main_arg0 (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := (W5_arr m ρ c 0).trans (((dat1 (V4 m ρ) c).arrAt_in 0 rfl _).trans (A_eq1 (V4 m ρ) c 0))
    _ = m ((c : Thread nD τ).loc main_arg1) := V4_main_arg1 m ρ c

/-! ## The result -/

theorem W6_main_v8 (c : Dev nD) : W6 m ρ c (Proc.devRef .tc main_v8) = (dat2 (V5 m ρ) c).arrAt 4 cfg2.N :=
  W6_arr m ρ c 4

/-! ## The matmul's operand arrays -/

theorem V5_main_v0_0 (c : Dev nD) : V5 m ρ c main_v0_0 = (dat0 (V0 m ρ) c).arrAt 1 cfg0.N :=
  (W5_of_ne m ρ c main_v0_0 (by decide)).trans
    ((W4_of m ρ c main_v0_0 (by decide) (by decide) (by decide)).trans (W1_arr m ρ c 1))

theorem V5_main_v0_1 (c : Dev nD) : V5 m ρ c main_v0_1 = (dat0 (V0 m ρ) c).arrAt 2 cfg0.N :=
  (W5_of_ne m ρ c main_v0_1 (by decide)).trans
    ((W4_of m ρ c main_v0_1 (by decide) (by decide) (by decide)).trans (W1_arr m ρ c 2))

theorem V5_main_v7 (c : Dev nD) : V5 m ρ c main_v7 = (dat1 (V4 m ρ) c).arrAt 2 cfg1.N :=
  W5_arr m ρ c 2

theorem V5_main_v6 (c : Dev nD) : V5 m ρ c main_v6 = V4 m ρ c main_v6 :=
  (W5_arr m ρ c 1).trans (((dat1 (V4 m ρ) c).arrAt_in 1 rfl _).trans (A_eq1 (V4 m ρ) c 1))

end Cert.KernelIdeal.RunI

end
-- ==== Proof.Spec.lean ====
/-
  The mathematical content of the quantized linear layer, as functions of the two input arrays read as
  extended reals: the per-row scale amax, the 8-bit quantized activations Q, the global weight scale SW, the
  ternary weights TW, and the two result formulas (the reference's, which dequantizes each activation before
  the contraction, and the kernel's, which contracts the quantized values and rescales once per output).
-/
import Idealize.ShloMosaic.PureOps.Ideal
import Idealize.ShloMosaic.PureOps.Ideal.Laws
import Idealize.ShloMosaic.Lib.ValueIdx

noncomputable section

namespace Cert.BitLinear

open Idealize.ShloMosaic Idealize.ShloMosaic.ValueIdx

/-- The activations, the weights and the result, as arrays of extended reals. -/
abbrev XArr : Type := (⟨2, ![8192, 4096]⟩ : Shape).Idx → EReal
abbrev WArr : Type := (⟨2, ![11008, 4096]⟩ : Shape).Idx → EReal
abbrev OArr : Type := (⟨2, ![8192, 11008]⟩ : Shape).Idx → EReal

/-- The float literals of the two programs (kept as bit patterns). -/
abbrev cEps5 : EReal := Ideal.ofBits .f32 0x3727C5AC#32
abbrev cEps2 : EReal := Ideal.ofBits .f32 0x360637BD#32
abbrev c127 : EReal := Ideal.ofBits .f32 0x42FE0000#32
abbrev cNeg128 : EReal := Ideal.ofBits .f32 0xC3000000#32
abbrev cOne : EReal := Ideal.ofBits .f32 0x3F800000#32
abbrev cNegOne : EReal := Ideal.ofBits .f32 0xBF800000#32
abbrev cZero : EReal := Ideal.ofBits .f32 0x00000000#32
abbrev cCount : EReal := Ideal.ofBits .f32 0x4C2C0000#32

/-- The largest absolute value of row t (absolute value as max y (-y)), as a supremum over the row. -/
def rowAbsMax (x : XArr) (t : Fin 8192) : EReal :=
  (Finset.univ : Finset (Fin 4096)).sup (fun k => max (x (ix2 t k)) (-(x (ix2 t k))))

/-- The row scale: the row's largest absolute value, clamped below by the small literal. -/
def amax (x : XArr) (t : Fin 8192) : EReal := max cEps5 (rowAbsMax x t)

/-- The quantized activation: round to even of x * (127 / amax), clamped to [-128, 127]. -/
def Q (x : XArr) (t : Fin 8192) (i : Fin 4096) : EReal :=
  min c127 (max cNeg128 (Ideal.liftRound Ideal.roundHalfEven (x (ix2 t i) * Ideal.div c127 (amax x t))))

/-- The sum of the absolute values of all the weights, from the literal zero. -/
def absSum (w : WArr) : EReal :=
  cZero + ∑ j : (⟨2, ![11008, 4096]⟩ : Shape).Idx, max (w j) (-(w j))

/-- The weight scale: one over the mean absolute weight, the mean clamped below by the small literal. -/
def SW (w : WArr) : EReal := Ideal.div cOne (max cEps5 (Ideal.div (absSum w) cCount))

/-- The ternary weight: round to even of w * SW, clamped to [-1, 1]. -/
def TW (w : WArr) (o : Fin 11008) (i : Fin 4096) : EReal :=
  min cOne (max cNegOne (Ideal.liftRound Ideal.roundHalfEven (w (ix2 o i) * SW w)))

/-- The reference's result at row t, column o. -/
def GrefAt (x : XArr) (w : WArr) (t : Fin 8192) (o : Fin 11008) : EReal :=
  (∑ k : Fin 4096, Ideal.div (Q x t k) (Ideal.div c127 (amax x t + cEps2)) * TW w o k) * SW w

/-- The kernel's result at row t, column o. -/
def GkerAt (x : XArr) (w : WArr) (t : Fin 8192) (o : Fin 11008) : EReal :=
  (∑ k : Fin 4096, Q x t k * TW w o k) * Ideal.div (SW w * (amax x t + cEps2)) c127

def Gref (x : XArr) (w : WArr) : OArr := fun j => GrefAt x w (j 0) (j 1)
def Gker (x : XArr) (w : WArr) : OArr := fun j => GkerAt x w (j 0) (j 1)

theorem Gref_ix2 (x : XArr) (w : WArr) (t : Fin 8192) (o : Fin 11008) : Gref x w (ix2 t o) = GrefAt x w t o := rfl
theorem Gker_ix2 (x : XArr) (w : WArr) (t : Fin 8192) (o : Fin 11008) : Gker x w (ix2 t o) = GkerAt x w t o := rfl

end Cert.BitLinear

end
-- ==== Proof.LibRowExtrema.lean ====
/-
  Row extrema of an [a, b] array of extended reals read at a row, as a supremum or an infimum over the row: the
  vector unit's reduction along the last axis started from -inf (maximum) or +inf (minimum), and the host's reduction
  along the last axis from a scalar initial value that is -inf or +inf. A fold of max from the bottom element is the
  supremum, a fold of min from the top element the infimum; so a row extremum taken tile by tile and one taken on
  the whole row can be compared by the order alone.
-/
import Idealize.ShloMosaic.PureOps.Ideal.Laws
import Idealize.ShloMosaic.Lib.ValueIdx

noncomputable section

namespace Cert.Lib.RowExtrema

open Idealize.ShloMosaic Idealize.ShloMosaic.ValueIdx

theorem negInf_f32 : Ideal.ofBits .f32 0xFF800000#32 = (⊥ : EReal) := by simp [Ideal.ofBits, Ideal.ieee]
theorem posInf_f32 : Ideal.ofBits .f32 0x7F800000#32 = (⊤ : EReal) := by simp [Ideal.ofBits, Ideal.ieee]

/-- A fold of `max` from the bottom element is the supremum. -/
theorem fold_max_bot {ι : Type} (s : Finset ι) (f : ι → EReal) : s.fold max ⊥ f = s.sup f := rfl
/-- A fold of `min` from the top element is the infimum. -/
theorem fold_min_top {ι : Type} (s : Finset ι) (f : ι → EReal) : s.fold min ⊤ f = s.inf f := rfl

/-- The vector unit's maximum over the last axis of an `[a, b]` array from -inf, at row `r`. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).sup (fun k => src (ix2 r k)) := by
  have e : (Finset.univ : Finset (Fin b)).fold max (Ideal.ofBits .f32 0xFF800000#32) (fun k => src (ix2 r k))
      = (Finset.univ : Finset (Fin b)).sup (fun k => src (ix2 r k)) := by rw [negInf_f32]; rfl
  refine (Ideal.multiReduction_maximumf_single src _ h hφ hacc (ix1 r)).trans (Eq.trans ?_ e)
  exact congrArg (fun f : Fin b → EReal => (Finset.univ : Finset (Fin b)).fold max (Ideal.ofBits .f32 0xFF800000#32) f)
    (funext fun k => congrArg src (funext fun ax => Fin.ext (by
      match ax with
      | ⟨0, _⟩ => rfl
      | ⟨1, _⟩ => rfl)))

/-- The vector unit's minimum over the last axis of an `[a, b]` array from +inf, at row `r`. -/
theorem rowMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).inf (fun k => src (ix2 r k)) := by
  have e : (Finset.univ : Finset (Fin b)).fold min (Ideal.ofBits .f32 0x7F800000#32) (fun k => src (ix2 r k))
      = (Finset.univ : Finset (Fin b)).inf (fun k => src (ix2 r k)) := by rw [posInf_f32]; rfl
  rw [multiReduction_minimumf_eq_fold]
  refine (h.fold_filter_drop_single _ _ src (ix1 r)).trans (Eq.trans ?_ e)
  exact congrArg (fun f : Fin b → EReal => (Finset.univ : Finset (Fin b)).fold min (Ideal.ofBits .f32 0x7F800000#32) f)
    (funext fun k => congrArg src (funext fun ax => Fin.ext (by
      match ax with
      | ⟨0, _⟩ => rfl
      | ⟨1, _⟩ => rfl)))

/-- The host's maximum over the last axis of an `[a, b]` array from a scalar initial value that is -inf, at row `r`. -/
theorem hostRowMax_apply {a b : ℕ} (x : FVec Ideal ⟨2, ![a, b]⟩ .f32) (init : (⟨0, ![]⟩ : Shape).Idx → Ideal .f32)
    (hinit : ∀ i, init i = (⊥ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r) = (Finset.univ : Finset (Fin b)).sup (fun k => x (ix2 r k)) := by
  have e : (Finset.univ : Finset (Fin b)).fold max (⊥ : EReal) (fun k => x (ix2 r k))
      = (Finset.univ : Finset (Fin b)).sup (fun k => x (ix2 r k)) := rfl
  refine (Host.reduce_eq_fold_single FloatOps.maximumf x init h' h hu (ix1 r)).trans (Eq.trans ?_ e)
  rw [hinit]
  exact congrArg (fun f : Fin b → EReal => (Finset.univ : Finset (Fin b)).fold max (⊥ : EReal) f)
    (funext fun k => congrArg x (funext fun ax => Fin.ext (by
      match ax with
      | ⟨0, _⟩ => rfl
      | ⟨1, _⟩ => rfl)))

/-- The host's minimum over the last axis of an `[a, b]` array from a scalar initial value that is +inf, at row `r`. -/
theorem hostRowMin_apply {a b : ℕ} (x : FVec Ideal ⟨2, ![a, b]⟩ .f32) (init : (⟨0, ![]⟩ : Shape).Idx → Ideal .f32)
    (hinit : ∀ i, init i = (⊤ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.minimumf x init h' hu (ix1 r) = (Finset.univ : Finset (Fin b)).inf (fun k => x (ix2 r k)) := by
  have e : (Finset.univ : Finset (Fin b)).fold min (⊤ : EReal) (fun k => x (ix2 r k))
      = (Finset.univ : Finset (Fin b)).inf (fun k => x (ix2 r k)) := rfl
  refine (Host.reduce_eq_fold_single FloatOps.minimumf x init h' h hu (ix1 r)).trans (Eq.trans ?_ e)
  rw [hinit]
  exact congrArg (fun f : Fin b → EReal => (Finset.univ : Finset (Fin b)).fold min (⊤ : EReal) f)
    (funext fun k => congrArg x (funext fun ax => Fin.ext (by
      match ax with
      | ⟨0, _⟩ => rfl
      | ⟨1, _⟩ => rfl)))

end Cert.Lib.RowExtrema

end
-- ==== Proof.RefSpec.lean ====
/-
  The reference program computes the reference formula of the specification.

  Its run ends with the result buffer at the composition of its host operations; read at an index, operation by
  operation, that composition is: the row maximum of the absolute values clamped below (the row scale), the clamped
  rounding of the scaled activation, the sum of all absolute weights divided by their count and clamped below,
  inverted (the weight scale), the clamped rounding of the scaled weight, the contraction over the inner axis of
  the dequantized activations with the ternary weights, times the weight scale.
-/
import proofs.«119196_j24962349924855_2_alg».proof.Proof.RefRead
import proofs.«119196_j24962349924855_2_alg».proof.Proof.Spec
import proofs.«119196_j24962349924855_2_alg».proof.Proof.LibRowExtrema

noncomputable section

namespace Cert.BitLinear.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.BitLinear

/-! ### The weights' side -/

/-- The sum of all absolute weights from zero. -/
theorem v15_eq (w : WArr) (i : S_.Idx) : val_main_v15 (F := Ideal) w i = absSum w := by
  rw [val_main_v15_apply]; rfl

/-- The weight scale. -/
theorem v18_eq (w : WArr) (i : S_.Idx) : val_main_v18 (F := Ideal) w i = SW w := by
  rw [val_main_v18_apply, val_main_v17_apply, val_main_v16_apply, v15_eq]; rfl

/-- The ternary weight. -/
theorem v22_eq (w : WArr) (o : Fin 11008) (k : Fin 4096) : val_main_v22 (F := Ideal) w (ix2 o k) = TW w o k := by
  rw [val_main_v22_apply, val_main_call5_v2_apply, val_main_v21_apply, val_main_v20_apply, val_main_v19_apply, v18_eq,
    val_main_call5_v4_apply, val_main_call5_v1_apply]
  rfl

/-! ### The activations' side -/

/-- The row maximum of the absolute values, as a supremum over the row. -/
theorem v1_eq (x : XArr) (t : Fin 8192) : val_main_v1 (F := Ideal) x (ix1 t) = rowAbsMax x t := by
  unfold val_main_v1
  exact (Cert.Lib.RowExtrema.hostRowMax_apply (val_main_v0 (F := Ideal) x) (val_main_cst (F := Ideal))
    (fun _ => Cert.Lib.RowExtrema.negInf_f32) reducesTo_S8192x4096_S8192_d1 (by decide) h_S_ t).trans rfl

/-- The row scale. -/
theorem v3_eq (x : XArr) (t : Fin 8192) (z : Fin 1) : val_main_v3 (F := Ideal) x (ix2 t z) = amax x t := by
  have e : idx_main_v2 (ix2 t z) = ix1 t := by
    funext a; match a with | ⟨0, _⟩ => rfl
  rw [val_main_v3_apply, val_main_v2_apply, e, v1_eq, val_main_call0_v1_apply]
  rfl

theorem idx6_eq (t : Fin 8192) (k : Fin 4096) : idx_main_v6 (ix2 t k) = ix2 t (⟨0, Nat.one_pos⟩ : Fin 1) := by
  funext a; match a with | ⟨0, _⟩ => rfl | ⟨1, _⟩ => rfl

theorem idx23_eq (t : Fin 8192) (k : Fin 4096) : idx_main_v23 (ix2 t k) = ix2 t (⟨0, Nat.one_pos⟩ : Fin 1) := by
  funext a; match a with | ⟨0, _⟩ => rfl | ⟨1, _⟩ => rfl

/-- The quantized activation. -/
theorem v9_eq (x : XArr) (t : Fin 8192) (k : Fin 4096) : val_main_v9 (F := Ideal) x (ix2 t k) = Q x t k := by
  rw [val_main_v9_apply, val_main_call2_v2_apply, val_main_v8_apply, val_main_v7_apply, val_main_v6_apply, idx6_eq,
    val_main_v5_apply, v3_eq, val_main_call2_v4_apply, val_main_call2_v1_apply, val_main_v4_apply]
  rfl

/-- The dequantization scale 127 / (amax + eps). -/
theorem v13_eq (x : XArr) (t : Fin 8192) (z : Fin 1) :
    val_main_v13 (F := Ideal) x (ix2 t z) = Ideal.div c127 (amax x t + cEps2) := by
  rw [val_main_v13_apply, val_main_v11_apply, v3_eq, val_main_v12_apply, val_main_v10_apply]
  rfl

/-- The dequantized activation. -/
theorem v24_eq (x : XArr) (t : Fin 8192) (k : Fin 4096) :
    val_main_v24 (F := Ideal) x (ix2 t k) = Ideal.div (Q x t k) (Ideal.div c127 (amax x t + cEps2)) := by
  rw [val_main_v24_apply, v9_eq, val_main_v23_apply, idx23_eq, v13_eq]
  rfl

/-! ### The result -/

theorem lidx_eq (t : Fin 8192) (o : Fin 11008) (k : Fin 4096) : lidx_main_v25 (ix2 t o) k = ix2 t k := by
  funext a; match a with | ⟨0, _⟩ => rfl | ⟨1, _⟩ => rfl

theorem ridx_eq (t : Fin 8192) (o : Fin 11008) (k : Fin 4096) : ridx_main_v25 (ix2 t o) k = ix2 o k := by
  funext a; match a with | ⟨0, _⟩ => rfl | ⟨1, _⟩ => rfl

/-- The reference's composed term is the reference formula. -/
theorem val27_eq (x : XArr) (w : WArr) : val_main_v27 (F := Ideal) x w = Gref x w := by
  funext j
  obtain ⟨t, o, rfl⟩ : ∃ (t : Fin 8192) (o : Fin 11008), j = ix2 t o := ⟨j 0, j 1, eq_ix2 j⟩
  rw [Gref_ix2, val_main_v27_apply, val_main_v26_apply, v18_eq, val_main_v25_apply]
  simp only [lidx_eq, ridx_eq, v24_eq, v22_eq]
  rfl

/-- The reference's run: every execution terminates with the result buffer at the reference formula of the
    arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
        = Gref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h c).1.trans (val_main_v27_eq _ _)).trans (val27_eq _ _), (h c).2⟩)
    (Cert.ReferenceIdeal.RunP.run (F := Ideal) m ρ)

end Cert.BitLinear.Ref

end
-- ==== Proof.WalkISW.lean ====
import proofs.«119196_j24962349924855_2_alg».proof.Proof.WalkI
import proofs.«119196_j24962349924855_2_alg».proof.Proof.RefSpec
import proofs.«119196_j24962349924855_2_alg».proof.Proof.Spec
import Idealize.ShloMosaic.PureOps.Ideal

set_option maxRecDepth 16384

noncomputable section

namespace Cert.KernelIdeal.RunI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

open Cert.KernelIdeal.R0 Cert.KernelIdeal.R1 Cert.KernelIdeal.R2

/-! # The weight scale the host stretches compute, read as extended reals

Between the two quantizing regions the host computes, from the weights, the sum of their absolute values from zero,
divides it by their count, clamps the quotient below by the small literal, inverts it, and reshapes the scalar to a
1 x 1 array: the matmul's and the weight-quantizing pipeline's scale operand. The three stretches' composed term is
the reference program's term for the same scalar, which is the specification's weight scale. -/

/-- The three host stretches' composed term at the scale's buffer: the reshape of the reference's scalar term, of the
    weights as the first region leaves them. -/
theorem V4_main_v6_term (m : (ℓ : Loc nD τ sig) → Buf (Elt Ideal) ℓ) (ρ : Dev nD → PrngReg) (c : Dev nD) :
    V4 (F := Ideal) m ρ c main_v6
      = fun i => shapeCast S1x1 (Cert.ReferenceIdeal.ReadP.val_main_v18 (F := Ideal) (W1 m ρ c (Proc.devRef .tc main_arg1))) shapeCasts_S_S1x1 i := by
  show StableHlo.after hostOps1_2 (StableHlo.after hostOps1_1 (StableHlo.after hostOps1 (W1 m ρ c))) (Proc.devRef .tc main_v6) = _
  after_results
  rfl

/-- The scale operand at the second region's entry is the specification's weight scale of the launch weights, at
    its one index. -/
theorem V4_main_v6 (m : (ℓ : Loc nD τ sig) → Buf (Elt Ideal) ℓ) (ρ : Dev nD → PrngReg) (c : Dev nD) :
    V4 (F := Ideal) m ρ c main_v6 = fun _ => Cert.BitLinear.SW (m ((c : Thread nD τ).loc main_arg1)) := by
  rw [V4_main_v6_term, W1_main_arg1]
  funext i
  exact Cert.BitLinear.Ref.v18_eq _ _

/-- The same at the matmul region's entry: the second region only reads the scale. -/
theorem V5_main_v6_SW (m : (ℓ : Loc nD τ sig) → Buf (Elt Ideal) ℓ) (ρ : Dev nD → PrngReg) (c : Dev nD) :
    V5 (F := Ideal) m ρ c main_v6 = fun _ => Cert.BitLinear.SW (m ((c : Thread nD τ).loc main_arg1)) :=
  (V5_main_v6 m ρ c).trans (V4_main_v6 m ρ c)

end Cert.KernelIdeal.RunI

end
-- ==== Proof.LibColRow.lean ====
/-
  Columns read at an index: a vector of length a viewed as an [a, 1] column, an [a, 1] column viewed as a vector of
  length a, and an [a, 1] column repeated across b columns; in any element type.
-/
import Idealize.ShloMosaic.Lib.ValueIdx
import Idealize.ShloMosaic.Lib.ValueLayout
import Idealize.ShloMosaic.Lib.Pipeline.Value

namespace Cert.Lib.ColRow

open Idealize.ShloMosaic Idealize.ShloMosaic.ValueIdx

variable {α : Type}

/-- A vector of length `a` viewed as an `[a, 1]` column reads, at `(r, 0)`, the vector at `r`. -/
theorem col_of_vec {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- An `[a, 1]` column viewed as a vector of length `a` reads, at `r`, the column at `(r, 0)`. -/
theorem vec_of_col {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column repeated across `b` columns reads, at `(r, k)`, the column at `(r, 0)`. -/
theorem bcast_col {a b : ℕ} (x : (⟨2, ![a, 1]⟩ : Shape).Idx → α) (h : (⟨2, ![a, 1]⟩ : Shape).Broadcasts ⟨2, ![a, b]⟩)
    (r : Fin a) (k : Fin b) : broadcastTo ⟨2, ![a, b]⟩ x h (ix2 r k) = x (ix2 r (0 : Fin 1)) := by
  refine broadcastTo_apply x h (ix2 r k) (ix2 r (0 : Fin 1)) fun ax => ?_
  match ax with
  | ⟨0, _⟩ =>
    show r.val = if a = 1 then 0 else r.val
    split
    · have := r.isLt; omega
    · rfl
  | ⟨1, _⟩ => rfl

end Cert.Lib.ColRow
-- ==== Proof.R0Pay.lean ====
import proofs.«119196_j24962349924855_2_alg».proof.Proof.Gen.KernelIdeal.Skeleton
import proofs.«119196_j24962349924855_2_alg».proof.Proof.Spec
import proofs.«119196_j24962349924855_2_alg».proof.Proof.LibRowExtrema
import proofs.«119196_j24962349924855_2_alg».proof.Proof.LibColRow
import Idealize.ShloMosaic.Lib.ValueIdx
import Idealize.ShloMosaic.Lib.ValueLayout
import Idealize.ShloMosaic.Lib.Pipeline.Value

set_option maxRecDepth 16384

noncomputable section

namespace Cert.KernelIdeal.R0V

open Cert.KernelIdeal Cert.KernelIdeal.Gen Cert.BitLinear
open Idealize.ShloMosaic Idealize.ShloMosaic.ValueIdx

/-! # The row-quantizing body's two stores, read at an index over the extended reals -/

/-- The floored row maximum of a [512, 4096] block at row `r`: the small literal against the supremum over the row of the
    absolute values. -/
def blkAmax (x : Vec Ideal S512x4096 .f32) (r : Fin 512) : EReal :=
  max cEps5 ((Finset.univ : Finset (Fin 4096)).sup (fun k => max (x (ix2 r k)) (-(x (ix2 r k)))))

/-- The stored column of row maxima at `(r, 0)`. -/
theorem k0_pay1_apply (x : Vec Ideal S512x4096 .f32) (r : Fin 512) (z : Fin 1) :
    k0_pay1 x (ix2 r z) = blkAmax x r := by
  unfold k0_pay1 blkAmax
  refine (maximumf_apply _ _ _).trans ?_
  refine congrArg (fun y => max cEps5 y) ?_
  refine (Cert.Lib.ColRow.col_of_vec _ _ r z).trans ?_
  exact Cert.Lib.RowExtrema.rowMax_apply (absf x) _ _ _ r

/-- Rounding a vector to even reads, at an index, the rounding of the entry. -/
theorem roundeven_apply {s : Shape} {φ : FTy} (a : FVec Ideal s φ) (i : s.Idx) :
    roundeven a i = Ideal.liftRound Ideal.roundHalfEven (a i) := rfl

/-- The stored quantized block at `(r, k)`: the entry times 127 over the row's floored maximum, rounded to even and
    clamped to [-128, 127]. -/
theorem k0_pay2_apply (x : Vec Ideal S512x4096 .f32) (r : Fin 512) (k : Fin 4096) :
    k0_pay2 x (ix2 r k)
      = min c127 (max cNeg128 (Ideal.liftRound Ideal.roundHalfEven (x (ix2 r k) * Ideal.div c127 (blkAmax x r)))) := by
  unfold k0_pay2
  refine (truncf_apply (φ := .f32) (ψ := .bf16) _ bitsLt_bf16_f32 (ix2 r k)).trans ?_
  refine (minimumf_apply _ _ (ix2 r k)).trans ?_
  refine congrArg (fun y : EReal => min c127 y) ?_
  refine (maximumf_apply _ _ (ix2 r k)).trans ?_
  refine congrArg (fun y : EReal => max cNeg128 y) ?_
  refine (roundeven_apply _ (ix2 r k)).trans ?_
  refine congrArg (Ideal.liftRound Ideal.roundHalfEven) ?_
  refine (mulf_apply _ _ (ix2 r k)).trans ?_
  refine congrArg (fun y : EReal => x (ix2 r k) * y) ?_
  refine (Cert.Lib.ColRow.bcast_col _ _ r k).trans ?_
  refine (divf_apply _ _ (ix2 r (0 : Fin 1))).trans ?_
  exact congrArg (fun y : EReal => Ideal.div c127 y) (k0_pay1_apply x r 0)

end Cert.KernelIdeal.R0V

end
-- ==== Proof.R0Final.lean ====
import proofs.«119196_j24962349924855_2_alg».proof.Proof.R0Body
import proofs.«119196_j24962349924855_2_alg».proof.Proof.R0Pay
import Idealize.ShloMosaic.Lib.Pipeline.Value

set_option maxRecDepth 16384

noncomputable section

namespace Cert.KernelIdeal.R0V

open Cert.KernelIdeal Cert.KernelIdeal.Gen Cert.KernelIdeal.R0 Cert.BitLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The two arrays the row-quantizing pipeline leaves, index by index -/

/-- The quantized activations and the row scales, as whole arrays, of the activations array. -/
def GQ (a : XArr) : S8192x4096.Idx → Elt Ideal .bf16 := fun i => Q a (i 0) (i 1)
def GA (a : XArr) : S8192x1.Idx → Elt Ideal .f32 := fun i => amax a (i 0)

/-! ## A block's stores from the array's rows -/

/-- A [512, 4096] block whose row `r` is the array's row `R` stores at `(r, 0)` the array's row scale at `R`; -/
theorem blkAmax_of_row (A : XArr) (X : Vec Ideal S512x4096 .f32) (r : Fin 512) (R : Fin 8192)
    (hrow : ∀ k : Fin 4096, X (ix2 r k) = A (ix2 R k)) : blkAmax X r = amax A R := by
  unfold blkAmax amax rowAbsMax
  simp only [hrow]

/-- and at `(r, k)` the array's quantized entry at `(R, k)`. -/
theorem quant_of_row (A : XArr) (X : Vec Ideal S512x4096 .f32) (r : Fin 512) (k : Fin 4096) (R : Fin 8192)
    (hrow : ∀ k' : Fin 4096, X (ix2 r k') = A (ix2 R k')) : k0_pay2 X (ix2 r k) = Q A R k := by
  refine (k0_pay2_apply X r k).trans ?_
  unfold Q
  rw [blkAmax_of_row A X r R hrow, hrow k]

theorem amax_of_row (A : XArr) (X : Vec Ideal S512x4096 .f32) (r : Fin 512) (z : Fin 1) (R : Fin 8192)
    (hrow : ∀ k' : Fin 4096, X (ix2 r k') = A (ix2 R k')) : k0_pay1 X (ix2 r z) = amax A R :=
  (k0_pay1_apply X r z).trans (blkAmax_of_row A X r R hrow)

/-! ## The index maps, decided over the grid: block `t` of each window starts at row `512 t`, column 0 -/

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block's row `r` is the array's row `512 t + r`. -/
theorem iblk0_row (c : Dev nD) (t : Fin cfg0.N) (r : Fin 512) (R : Fin 8192) (hR : R.val = t.val * 512 + r.val) (k : Fin 4096) :
    iblk0 V c 0 t (ix2 r k) = (V c main_arg0 : XArr) (ix2 R k) := by
  obtain ⟨e0, e1, -⟩ := idx_facts t
  show (V c main_arg0 : XArr) (((cfg0.win 0).blk t).view.emb (ix2 r k)) = (V c main_arg0 : XArr) (ix2 R k)
  refine congrArg (V c main_arg0 : XArr) (funext fun a => Fin.ext ?_)
  match a with
  | ⟨0, _⟩ => show win0_0.index t (0 : Fin 2) * 512 + 1 * r.val = R.val; rw [e0, hR]; omega
  | ⟨1, _⟩ => show win0_0.index t (1 : Fin 2) * 4096 + 1 * k.val = k.val; rw [e1]; omega

/-! ## What each point writes back: its block of the whole-array functions -/

theorem zeros2 : (![0, 0] : Fin 2 → Nat) = fun _ => 0 := by funext a; fin_cases a <;> rfl

/-- Through whole-buffer rectangles each store's payload is the payload of the input buffer's contents. -/
theorem out0_1_eq (x0 : Vec Ideal S512x4096 .f32) : out0_1 x0 = k0_pay2 x0 := by
  unfold out0_1
  rw [View.canon_unit_zero zeros2, View.ld_unit_zero zeros2]

theorem out0_2_eq (x0 : Vec Ideal S512x4096 .f32) : out0_2 x0 = k0_pay1 x0 := by
  unfold out0_2
  rw [View.canon_unit_zero zeros2, View.ld_unit_zero zeros2]

theorem t_lt (t : Fin cfg0.N) : t.val < 16 := lt_of_lt_of_eq t.isLt N_0

/-- Point `t` writes back block `t` of the quantized activations. -/
theorem flushedQ_eq (c : Dev nD) (t : Fin cfg0.N) :
    (dat0 V c).flushed 1 t = ((cfg0.win 1).blk t).view.read (Elt Ideal) (GQ (V c main_arg0)) := by
  show (cfg0.win 1).cut (grid0.coords t) ((dat0 V c).after 1 t) = _
  rw [after0_1, out0_1_eq]
  obtain ⟨-, -, e2, e3, -, -⟩ := idx_facts t
  have hN := t_lt t
  funext j
  have hj0 : (j 0).val < 512 := (j 0).isLt
  have hj1 : (j 1).val < 4096 := (j 1).isLt
  have hx : (cfg0.win 1).xinj (grid0.coords t) j = ix2 (⟨(j 0).val, hj0⟩ : Fin 512) (⟨(j 1).val, hj1⟩ : Fin 4096) := by
    funext a
    match a with
    | ⟨0, _⟩ => rfl
    | ⟨1, _⟩ => rfl
  show k0_pay2 (iblk0 V c 0 t) ((cfg0.win 1).xinj (grid0.coords t) j) = GQ (V c main_arg0) (((cfg0.win 1).blk t).view.emb j)
  refine (congrArg (k0_pay2 (iblk0 V c 0 t)) hx).trans ?_
  refine (quant_of_row (V c main_arg0 : XArr) (iblk0 V c 0 t) ⟨(j 0).val, hj0⟩ ⟨(j 1).val, hj1⟩
    ⟨t.val * 512 + (j 0).val, by omega⟩ (fun k' => iblk0_row V c t _ _ rfl k')).trans ?_
  unfold GQ
  refine congrArg₂ (Q (V c main_arg0 : XArr)) (Fin.ext ?_) (Fin.ext ?_)
  · show t.val * 512 + (j 0).val = win0_1.index t (0 : Fin 2) * 512 + 1 * (j 0).val
    rw [e2]; omega
  · show (j 1).val = win0_1.index t (1 : Fin 2) * 4096 + 1 * (j 1).val
    rw [e3]; omega

/-- Point `t` writes back block `t` of the row scales. -/
theorem flushedA_eq (c : Dev nD) (t : Fin cfg0.N) :
    (dat0 V c).flushed 2 t = ((cfg0.win 2).blk t).view.read (Elt Ideal) (GA (V c main_arg0)) := by
  show (cfg0.win 2).cut (grid0.coords t) ((dat0 V c).after 2 t) = _
  rw [after0_2, out0_2_eq]
  obtain ⟨-, -, -, -, e4, e5⟩ := idx_facts t
  have hN := t_lt t
  funext j
  have hj0 : (j 0).val < 512 := (j 0).isLt
  have hj1 : (j 1).val < 1 := (j 1).isLt
  have hx : (cfg0.win 2).xinj (grid0.coords t) j = ix2 (⟨(j 0).val, hj0⟩ : Fin 512) (⟨(j 1).val, hj1⟩ : Fin 1) := by
    funext a
    match a with
    | ⟨0, _⟩ => rfl
    | ⟨1, _⟩ => rfl
  show k0_pay1 (iblk0 V c 0 t) ((cfg0.win 2).xinj (grid0.coords t) j) = GA (V c main_arg0) (((cfg0.win 2).blk t).view.emb j)
  refine (congrArg (k0_pay1 (iblk0 V c 0 t)) hx).trans ?_
  refine (amax_of_row (V c main_arg0 : XArr) (iblk0 V c 0 t) ⟨(j 0).val, hj0⟩ ⟨(j 1).val, hj1⟩
    ⟨t.val * 512 + (j 0).val, by omega⟩ (fun k' => iblk0_row V c t _ _ rfl k')).trans ?_
  unfold GA
  refine congrArg (amax (V c main_arg0 : XArr)) (Fin.ext ?_)
  show t.val * 512 + (j 0).val = win0_2.index t (0 : Fin 2) * 512 + 1 * (j 0).val
  rw [e4]; omega

/-! ## The blocks cover the arrays: row `r` is in block `r / 512` -/

theorem mem_blkQ (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0_0).slice (win0_1.rect t)).set ↔ _
  rw [View.set_slice_whole, Rect.mem_set_unit]
  exact Iff.rfl

theorem mem_blkA (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v0_1).slice (win0_2.rect t)).set ↔ _
  rw [View.set_slice_whole, Rect.mem_set_unit]
  exact Iff.rfl

theorem coverQ (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, e2, e3, -, -⟩ := idx_facts t
  refine ⟨t, flush0_1 t, ?_⟩
  rw [mem_blkQ]
  intro a
  match a with
  | ⟨0, _⟩ =>
    show win0_1.index t (0 : Fin 2) * 512 ≤ (i 0).val ∧ (i 0).val < win0_1.index t (0 : Fin 2) * 512 + 512
    rw [e2, ht]; omega
  | ⟨1, _⟩ =>
    show win0_1.index t (1 : Fin 2) * 4096 ≤ (i 1).val ∧ (i 1).val < win0_1.index t (1 : Fin 2) * 4096 + 4096
    rw [e3]; omega

theorem coverA (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, e4, e5⟩ := idx_facts t
  refine ⟨t, flush0_2 t, ?_⟩
  rw [mem_blkA]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 1 ≤ (i 1).val ∧ (i 1).val < win0_2.index t (1 : Fin 2) * 1 + 1
    rw [e5]; omega

/-! ## The final arrays -/

/-- After the pipeline the quantized-activations array holds `Q` of the activations as the region found them, -/
theorem final_Q (c : Dev nD) : (dat0 V c).arrAt 1 cfg0.N = GQ (V c main_arg0) :=
  (dat0 V c).arrAt_eq_of_cover 1 (GQ (V c main_arg0)) (fun t _ => flushedQ_eq V c t) coverQ

/-- and the row-scale array their floored row maxima. -/
theorem final_amax (c : Dev nD) : (dat0 V c).arrAt 2 cfg0.N = GA (V c main_arg0) :=
  (dat0 V c).arrAt_eq_of_cover 2 (GA (V c main_arg0)) (fun t _ => flushedA_eq V c t) coverA

end Cert.KernelIdeal.R0V

end
-- ==== Proof.R1Pay.lean ====
import proofs.«119196_j24962349924855_2_alg».proof.Proof.Gen.KernelIdeal.Skeleton
import proofs.«119196_j24962349924855_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.R1V

open Cert.KernelIdeal Cert.KernelIdeal.Gen Cert.BitLinear
open Idealize.ShloMosaic Idealize.ShloMosaic.ValueIdx

/-! # The weight-quantizing body's store, read at an index over the extended reals -/

/-- The ternary weight at scale `s`: round to even of the weight times the scale, clamped to [-1, 1]. -/
def TWs (w : WArr) (s : EReal) (o : Fin 11008) (i : Fin 4096) : EReal :=
  min cOne (max cNegOne (Ideal.liftRound Ideal.roundHalfEven (w (ix2 o i) * s)))

/-- At the weight scale of the same weights it is the ternary weight. -/
theorem TWs_SW (w : WArr) (o : Fin 11008) (i : Fin 4096) : TWs w (SW w) o i = TW w o i := rfl

theorem roundeven_apply {s : Shape} {φ : FTy} (a : FVec Ideal s φ) (i : s.Idx) :
    roundeven a i = Ideal.liftRound Ideal.roundHalfEven (a i) := rfl

/-- The [1, 1] scale repeated over the block reads the scale's one entry everywhere. -/
theorem bcast_scalar (v : Vec Ideal S1x1 .f32) (r : Fin 512) (k : Fin 4096) :
    broadcastTo S512x4096 (shapeCast S1x1 v shapeCasts_S1x1_S1x1) broadcasts_S1x1_S512x4096 (ix2 r k)
      = v (ix2 (0 : Fin 1) (0 : Fin 1)) := by
  rw [shapeCast_self]
  refine broadcastTo_apply v broadcasts_S1x1_S512x4096 (ix2 r k) (ix2 (0 : Fin 1) (0 : Fin 1)) fun ax => ?_
  match ax with
  | ⟨0, _⟩ => rfl
  | ⟨1, _⟩ => rfl

/-- The stored ternary block at `(r, k)`: the entry times the scale, rounded to even and clamped to [-1, 1]. -/
theorem k1_pay1_apply (v0 : Vec Ideal S1x1 .f32) (v2 : Vec Ideal S512x4096 .f32) (r : Fin 512) (k : Fin 4096) :
    k1_pay1 v0 v2 (ix2 r k)
      = min cOne (max cNegOne (Ideal.liftRound Ideal.roundHalfEven (v2 (ix2 r k) * v0 (ix2 (0 : Fin 1) (0 : Fin 1))))) := by
  unfold k1_pay1
  refine (truncf_apply (φ := .f32) (ψ := .bf16) _ bitsLt_bf16_f32 (ix2 r k)).trans ?_
  refine (minimumf_apply _ _ (ix2 r k)).trans ?_
  refine congrArg (fun y : EReal => min cOne y) ?_
  refine (maximumf_apply _ _ (ix2 r k)).trans ?_
  refine congrArg (fun y : EReal => max cNegOne y) ?_
  refine (roundeven_apply _ (ix2 r k)).trans ?_
  refine congrArg (Ideal.liftRound Ideal.roundHalfEven) ?_
  refine (mulf_apply _ _ (ix2 r k)).trans ?_
  exact congrArg (fun y : EReal => v2 (ix2 r k) * y) (bcast_scalar v0 r k)

end Cert.KernelIdeal.R1V

end
-- ==== Proof.R1Final.lean ====
import proofs.«119196_j24962349924855_2_alg».proof.Proof.R1Body
import proofs.«119196_j24962349924855_2_alg».proof.Proof.R1Pay
import Idealize.ShloMosaic.Lib.Pipeline.Value

set_option maxRecDepth 16384

noncomputable section

namespace Cert.KernelIdeal.R1V

open Cert.KernelIdeal Cert.KernelIdeal.Gen Cert.KernelIdeal.R1 Cert.BitLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The array the weight-quantizing pipeline leaves, index by index -/

/-- The ternary weights at scale `s`, as a whole array, of the weights array. -/
def GT (w : WArr) (s : EReal) : S11008x4096.Idx → Elt Ideal .bf16 := fun i => TWs w s (i 0) (i 1)

/-- The scale the region finds in its [1, 1] operand. -/
def scaleOf (c : Dev nD) : EReal := (V c main_v6 : S1x1.Idx → EReal) (ix2 (0 : Fin 1) (0 : Fin 1))

/-! ## The index maps, decided over the grid

Block `t` of the weights and of the output starts at row `512 t`, column 0, spans all 4096 columns and the rows up to
`min (512 t + 512) 11008`; the scale's block is the whole [1, 1] array. -/

theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 2) = 0 ∧ win1_1.index t (1 : Fin 2) = 0
    ∧ win1_2.xsize (grid1.coords t) (1 : Fin 2) = 4096
    ∧ t.val * 512 + win1_2.xsize (grid1.coords t) (0 : Fin 2) = min (t.val * 512 + 512) 11008 :=
  (by decide +kernel : ∀ t : Fin grid1.N, _)

theorem t_lt (t : Fin cfg1.N) : t.val < 22 := lt_of_lt_of_eq t.isLt N_1

/-- The scale's block reads the scale. -/
theorem iblk1_scale (c : Dev nD) (t : Fin cfg1.N) : iblk1 V c 1 t (ix2 (0 : Fin 1) (0 : Fin 1)) = scaleOf V c := by
  obtain ⟨-, -, -, -, e4, e5, -, -⟩ := idx_facts t
  show (V c main_v6 : S1x1.Idx → EReal) (((cfg1.win 1).blk t).view.emb (ix2 (0 : Fin 1) (0 : Fin 1))) = _
  unfold scaleOf
  refine congrArg (V c main_v6 : S1x1.Idx → EReal) (funext fun a => Fin.ext ?_)
  match a with
  | ⟨0, _⟩ => show win1_1.index t (0 : Fin 2) * 1 + 1 * 0 = 0; rw [e4]
  | ⟨1, _⟩ => show win1_1.index t (1 : Fin 2) * 1 + 1 * 0 = 0; rw [e5]

/-! ## What each point writes back: its block, cut at the array's end, of the whole-array function -/

set_option maxHeartbeats 1000000 in
/-- Point `t` writes back the rows inside the array of block `t` of the ternary weights at the region's scale. -/
theorem flushedT_eq (c : Dev nD) (t : Fin cfg1.N) :
    (dat1 V c).flushed 2 t = ((cfg1.win 2).blk t).view.read (Elt Ideal) (GT (V c main_arg1) (scaleOf V c)) := by
  show (cfg1.win 2).cut (grid1.coords t) ((dat1 V c).after 2 t) = _
  rw [after1_2, out1_2_eq]
  obtain ⟨e0, e1, e2, e3, -, -, -, -⟩ := idx_facts t
  funext j
  have hj0 : (j 0).val < 512 := lt_of_lt_of_le (j 0).isLt (win1_2.xsize_le (grid1.coords t) 0)
  have hj1 : (j 1).val < 4096 := lt_of_lt_of_le (j 1).isLt (win1_2.xsize_le (grid1.coords t) 1)
  have hx : (cfg1.win 2).xinj (grid1.coords t) j = ix2 (⟨(j 0).val, hj0⟩ : Fin 512) (⟨(j 1).val, hj1⟩ : Fin 4096) :=
    funext fun a => Fin.ext (by match a with | ⟨0, _⟩ => rfl | ⟨1, _⟩ => rfl)
  have hx0 : win1_0.xinj (grid1.coords t) j = ix2 (⟨(j 0).val, hj0⟩ : Fin 512) (⟨(j 1).val, hj1⟩ : Fin 4096) :=
    funext fun a => Fin.ext (by match a with | ⟨0, _⟩ => rfl | ⟨1, _⟩ => rfl)
  -- the zero-filled block at a row inside the array is the block there, which is the array at the block's place
  have hw : wblk8 V c t (ix2 (⟨(j 0).val, hj0⟩ : Fin 512) (⟨(j 1).val, hj1⟩ : Fin 4096)) = iblk1 V c 0 t j := by
    unfold wblk8
    refine (congrArg (win1_0.fill (grid1.coords t) _ (iblk1 V c 0 t)) hx0.symm).trans ?_
    exact win1_0.fill_xinj (grid1.coords t) _ (iblk1 V c 0 t) j
  have hA : iblk1 V c 0 t j = (V c main_arg1 : WArr) (ix2 (((cfg1.win 2).blk t).view.emb j 0) (((cfg1.win 2).blk t).view.emb j 1)) := by
    show (V c main_arg1 : WArr) (((cfg1.win 0).blk t).view.emb j) = _
    refine congrArg (V c main_arg1 : WArr) (funext fun a => Fin.ext ?_)
    match a with
    | ⟨0, _⟩ =>
      show win1_0.index t (0 : Fin 2) * 512 + 1 * (j 0).val = win1_2.index t (0 : Fin 2) * 512 + 1 * (j 0).val
      rw [e0, e2]
    | ⟨1, _⟩ =>
      show win1_0.index t (1 : Fin 2) * 4096 + 1 * (j 1).val = win1_2.index t (1 : Fin 2) * 4096 + 1 * (j 1).val
      rw [e1, e3]
  show k1_pay1 (iblk1 V c 1 t) (wblk8 V c t) ((cfg1.win 2).xinj (grid1.coords t) j)
    = GT (V c main_arg1) (scaleOf V c) (((cfg1.win 2).blk t).view.emb j)
  refine (congrArg (k1_pay1 (iblk1 V c 1 t) (wblk8 V c t)) hx).trans ?_
  refine (k1_pay1_apply (iblk1 V c 1 t) (wblk8 V c t) ⟨(j 0).val, hj0⟩ ⟨(j 1).val, hj1⟩).trans ?_
  unfold GT TWs
  exact congrArg₂ (fun a b : EReal => min cOne (max cNegOne (Ideal.liftRound Ideal.roundHalfEven (a * b))))
    (hw.trans hA) (iblk1_scale V c t)

/-! ## The blocks' rows inside the array cover it: row `r` is in block `r / 512` -/

theorem mem_blkT (t : Fin cfg1.N) (i : S11008x4096.Idx) :
    i ∈ ((cfg1.win 2).blk t).view.set ↔ ∀ a : Fin 2, win1_2.index t a * S512x4096.size a ≤ (i a).val
      ∧ (i a).val < win1_2.index t a * S512x4096.size a + win1_2.xsize (grid1.coords t) a := by
  show i ∈ ((View.whole main_v7).slice (win1_2.rect t)).set ↔ _
  rw [View.set_slice_whole, Rect.mem_set_unit]
  exact Iff.rfl

theorem coverT (i : S11008x4096.Idx) : ∃ t : Fin cfg1.N, (cfg1.win 2).flush t = true ∧ i ∈ ((cfg1.win 2).blk t).view.set := by
  have hi0 : (i 0).val < 11008 := (i 0).isLt
  have hi1 : (i 1).val < 4096 := (i 1).isLt
  obtain ⟨t, ht⟩ : ∃ t : Fin cfg1.N, t.val = (i 0).val / 512 :=
    ⟨⟨(i 0).val / 512, by rw [show cfg1.N = 22 from N_1]; omega⟩, rfl⟩
  obtain ⟨-, -, e2, e3, -, -, e6, e7⟩ := idx_facts t
  refine ⟨t, flush1_2 t, ?_⟩
  rw [mem_blkT]
  intro a
  match a with
  | ⟨0, _⟩ =>
    show win1_2.index t (0 : Fin 2) * 512 ≤ (i 0).val ∧ (i 0).val < win1_2.index t (0 : Fin 2) * 512 + win1_2.xsize (grid1.coords t) (0 : Fin 2)
    rw [e2, e7, ht]; omega
  | ⟨1, _⟩ =>
    show win1_2.index t (1 : Fin 2) * 4096 ≤ (i 1).val ∧ (i 1).val < win1_2.index t (1 : Fin 2) * 4096 + win1_2.xsize (grid1.coords t) (1 : Fin 2)
    rw [e3, e6]; omega

/-! ## The final array -/

/-- After the pipeline the ternary-weights array holds, at every index, the ternary weight at the scale the region
    found, of the weights as the region found them. -/
theorem final_TW (c : Dev nD) : (dat1 V c).arrAt 2 cfg1.N = GT (V c main_arg1) (scaleOf V c) :=
  (dat1 V c).arrAt_eq_of_cover 2 (GT (V c main_arg1) (scaleOf V c)) (fun t _ => flushedT_eq V c t) coverT

end Cert.KernelIdeal.R1V

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibProductNT.lean ====
/-
  The matrix product against a transposed right operand — an [M, K] matrix times an [N, K] matrix, both contracted on
  their last axis, no batch axis — read at an entry (p, q) as the sum over k of x(p, k) · w(q, k), on the extended
  reals: for the host's product and for the matrix unit's product into a zero accumulator. The operands' indices at
  contraction position k are computed once here, for every M, K, N, so a caller only names its entry.
-/
import proofs.«119196_j24962349924855_2_alg».proof.Proof.LibDotSum

namespace Idealize.ShloMosaic.ProductNT

open Idealize.ShloMosaic Idealize.ShloMosaic.ValueIdx

variable (M K N : Nat)

theorem contr_rank : (DotDims.transposedRhs M K N).contr.rank = 1 := rfl

theorem contr_size : (DotDims.transposedRhs M K N).contr.size ⟨0, by rw [contr_rank]; omega⟩ = K := rfl

/-- The left operand is read at row p, column k. -/
theorem lhsIdx_eq (p : Fin M) (q : Fin N) (k : Fin K) :
    (DotDims.transposedRhs M K N).lhsIdx (ix2 p q)
      ((contrEquiv1 (DotDims.transposedRhs M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.transposedRhs M K N).lhsIdx_val_of_single rfl (ix2 p q) _).trans
      (contrEquiv1_symm_val (DotDims.transposedRhs M K N) K (contr_rank M K N) (contr_size M K N) k)

/-- The right operand is read at row q, column k. -/
theorem rhsIdx_eq (p : Fin M) (q : Fin N) (k : Fin K) :
    (DotDims.transposedRhs M K N).rhsIdx (ix2 p q)
      ((contrEquiv1 (DotDims.transposedRhs M K N) K (contr_rank M K N) (contr_size M K N)).symm k) = ix2 q k := by
  funext a
  apply Fin.ext
  match a with
  | ⟨0, _⟩ =>
    unfold DotDims.rhsIdx
    split
    · next hb => exact absurd hb List.not_mem_nil
    · split
      · rfl
      · next hn => exact absurd (List.mem_singleton.mpr rfl) hn
  | ⟨1, _⟩ =>
    exact ((DotDims.transposedRhs M K N).rhsIdx_val_of_single rfl (ix2 p q) _).trans
      (contrEquiv1_symm_val (DotDims.transposedRhs M K N) K (contr_rank M K N) (contr_size M K N) k)

/-- The host's product against a transposed right operand at (p, q). -/
theorem dotGeneral_at {φ₁ φ₂ : FTy} (x : FVec Ideal ⟨2, ![M, K]⟩ φ₁) (w : FVec Ideal ⟨2, ![N, K]⟩ φ₂) (p : Fin M) (q : Fin N) :
    Host.dotGeneral (DotDims.transposedRhs M K N) none x w (ix2 p q) = ∑ k : Fin K, x (ix2 p k) * w (ix2 q k) :=
  DotSum.dotGeneral_eq_sum (DotDims.transposedRhs M K N) K (contr_rank M K N) (contr_size M K N) x w (ix2 p q)
    (fun k => ix2 p k) (fun k => ix2 q k) (lhsIdx_eq M K N p q) (rhsIdx_eq M K N p q)

/-- The matrix unit's product against a transposed right operand, into zeros, at (p, q). -/
theorem matmul_zero_at {φ₁ φ₂ : FTy} (x : FVec Ideal ⟨2, ![M, K]⟩ φ₁) (w : FVec Ideal ⟨2, ![N, K]⟩ φ₂) (p : Fin M) (q : Fin N) :
    matmul (DotDims.transposedRhs M K N) none x w (constant ⟨2, ![M, N]⟩ .f32 0x00000000#32) (ix2 p q)
      = ∑ k : Fin K, x (ix2 p k) * w (ix2 q k) :=
  DotSum.matmul_zero_eq_sum (DotDims.transposedRhs M K N) K (contr_rank M K N) (contr_size M K N) x w (ix2 p q)
    (fun k => ix2 p k) (fun k => ix2 q k) (lhsIdx_eq M K N p q) (rhsIdx_eq M K N p q)

end Idealize.ShloMosaic.ProductNT
-- ==== Proof.Region2Local.lean ====
import proofs.«119196_j24962349924855_2_alg».proof.Proof.Region2Body
import proofs.«119196_j24962349924855_2_alg».proof.Proof.LibProductNT
import Idealize.ShloMosaic.Lib.ValueIdx
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL Idealize.SL.Sem

/-! # On the extended reals the block product is local

An entry (p, q) of the block product added to a running block is the running block's entry plus the sum over the 512
contracted positions of the activations' row p times the weights' row q: it reads the weights' block in row q only. -/

/-- The running block plus the block product, at an entry. -/
theorem k2_pay2_at (a : Vec Ideal S2048x512 .bf16) (b : Vec Ideal S1024x512 .bf16) (acc : Vec Ideal S2048x1024 .f32)
    (p : Fin 2048) (q : Fin 1024) :
    k2_pay2 a b acc (ix2 p q) = acc (ix2 p q) + ∑ k : Fin 512, a (ix2 p k) * b (ix2 q k) := by
  unfold k2_pay2
  refine (addf_apply _ _ (ix2 p q)).trans ?_
  rw [shapeCast_self acc, shapeCast_self a, shapeCast_self b]
  exact congrArg _ (ProductNT.matmul_zero_at 2048 512 1024 a b p q)

/-- The cuts of the weights' window (its rows) and of the output window (its columns) agree at every point, and
    neither window is cut along its other axis. -/
theorem cuts_agree : ∀ t : Fin cfg2.N, win2_2.xsize (grid2.coords t) 0 = win2_4.xsize (grid2.coords t) 1 ∧ win2_2.xsize (grid2.coords t) 1 = 512 :=
  (by decide +kernel : ∀ t : Fin grid2.N, win2_2.xsize (grid2.coords t) 0 = win2_4.xsize (grid2.coords t) 1 ∧ win2_2.xsize (grid2.coords t) 1 = 512)

/-- Along the contracted axis the output block does not move, so its cut is the previous point's. -/
theorem cut_kept : ∀ t : Fin cfg2.N, ¬t.val % 8 = 0 →
    win2_4.xsize (grid2.coords (pred2 t)) 0 = win2_4.xsize (grid2.coords t) 0 ∧ win2_4.xsize (grid2.coords (pred2 t)) 1 = win2_4.xsize (grid2.coords t) 1 :=
  (by decide +kernel : ∀ t : Fin grid2.N, ¬t.val % 8 = 0 →
    win2_4.xsize (grid2.coords (pred2 t)) 0 = win2_4.xsize (grid2.coords t) 0 ∧ win2_4.xsize (grid2.coords (pred2 t)) 1 = win2_4.xsize (grid2.coords t) 1)

/-- An index of the output block's part inside the array, as a row and a column of the block. -/
theorem xinj4_eq (t : Fin cfg2.N) (y : (win2_4.xblock (grid2.coords t)).Idx) :
    win2_4.xinj (grid2.coords t) y
      = ix2 (⟨(y 0).val, Nat.lt_of_lt_of_le (y 0).isLt (win2_4.xsize_le (grid2.coords t) 0)⟩ : Fin 2048)
            (⟨(y 1).val, Nat.lt_of_lt_of_le (y 1).isLt (win2_4.xsize_le (grid2.coords t) 1)⟩ : Fin 1024) :=
  funext fun a => Fin.ext (by match a with | ⟨0, _⟩ => rfl | ⟨1, _⟩ => rfl)

/-- A weights' row inside the array is read off the block itself, whatever fills the rows past the array's end. -/
theorem fill2_at (t : Fin cfg2.N) (d2 : Vec Ideal S1024x512 .bf16) (B : (win2_2.xblock (grid2.coords t)).Idx → Elt Ideal .bf16)
    (q : Fin 1024) (k : Fin 512) (hq : q.val < win2_4.xsize (grid2.coords t) 1) (d2' : Vec Ideal S1024x512 .bf16) :
    win2_2.fill (grid2.coords t) d2 B (ix2 q k) = win2_2.fill (grid2.coords t) d2' B (ix2 q k) := by
  have hm : win2_2.moved (grid2.coords t) (ix2 q k) = true := (win2_2.moved_iff _ _).mpr fun a => by
    match a with
    | ⟨0, _⟩ => show q.val < win2_2.xsize (grid2.coords t) 0; rw [(cuts_agree t).1]; exact hq
    | ⟨1, _⟩ => show k.val < win2_2.xsize (grid2.coords t) 1; rw [(cuts_agree t).2]; exact k.isLt
  unfold Pipeline.Window.fill
  rw [dif_pos hm, dif_pos hm]

theorem local2_Ideal : Local2 Ideal where
  first := by
    intro t a B d2 d2'
    funext y
    show k2_pay2 a _ _ (win2_4.xinj (grid2.coords t) y) = k2_pay2 a _ _ (win2_4.xinj (grid2.coords t) y)
    rw [xinj4_eq, k2_pay2_at, k2_pay2_at]
    refine congrArg _ (Finset.sum_congr rfl fun k _ => congrArg _ ?_)
    exact fill2_at t d2 B _ k (y 1).isLt d2'
  later := by
    intro t h0 a B d2 d2' C d d'
    funext y
    show k2_pay2 a _ _ (win2_4.xinj (grid2.coords t) y) = k2_pay2 a _ _ (win2_4.xinj (grid2.coords t) y)
    rw [xinj4_eq, k2_pay2_at, k2_pay2_at]
    have hm : win2_4.moved (grid2.coords (pred2 t)) (ix2 (⟨(y 0).val, Nat.lt_of_lt_of_le (y 0).isLt (win2_4.xsize_le (grid2.coords t) 0)⟩ : Fin 2048)
        (⟨(y 1).val, Nat.lt_of_lt_of_le (y 1).isLt (win2_4.xsize_le (grid2.coords t) 1)⟩ : Fin 1024)) = true :=
      (win2_4.moved_iff _ _).mpr fun a => by
        match a with
        | ⟨0, _⟩ => show (y 0).val < win2_4.xsize (grid2.coords (pred2 t)) 0; rw [(cut_kept t h0).1]; exact (y 0).isLt
        | ⟨1, _⟩ => show (y 1).val < win2_4.xsize (grid2.coords (pred2 t)) 1; rw [(cut_kept t h0).2]; exact (y 1).isLt
    congr 1
    · unfold Pipeline.Window.fill
      rw [dif_pos hm, dif_pos hm]
    · refine Finset.sum_congr rfl fun k _ => congrArg _ ?_
      exact fill2_at t d2 B _ k (y 1).isLt d2'

end Cert.KernelIdeal.R2

end
-- ==== Proof.R2Acc.lean ====
/-
  The matmul region's running sum, entry by entry, on the extended reals.

  The rescaling at the last position along the contracted axis multiplies every entry of the running block by
  (global scale * (row scale + eps)) / 127. Along the contracted axis the output block does not move, so an entry
  inside the array is carried from one position to the next unchanged, and after the eight positions it is the
  zero word plus the eight block products' entries, in order, rescaled.
-/
import proofs.«119196_j24962349924855_2_alg».proof.Proof.Region2Local
import proofs.«119196_j24962349924855_2_alg».proof.Proof.LibColRow
import proofs.«119196_j24962349924855_2_alg».proof.Proof.Spec

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.ValueIdx
open Idealize.SL Idealize.SL.Sem
open Cert.BitLinear (cZero cEps2 c127)

/-! ### The payloads at an entry -/

/-- The block of zeros the first position adds to. -/
theorem k2_pay1_at (p : Fin 2048) (q : Fin 1024) : k2_pay1 (F := Ideal) (ix2 p q) = cZero := rfl

/-- The rescaling at an entry. -/
theorem k2_pay3_at (x4 : Vec Ideal S2048x1 .f32) (x6 : Vec Ideal S1x1 .f32) (X : Vec Ideal S2048x1024 .f32)
    (p : Fin 2048) (q : Fin 1024) :
    k2_pay3 x4 x6 X (ix2 p q)
      = X (ix2 p q) * Ideal.div (x6 (ix2 (0 : Fin 1) (0 : Fin 1)) * (x4 (ix2 p (0 : Fin 1)) + cEps2)) c127 := by
  unfold k2_pay3
  refine (mulf_apply _ _ (ix2 p q)).trans ?_
  rw [shapeCast_self X, shapeCast_self x4, shapeCast_self x6]
  refine congrArg (fun z => X (ix2 p q) * z) ?_
  refine (Cert.Lib.ColRow.bcast_col _ broadcasts_S2048x1_S2048x1024 p q).trans ?_
  refine (divf_apply _ _ (ix2 p (0 : Fin 1))).trans ?_
  refine congrArg (fun z => Ideal.div z c127) ?_
  refine (mulf_apply _ _ (ix2 p (0 : Fin 1))).trans ?_
  refine congrArg (fun z => z * (x4 (ix2 p (0 : Fin 1)) + cEps2)) ?_
  refine broadcastTo_apply x6 broadcasts_S1x1_S2048x1 (ix2 p (0 : Fin 1)) (ix2 (0 : Fin 1) (0 : Fin 1)) fun ax => ?_
  match ax with
  | ⟨0, _⟩ => rfl
  | ⟨1, _⟩ => rfl

/-! ### The running sum at an entry -/

variable (V : (c : Dev nD) → (b : Ref sig .tc) → Buf (Elt Ideal) ((c : Thread nD τ).loc b))

/-- The region's input blocks at a point, at their literal types (the activations', the row scales', the weights' part
    inside the array, the global scale's). -/
abbrev aBlk (c : Dev nD) (s : Fin cfg2.N) : Vec Ideal S2048x512 .bf16 := iblk2 V c 0 s
abbrev rBlk (c : Dev nD) (s : Fin cfg2.N) : Vec Ideal S2048x1 .f32 := iblk2 V c 1 s
abbrev wBlk (c : Dev nD) (s : Fin cfg2.N) : (win2_2.xblock (grid2.coords s)).Idx → Elt Ideal .bf16 := iblk2 V c 2 s
abbrev gBlk (c : Dev nD) (s : Fin cfg2.N) : Vec Ideal S1x1 .f32 := iblk2 V c 3 s

/-- The entry (p, q) of the block product at point s: row p of the activations' block against row q of the
    weights' block (as the proof data name it). -/
def blockTerm (c : Dev nD) (s : Fin cfg2.N) (p : Fin 2048) (q : Fin 1024) : EReal :=
  ∑ l : Fin 512, aBlk V c s (ix2 p l) * wblk V c s (ix2 q l)

/-- The index, in the weights' block's part inside the array, of row q and place l. -/
def widx (s : Fin cfg2.N) (q : Fin 1024) (l : Fin 512) (hq : q.val < win2_4.xsize (grid2.coords s) 1) :
    (win2_2.xblock (grid2.coords s)).Idx :=
  fun a => match a with
    | ⟨0, _⟩ => ⟨q.val, by show q.val < win2_2.xsize (grid2.coords s) 0; rw [(cuts_agree s).1]; exact hq⟩
    | ⟨1, _⟩ => ⟨l.val, by show l.val < win2_2.xsize (grid2.coords s) 1; rw [(cuts_agree s).2]; exact l.isLt⟩

/-- A weights' row inside the array is the block's own row. -/
theorem wblk_at (c : Dev nD) (s : Fin cfg2.N) (q : Fin 1024) (l : Fin 512) (hq : q.val < win2_4.xsize (grid2.coords s) 1) :
    wblk V c s (ix2 q l) = wBlk V c s (widx s q l hq) := by
  have hm : win2_2.moved (grid2.coords s) (ix2 q l) = true := (win2_2.moved_iff _ _).mpr fun a => by
    match a with
    | ⟨0, _⟩ => show q.val < win2_2.xsize (grid2.coords s) 0; rw [(cuts_agree s).1]; exact hq
    | ⟨1, _⟩ => show l.val < win2_2.xsize (grid2.coords s) 1; rw [(cuts_agree s).2]; exact l.isLt
  unfold wblk Pipeline.Window.fill
  rw [dif_pos hm]
  exact congrArg (wBlk V c s) (funext fun a => Fin.ext (by match a with | ⟨0, _⟩ => rfl | ⟨1, _⟩ => rfl))

/-- The block product's entry over the blocks themselves. -/
theorem blockTerm_blocks (c : Dev nD) (s : Fin cfg2.N) (p : Fin 2048) (q : Fin 1024) (hq : q.val < win2_4.xsize (grid2.coords s) 1) :
    blockTerm V c s p q
      = ∑ l : Fin 512, aBlk V c s (ix2 p l) * wBlk V c s (widx s q l hq) :=
  Finset.sum_congr rfl fun l _ => congrArg (fun z => aBlk V c s (ix2 p l) * z) (wblk_at V c s q l hq)

/-- What the next position finds at an entry inside the array is what the position before left there. -/
theorem prevOf_at (s : Fin cfg2.N) (h0 : ¬s.val % 8 = 0) (X : Vec Ideal S2048x1024 .f32) (p : Fin 2048) (q : Fin 1024)
    (hp : p.val < win2_4.xsize (grid2.coords s) 0) (hq : q.val < win2_4.xsize (grid2.coords s) 1) :
    prevOf (F := Ideal) (pred2 s) X (ix2 p q) = X (ix2 p q) := by
  have hm : win2_4.moved (grid2.coords (pred2 s)) (ix2 p q) = true := (win2_4.moved_iff _ _).mpr fun a => by
    match a with
    | ⟨0, _⟩ => show p.val < win2_4.xsize (grid2.coords (pred2 s)) 0; rw [(cut_kept s h0).1]; exact hp
    | ⟨1, _⟩ => show q.val < win2_4.xsize (grid2.coords (pred2 s)) 1; rw [(cut_kept s h0).2]; exact hq
  unfold prevOf Pipeline.Window.fill
  rw [dif_pos hm]
  exact congrArg X (funext fun a => Fin.ext (by match a with | ⟨0, _⟩ => rfl | ⟨1, _⟩ => rfl))

/-- At the first position: the zero word plus the block product. -/
theorem acc_first (c : Dev nD) (s : Fin cfg2.N) (h0 : s.val % 8 = 0) (p : Fin 2048) (q : Fin 1024) :
    accAt V c s.val s.isLt (ix2 p q) = cZero + blockTerm V c s p q := by
  refine (congrFun (accAt_A V c s h0) (ix2 p q)).trans ?_
  refine (k2_pay2_at _ _ _ p q).trans ?_
  rfl

/-- At a middle position: what the position before left plus the block product. -/
theorem acc_mid (c : Dev nD) (s s' : Fin cfg2.N) (hs : s.val = s'.val + 1) (h0 : ¬s.val % 8 = 0) (h1 : ¬s.val % 8 = 7)
    (p : Fin 2048) (q : Fin 1024)
    (hp : p.val < win2_4.xsize (grid2.coords s) 0) (hq : q.val < win2_4.xsize (grid2.coords s) 1) :
    accAt V c s.val s.isLt (ix2 p q) = accAt V c s'.val s'.isLt (ix2 p q) + blockTerm V c s p q := by
  have e : s' = pred2 s := Fin.ext (by show s'.val = s.val - 1; omega)
  subst e
  refine (congrFun (accAt_B V c s h0 h1) (ix2 p q)).trans ?_
  refine (k2_pay2_at _ _ _ p q).trans ?_
  exact congrArg (fun z => z + blockTerm V c s p q) (prevOf_at s h0 _ p q hp hq)

/-- At the last position: the same, rescaled. -/
theorem acc_last (c : Dev nD) (s s' : Fin cfg2.N) (hs : s.val = s'.val + 1) (h1 : s.val % 8 = 7)
    (p : Fin 2048) (q : Fin 1024)
    (hp : p.val < win2_4.xsize (grid2.coords s) 0) (hq : q.val < win2_4.xsize (grid2.coords s) 1) :
    accAt V c s.val s.isLt (ix2 p q)
      = (accAt V c s'.val s'.isLt (ix2 p q) + blockTerm V c s p q) * Ideal.div (gBlk V c s (ix2 (0 : Fin 1) (0 : Fin 1)) * (rBlk V c s (ix2 p (0 : Fin 1)) + cEps2)) c127 := by
  have h0 : ¬s.val % 8 = 0 := by omega
  have e : s' = pred2 s := Fin.ext (by show s'.val = s.val - 1; omega)
  subst e
  refine (congrFun (accAt_C V c s h1) (ix2 p q)).trans ?_
  refine (k2_pay3_at _ _ _ p q).trans ?_
  refine congrArg (fun z => z * Ideal.div (gBlk V c s (ix2 (0 : Fin 1) (0 : Fin 1)) * (rBlk V c s (ix2 p (0 : Fin 1)) + cEps2)) c127) ?_
  refine (k2_pay2_at _ _ _ p q).trans ?_
  exact congrArg (fun z => z + blockTerm V c s p q) (prevOf_at s h0 _ p q hp hq)

/-- Point k of the group of eight positions that ends at the flushing point t. -/
def gpt (t : Fin cfg2.N) (ht : t.val % 8 = 7) (k : Fin 8) : Fin cfg2.N :=
  ⟨t.val - 7 + k.val, by have := t.isLt; have := k.isLt; omega⟩

/-- The output block's cut is the same at the eight positions of a group. -/
theorem cut_group : ∀ (t : Fin cfg2.N) (ht : t.val % 8 = 7) (k : Fin 8),
    win2_4.xsize (grid2.coords (gpt t ht k)) 0 = win2_4.xsize (grid2.coords t) 0
      ∧ win2_4.xsize (grid2.coords (gpt t ht k)) 1 = win2_4.xsize (grid2.coords t) 1 :=
  (by decide +kernel : ∀ (t : Fin grid2.N) (ht : t.val % 8 = 7) (k : Fin 8),
    win2_4.xsize (grid2.coords (gpt t ht k)) 0 = win2_4.xsize (grid2.coords t) 0
      ∧ win2_4.xsize (grid2.coords (gpt t ht k)) 1 = win2_4.xsize (grid2.coords t) 1)

/-- THE RUNNING SUM AT A FLUSHING POINT, at an entry inside the array: the zero word plus the eight block products'
    entries, in order, rescaled. -/
theorem acc_entry (c : Dev nD) (t : Fin cfg2.N) (ht : t.val % 8 = 7) (p : Fin 2048) (q : Fin 1024)
    (hp : p.val < win2_4.xsize (grid2.coords t) 0) (hq : q.val < win2_4.xsize (grid2.coords t) 1) :
    accAt V c t.val t.isLt (ix2 p q)
      = ((((((((cZero + blockTerm V c (gpt t ht 0) p q) + blockTerm V c (gpt t ht 1) p q) + blockTerm V c (gpt t ht 2) p q) + blockTerm V c (gpt t ht 3) p q) + blockTerm V c (gpt t ht 4) p q) + blockTerm V c (gpt t ht 5) p q) + blockTerm V c (gpt t ht 6) p q) + blockTerm V c (gpt t ht 7) p q)
        * Ideal.div (gBlk V c t (ix2 (0 : Fin 1) (0 : Fin 1)) * (rBlk V c t (ix2 p (0 : Fin 1)) + cEps2)) c127 := by
  have hpk : ∀ k : Fin 8, p.val < win2_4.xsize (grid2.coords (gpt t ht k)) 0 := fun k => by rw [(cut_group t ht k).1]; exact hp
  have hqk : ∀ k : Fin 8, q.val < win2_4.xsize (grid2.coords (gpt t ht k)) 1 := fun k => by rw [(cut_group t ht k).2]; exact hq
  have e7 : gpt t ht 7 = t := Fin.ext (by show t.val - 7 + 7 = t.val; omega)
  have E0 := acc_first V c (gpt t ht 0) (by show (t.val - 7 + 0) % 8 = 0; omega) p q
  have E1 := acc_mid V c (gpt t ht 1) (gpt t ht 0) (by show t.val - 7 + 1 = t.val - 7 + 0 + 1; omega)
    (by show ¬(t.val - 7 + 1) % 8 = 0; omega) (by show ¬(t.val - 7 + 1) % 8 = 7; omega) p q (hpk 1) (hqk 1)
  have E2 := acc_mid V c (gpt t ht 2) (gpt t ht 1) (by show t.val - 7 + 2 = t.val - 7 + 1 + 1; omega)
    (by show ¬(t.val - 7 + 2) % 8 = 0; omega) (by show ¬(t.val - 7 + 2) % 8 = 7; omega) p q (hpk 2) (hqk 2)
  have E3 := acc_mid V c (gpt t ht 3) (gpt t ht 2) (by show t.val - 7 + 3 = t.val - 7 + 2 + 1; omega)
    (by show ¬(t.val - 7 + 3) % 8 = 0; omega) (by show ¬(t.val - 7 + 3) % 8 = 7; omega) p q (hpk 3) (hqk 3)
  have E4 := acc_mid V c (gpt t ht 4) (gpt t ht 3) (by show t.val - 7 + 4 = t.val - 7 + 3 + 1; omega)
    (by show ¬(t.val - 7 + 4) % 8 = 0; omega) (by show ¬(t.val - 7 + 4) % 8 = 7; omega) p q (hpk 4) (hqk 4)
  have E5 := acc_mid V c (gpt t ht 5) (gpt t ht 4) (by show t.val - 7 + 5 = t.val - 7 + 4 + 1; omega)
    (by show ¬(t.val - 7 + 5) % 8 = 0; omega) (by show ¬(t.val - 7 + 5) % 8 = 7; omega) p q (hpk 5) (hqk 5)
  have E6 := acc_mid V c (gpt t ht 6) (gpt t ht 5) (by show t.val - 7 + 6 = t.val - 7 + 5 + 1; omega)
    (by show ¬(t.val - 7 + 6) % 8 = 0; omega) (by show ¬(t.val - 7 + 6) % 8 = 7; omega) p q (hpk 6) (hqk 6)
  have E7 := acc_last V c t (gpt t ht 6) (by show t.val = t.val - 7 + 6 + 1; omega) ht p q hp hq
  rw [E6, E5, E4, E3, E2, E1, E0] at E7
  rw [e7]
  exact E7

/-- The same, at an index of the output block's part inside the array. -/
theorem cut_acc (c : Dev nD) (t : Fin cfg2.N) (ht : t.val % 8 = 7) (y : (win2_4.xblock (grid2.coords t)).Idx) :
    win2_4.cut (grid2.coords t) (accAt V c t.val t.isLt) y
      = ((((((((cZero + blockTerm V c (gpt t ht 0) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 1) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 2) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 3) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 4) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 5) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 6) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024)) + blockTerm V c (gpt t ht 7) (⟨(y 0).val, Nat.lt_of_lt_of_le (y 0).isLt (win2_4.xsize_le (grid2.coords t) 0)⟩ : Fin 2048) (⟨(y 1).val, Nat.lt_of_lt_of_le (y 1).isLt (win2_4.xsize_le (grid2.coords t) 1)⟩ : Fin 1024))
        * Ideal.div (gBlk V c t (ix2 (0 : Fin 1) (0 : Fin 1)) * (rBlk V c t (ix2 (⟨(y 0).val, Nat.lt_of_lt_of_le (y 0).isLt (win2_4.xsize_le (grid2.coords t) 0)⟩ : Fin 2048) (0 : Fin 1)) + cEps2)) c127 := by
  show accAt V c t.val t.isLt (win2_4.xinj (grid2.coords t) y) = _
  rw [xinj4_eq]
  exact acc_entry V c t ht _ _ (y 0).isLt (y 1).isLt

end Cert.KernelIdeal.R2V

end
-- ==== Proof.R2Idx.lean ====
import proofs.«119196_j24962349924855_2_alg».proof.Proof.Region2Local

set_option maxRecDepth 16384

noncomputable section

namespace Cert.KernelIdeal.R2

open Cert.KernelIdeal Cert.KernelIdeal.Gen
open Idealize.ShloMosaic Idealize.ShloMosaic.TcCoe
open Idealize.SL Idealize.SL.Sem

/-! # The matmul region's index maps in closed form

Point `t` of the 4 x 11 x 8 grid is row block `t / 88`, column block `(t / 8) % 11`, position `t % 8` along the
contracted axis. Decided over the 352 points. -/

theorem idx2_0 : ∀ t : Fin cfg2.N, win2_0.index t 0 = t.val / 88 ∧ win2_0.index t 1 = t.val % 8 :=
  (by decide +kernel : ∀ t : Fin grid2.N, win2_0.index t 0 = t.val / 88 ∧ win2_0.index t 1 = t.val % 8)
theorem idx2_1 : ∀ t : Fin cfg2.N, win2_1.index t 0 = t.val / 88 ∧ win2_1.index t 1 = 0 :=
  (by decide +kernel : ∀ t : Fin grid2.N, win2_1.index t 0 = t.val / 88 ∧ win2_1.index t 1 = 0)
theorem idx2_2 : ∀ t : Fin cfg2.N, win2_2.index t 0 = (t.val / 8) % 11 ∧ win2_2.index t 1 = t.val % 8 :=
  (by decide +kernel : ∀ t : Fin grid2.N, win2_2.index t 0 = (t.val / 8) % 11 ∧ win2_2.index t 1 = t.val % 8)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = t.val / 88 ∧ win2_4.index t 1 = (t.val / 8) % 11 :=
  (by decide +kernel : ∀ t : Fin grid2.N, win2_4.index t 0 = t.val / 88 ∧ win2_4.index t 1 = (t.val / 8) % 11)
/-- The output block's part inside the array: all 2048 rows, and the columns up to the array's 11008th. -/
theorem xs2_4 : ∀ t : Fin cfg2.N, win2_4.xsize (grid2.coords t) 0 = 2048 ∧ win2_4.xsize (grid2.coords t) 1 = min 1024 (11008 - ((t.val / 8) % 11) * 1024) :=
  (by decide +kernel : ∀ t : Fin grid2.N, win2_4.xsize (grid2.coords t) 0 = 2048 ∧ win2_4.xsize (grid2.coords t) 1 = min 1024 (11008 - ((t.val / 8) % 11) * 1024))
/-- The activations' and the row scales' blocks are never cut. -/
theorem xs2_0 : ∀ t : Fin cfg2.N, win2_0.xsize (grid2.coords t) 0 = 2048 ∧ win2_0.xsize (grid2.coords t) 1 = 512 :=
  (by decide +kernel : ∀ t : Fin grid2.N, win2_0.xsize (grid2.coords t) 0 = 2048 ∧ win2_0.xsize (grid2.coords t) 1 = 512)

end Cert.KernelIdeal.R2

end
-- ==== Proof.R2Reads.lean ====
import proofs.«119196_j24962349924855_2_alg».proof.Proof.R2Idx
import Idealize.ShloMosaic.Lib.ValueIdx
import Idealize.ShloMosaic.Lib.Pipeline.Value

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # The matmul region's blocks as reads of the region-entry arrays

Point `t` of the 4 x 11 x 8 grid is row block `t / 88`, column block `(t / 8) % 11`, position `t % 8` along the
contracted axis. A block's coordinate in its array is the block index times the block's extent plus the coordinate
inside the block. -/

/-- The grid has 352 points. -/
theorem t_lt (t : Fin cfg2.N) : t.val < 352 := lt_of_lt_of_eq t.isLt N_2

/-- The activations' block: rows `(t / 88) * 2048 + p`, columns `(t % 8) * 512 + l`. -/
theorem iblk2_0_at (c : Dev nD) (t : Fin cfg2.N) (p : Fin 2048) (l : Fin 512) :
    iblk2 V c 0 t (ix2 p l)
      = V c main_v0_0 (ix2 (⟨(t.val / 88) * 2048 + p.val, by have := t_lt t; have := p.isLt; omega⟩ : Fin 8192)
          (⟨(t.val % 8) * 512 + l.val, by have := l.isLt; omega⟩ : Fin 4096)) := by
  obtain ⟨e0, e1⟩ := idx2_0 t
  show V c main_v0_0 (((cfg2.win 0).blk t).view.emb (ix2 p l)) = _
  refine congrArg _ (funext fun a => Fin.ext ?_)
  match a with
  | ⟨0, _⟩ => show win2_0.index t 0 * 2048 + 1 * p.val = (t.val / 88) * 2048 + p.val; rw [e0, Nat.one_mul]
  | ⟨1, _⟩ => show win2_0.index t 1 * 512 + 1 * l.val = (t.val % 8) * 512 + l.val; rw [e1, Nat.one_mul]

/-- The row scales' block: rows `(t / 88) * 2048 + p`, the one column. -/
theorem iblk2_1_at (c : Dev nD) (t : Fin cfg2.N) (p : Fin 2048) (z : Fin 1) :
    iblk2 V c 1 t (ix2 p z)
      = V c main_v0_1 (ix2 (⟨(t.val / 88) * 2048 + p.val, by have := t_lt t; have := p.isLt; omega⟩ : Fin 8192) (⟨0, Nat.one_pos⟩ : Fin 1)) := by
  obtain ⟨e0, e1⟩ := idx2_1 t
  show V c main_v0_1 (((cfg2.win 1).blk t).view.emb (ix2 p z)) = _
  refine congrArg _ (funext fun a => Fin.ext ?_)
  match a with
  | ⟨0, _⟩ => show win2_1.index t 0 * 2048 + 1 * p.val = (t.val / 88) * 2048 + p.val; rw [e0, Nat.one_mul]
  | ⟨1, _⟩ => show win2_1.index t 1 * 1 + 1 * z.val = 0; rw [e1]; have := z.isLt; omega

/-- The weight scale's block: the 1 x 1 array itself. -/
theorem iblk2_3_at (c : Dev nD) (t : Fin cfg2.N) (z0 z1 : Fin 1) :
    iblk2 V c 3 t (ix2 z0 z1) = V c main_v6 (ix2 (⟨0, Nat.one_pos⟩ : Fin 1) (⟨0, Nat.one_pos⟩ : Fin 1)) := by
  obtain ⟨e0, e1⟩ := idx2_3 t
  show V c main_v6 (((cfg2.win 3).blk t).view.emb (ix2 z0 z1)) = _
  refine congrArg _ (funext fun a => Fin.ext ?_)
  match a with
  | ⟨0, _⟩ => show win2_3.index t 0 * 1 + 1 * z0.val = 0; rw [e0]; have := z0.isLt; omega
  | ⟨1, _⟩ => show win2_3.index t 1 * 1 + 1 * z1.val = 0; rw [e1]; have := z1.isLt; omega

/-- The part of the weights' block inside the array has as many rows as the output block has columns inside its
    array, and all 512 columns. -/
theorem y2_lt (t : Fin cfg2.N) (y2 : (win2_2.xblock (grid2.coords t)).Idx) :
    ((t.val / 8) % 11) * 1024 + (y2 0).val < 11008 ∧ (y2 1).val < 512 := by
  have h0 : (y2 0).val < win2_2.xsize (grid2.coords t) 0 := (y2 0).isLt
  have h1 : (y2 1).val < win2_2.xsize (grid2.coords t) 1 := (y2 1).isLt
  rw [(cuts_agree t).1, (xs2_4 t).2] at h0
  rw [(cuts_agree t).2] at h1
  omega

/-- The ternary weights' block (its rows inside the array): rows `((t / 8) % 11) * 1024 + y2 0`, columns
    `(t % 8) * 512 + y2 1`. -/
theorem iblk2_2_at (c : Dev nD) (t : Fin cfg2.N) (y2 : (win2_2.xblock (grid2.coords t)).Idx) :
    iblk2 V c 2 t y2
      = V c main_v7 (ix2 (⟨((t.val / 8) % 11) * 1024 + (y2 0).val, (y2_lt t y2).1⟩ : Fin 11008)
          (⟨(t.val % 8) * 512 + (y2 1).val, by have := (y2_lt t y2).2; omega⟩ : Fin 4096)) := by
  obtain ⟨e0, e1⟩ := idx2_2 t
  show V c main_v7 (((cfg2.win 2).blk t).view.emb y2) = _
  refine congrArg _ (funext fun a => Fin.ext ?_)
  match a with
  | ⟨0, _⟩ => show win2_2.index t 0 * 1024 + 1 * (y2 0).val = ((t.val / 8) % 11) * 1024 + (y2 0).val; rw [e0, Nat.one_mul]
  | ⟨1, _⟩ => show win2_2.index t 1 * 512 + 1 * (y2 1).val = (t.val % 8) * 512 + (y2 1).val; rw [e1, Nat.one_mul]

/-! ## The eight points of one output block

At a point `t` at the last position along the contracted axis (`t % 8 = 7`) the output block's running sum was
started at `t - 7` and the eight points `t - 7 + k` share `t`'s row block and column block, at position `k`. -/

/-- The arithmetic of the eight points. -/
theorem tk_facts (t k : ℕ) (ht : t % 8 = 7) (hk : k < 8) :
    (t - 7 + k) / 88 = t / 88 ∧ ((t - 7 + k) / 8) % 11 = (t / 8) % 11 ∧ (t - 7 + k) % 8 = k := by omega

/-- The point at position `k` of `t`'s output block. -/
abbrev tk (t : Fin cfg2.N) (k : Fin 8) : Fin cfg2.N :=
  ⟨t.val - 7 + k.val, by have := t.isLt; have := k.isLt; have := t_lt t; have e : cfg2.N = 352 := N_2; omega⟩

/-- The activations' block at position `k` of `t`'s output block: `t`'s rows, columns `k * 512 + l`. -/
theorem iblk2_0_tk (c : Dev nD) (t : Fin cfg2.N) (ht : t.val % 8 = 7) (k : Fin 8) (p : Fin 2048) (l : Fin 512) :
    iblk2 V c 0 (tk t k) (ix2 p l)
      = V c main_v0_0 (ix2 (⟨(t.val / 88) * 2048 + p.val, by have := t_lt t; have := p.isLt; omega⟩ : Fin 8192)
          (⟨k.val * 512 + l.val, by have := l.isLt; have := k.isLt; omega⟩ : Fin 4096)) := by
  rw [iblk2_0_at]
  obtain ⟨h0, -, h2⟩ := tk_facts t.val k.val ht k.isLt
  refine congrArg _ (funext fun a => Fin.ext ?_)
  match a with
  | ⟨0, _⟩ => show ((tk t k).val / 88) * 2048 + p.val = (t.val / 88) * 2048 + p.val; rw [show (tk t k).val = t.val - 7 + k.val from rfl, h0]
  | ⟨1, _⟩ => show ((tk t k).val % 8) * 512 + l.val = k.val * 512 + l.val; rw [show (tk t k).val = t.val - 7 + k.val from rfl, h2]

/-- The ternary weights' block at position `k` of `t`'s output block: `t`'s column block's rows, columns
    `k * 512 + y2 1`. -/
theorem iblk2_2_tk (c : Dev nD) (t : Fin cfg2.N) (ht : t.val % 8 = 7) (k : Fin 8) (y2 : (win2_2.xblock (grid2.coords (tk t k))).Idx) :
    iblk2 V c 2 (tk t k) y2
      = V c main_v7 (ix2 (⟨((t.val / 8) % 11) * 1024 + (y2 0).val, by
            have := (y2_lt (tk t k) y2).1; rw [show (tk t k).val = t.val - 7 + k.val from rfl, (tk_facts t.val k.val ht k.isLt).2.1] at this; exact this⟩ : Fin 11008)
          (⟨k.val * 512 + (y2 1).val, by have := (y2_lt (tk t k) y2).2; have := k.isLt; omega⟩ : Fin 4096)) := by
  rw [iblk2_2_at]
  obtain ⟨-, h1, h2⟩ := tk_facts t.val k.val ht k.isLt
  refine congrArg _ (funext fun a => Fin.ext ?_)
  match a with
  | ⟨0, _⟩ => show (((tk t k).val / 8) % 11) * 1024 + (y2 0).val = ((t.val / 8) % 11) * 1024 + (y2 0).val; rw [show (tk t k).val = t.val - 7 + k.val from rfl, h1]
  | ⟨1, _⟩ => show ((tk t k).val % 8) * 512 + (y2 1).val = k.val * 512 + (y2 1).val; rw [show (tk t k).val = t.val - 7 + k.val from rfl, h2]

/-- The eight points of one output block cut the weights' block and the output block alike. -/
theorem tk_cut (t : Fin cfg2.N) (ht : t.val % 8 = 7) (k : Fin 8) :
    win2_4.xsize (grid2.coords (tk t k)) 1 = win2_4.xsize (grid2.coords t) 1 ∧ win2_2.xsize (grid2.coords (tk t k)) 0 = win2_4.xsize (grid2.coords t) 1 := by
  have h1 := (tk_facts t.val k.val ht k.isLt).2.1
  have e : win2_4.xsize (grid2.coords (tk t k)) 1 = win2_4.xsize (grid2.coords t) 1 := by
    rw [(xs2_4 (tk t k)).2, (xs2_4 t).2, show (tk t k).val = t.val - 7 + k.val from rfl, h1]
  exact ⟨e, ((cuts_agree (tk t k)).1).trans e⟩

/-! ## The output block of a whole-array function -/

/-- The output block's part inside the array: all 2048 rows, the columns up to the array's 11008th. -/
theorem y4_lt (t : Fin cfg2.N) (y : (win2_4.xblock (grid2.coords t)).Idx) :
    (t.val / 88) * 2048 + (y 0).val < 8192 ∧ ((t.val / 8) % 11) * 1024 + (y 1).val < 11008 := by
  have h0 : (y 0).val < win2_4.xsize (grid2.coords t) 0 := (y 0).isLt
  have h1 : (y 1).val < win2_4.xsize (grid2.coords t) 1 := (y 1).isLt
  rw [(xs2_4 t).1] at h0
  rw [(xs2_4 t).2] at h1
  have := t_lt t
  omega

/-- Block `t` of a function of the whole result array, at an index inside the array: the function at row
    `(t / 88) * 2048 + y 0`, column `((t / 8) % 11) * 1024 + y 1`. -/
theorem blk4_read {Val : EltTy → Type} (c : Dev nD) (G : Buf Val ((cfg2.win 4).arr.view.loc (c : Thread nD τ))) (t : Fin cfg2.N)
    (y : (win2_4.xblock (grid2.coords t)).Idx) :
    ((cfg2.win 4).blk t).view.read Val G y
      = G (ix2 (⟨(t.val / 88) * 2048 + (y 0).val, (y4_lt t y).1⟩ : Fin 8192) (⟨((t.val / 8) % 11) * 1024 + (y 1).val, (y4_lt t y).2⟩ : Fin 11008)) := by
  obtain ⟨e0, e1⟩ := idx2_4 t
  show G (((cfg2.win 4).blk t).view.emb y) = _
  refine congrArg _ (funext fun a => Fin.ext ?_)
  match a with
  | ⟨0, _⟩ => show win2_4.index t 0 * 2048 + 1 * (y 0).val = (t.val / 88) * 2048 + (y 0).val; rw [e0, Nat.one_mul]
  | ⟨1, _⟩ => show win2_4.index t 1 * 1024 + 1 * (y 1).val = ((t.val / 8) % 11) * 1024 + (y 1).val; rw [e1, Nat.one_mul]

/-! ## The output blocks cover the result array -/

/-- An index of the result array is in point `t`'s block iff each coordinate is in the block's range inside the array. -/
theorem mem_blk4 (t : Fin cfg2.N) (i : S8192x11008.Idx) :
    i ∈ ((cfg2.win 4).blk t).view.set
      ↔ ∀ a : Fin 2, win2_4.index t a * S2048x1024.size a ≤ (i a).val ∧ (i a).val < win2_4.index t a * S2048x1024.size a + win2_4.xsize (grid2.coords t) a := by
  show i ∈ ((View.whole main_v8).slice (win2_4.rect t)).set ↔ _
  rw [View.set_slice_whole, Rect.mem_set_unit]
  exact Iff.rfl

/-- Every index of the result array is in the block of the point at the last position of its row block and column
    block, which writes its block back. -/
theorem cover4 (i : S8192x11008.Idx) :
    ∃ t : Fin cfg2.N, (cfg2.win 4).flush t = true ∧ i ∈ ((cfg2.win 4).blk t).view.set := by
  have hi0 : (i 0).val < 8192 := (i 0).isLt
  have hi1 : (i 1).val < 11008 := (i 1).isLt
  have hN : cfg2.N = 352 := N_2
  refine ⟨⟨((i 0).val / 2048) * 88 + ((i 1).val / 1024) * 8 + 7, by omega⟩, ?_, ?_⟩
  · exact (flush2_4 _).mpr (by show (((i 0).val / 2048) * 88 + ((i 1).val / 1024) * 8 + 7) % 8 = 7; omega)
  · rw [mem_blk4]
    intro a
    match a with
    | ⟨0, _⟩ =>
      show win2_4.index _ 0 * 2048 ≤ (i 0).val ∧ (i 0).val < win2_4.index _ 0 * 2048 + win2_4.xsize (grid2.coords _) 0
      rw [(idx2_4 _).1, (xs2_4 _).1]
      show ((((i 0).val / 2048) * 88 + ((i 1).val / 1024) * 8 + 7) / 88) * 2048 ≤ (i 0).val ∧ (i 0).val < ((((i 0).val / 2048) * 88 + ((i 1).val / 1024) * 8 + 7) / 88) * 2048 + 2048
      omega
    | ⟨1, _⟩ =>
      show win2_4.index _ 1 * 1024 ≤ (i 1).val ∧ (i 1).val < win2_4.index _ 1 * 1024 + win2_4.xsize (grid2.coords _) 1
      rw [(idx2_4 _).2, (xs2_4 _).2]
      show (((((i 0).val / 2048) * 88 + ((i 1).val / 1024) * 8 + 7) / 8) % 11) * 1024 ≤ (i 1).val ∧ (i 1).val < (((((i 0).val / 2048) * 88 + ((i 1).val / 1024) * 8 + 7) / 8) % 11) * 1024 + min 1024 (11008 - (((((i 0).val / 2048) * 88 + ((i 1).val / 1024) * 8 + 7) / 8) % 11) * 1024)
      omega

end Cert.KernelIdeal.R2V

end
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.Algebra.lean ====
/-
  The kernel's formula and the reference's formula agree on real inputs.

  A value clamped between two real bounds is a real number whatever extended real went in, so the quantized
  activations and the ternary weights are real with no appeal to the rounding function. On real inputs the
  row scale is a maximum over a nonempty finite set of reals, clamped below by a positive literal: a positive
  real; the weight scale is one over a positive real. Both results are then finite sums of products of reals,
  and dividing each activation by 127 / (amax + eps) before the contraction is multiplying the contraction by
  (amax + eps) / 127 after it.
-/
import proofs.«119196_j24962349924855_2_alg».proof.Proof.Spec
import proofs.«119196_j24962349924855_2_alg».proof.Proof.LibFiniteOps

noncomputable section

namespace Cert.BitLinear

open Idealize.ShloMosaic Idealize.ShloMosaic.ValueIdx Cert.LibFiniteOps

/-! ### The literals -/

theorem c127_eq : c127 = ((127 : ℝ) : EReal) := by
  simp [Ideal.ofBits, Ideal.ieee, -EReal.coe_mul]; norm_num
theorem cNeg128_eq : cNeg128 = ((-128 : ℝ) : EReal) := by
  simp [Ideal.ofBits, Ideal.ieee, -EReal.coe_mul]; norm_num
theorem cOne_eq : cOne = ((1 : ℝ) : EReal) := by
  simp [Ideal.ofBits, Ideal.ieee, -EReal.coe_mul]; norm_num
theorem cNegOne_eq : cNegOne = ((-1 : ℝ) : EReal) := by
  simp [Ideal.ofBits, Ideal.ieee, -EReal.coe_mul]; norm_num
theorem cZero_eq : cZero = ((0 : ℝ) : EReal) := ofBits_00000000
theorem cCount_eq : cCount = ((45088768 : ℝ) : EReal) := by
  simp [Ideal.ofBits, Ideal.ieee, -EReal.coe_mul]; norm_num
theorem cEps5_eq : cEps5 = ((10995116 / 2 ^ 40 : ℝ) : EReal) := ofBits_3727C5AC
theorem cEps2_eq : cEps2 = ((8796093 / 2 ^ 42 : ℝ) : EReal) := by
  simp [Ideal.ofBits, Ideal.ieee, -EReal.coe_mul]; norm_num

theorem eps2_pos : (0 : ℝ) < 8796093 / 2 ^ 42 := by positivity

/-! ### Clamping gives a real number -/

/-- The inclusion of the reals is monotone, so it commutes with the maximum and the minimum of two reals. -/
theorem coe_max' (a b : ℝ) : max (a : EReal) (b : EReal) = ((max a b : ℝ) : EReal) :=
  (EReal.coe_strictMono.monotone.map_max).symm
theorem coe_min' (a b : ℝ) : min (a : EReal) (b : EReal) = ((min a b : ℝ) : EReal) :=
  (EReal.coe_strictMono.monotone.map_min).symm

/-- A value clamped between two real bounds is real, for every extended real. -/
theorem real_clamp (hi lo : ℝ) (y : EReal) : ∃ r : ℝ, min (hi : EReal) (max (lo : EReal) y) = (r : EReal) := by
  induction y using EReal.rec with
  | bot => exact ⟨min hi lo, by rw [max_eq_left bot_le, coe_min']⟩
  | top => exact ⟨hi, by rw [max_eq_right le_top, min_eq_left le_top]⟩
  | coe r => exact ⟨min hi (max lo r), by rw [coe_max', coe_min']⟩

theorem real_Q (x : XArr) (t : Fin 8192) (i : Fin 4096) : ∃ r : ℝ, Q x t i = (r : EReal) := by
  unfold Q; rw [c127_eq, cNeg128_eq]; exact real_clamp _ _ _

theorem real_TW (w : WArr) (o : Fin 11008) (i : Fin 4096) : ∃ r : ℝ, TW w o i = (r : EReal) := by
  unfold TW; rw [cOne_eq, cNegOne_eq]; exact real_clamp _ _ _

/-! ### The scales on real inputs -/

/-- The absolute value of a real, as the maximum of it and its negative, is a real. -/
theorem real_abs {a : EReal} (ha : ∃ r : ℝ, a = (r : EReal)) : ∃ r : ℝ, max a (-a) = (r : EReal) :=
  real_max ha (real_neg ha)

/-- On a real input the row scale is a positive real. -/
theorem pos_amax (x : XArr) (hx : ∀ j, ∃ r : ℝ, x j = (r : EReal)) (t : Fin 8192) :
    ∃ a : ℝ, 0 < a ∧ amax x t = (a : EReal) := by
  have hne : (Finset.univ : Finset (Fin 4096)).Nonempty := ⟨⟨0, by norm_num⟩, Finset.mem_univ _⟩
  obtain ⟨k, -, hk⟩ := Finset.exists_mem_eq_sup (Finset.univ : Finset (Fin 4096)) hne
    (fun k => max (x (ix2 t k)) (-(x (ix2 t k))))
  obtain ⟨ρ, hρ⟩ := real_abs (hx (ix2 t k))
  refine ⟨max (10995116 / 2 ^ 40) ρ, lt_max_of_lt_left pos_3727C5AC, ?_⟩
  unfold amax rowAbsMax
  rw [hk, hρ, cEps5_eq, coe_max']

/-- On a real input the weight scale is a real. -/
theorem real_SW (w : WArr) (hw : ∀ j, ∃ r : ℝ, w j = (r : EReal)) : ∃ s : ℝ, SW w = (s : EReal) := by
  obtain ⟨σ, hσ⟩ := exists_real_sum (Finset.univ : Finset (⟨2, ![11008, 4096]⟩ : Shape).Idx)
    (fun j => max (w j) (-(w j))) (fun j _ => real_abs (hw j))
  have hμ : (0 : ℝ) < max (10995116 / 2 ^ 40) ((0 + σ) * (1 / 45088768)) := lt_max_of_lt_left pos_3727C5AC
  refine ⟨1 * (1 / max (10995116 / 2 ^ 40) ((0 + σ) * (1 / 45088768))), ?_⟩
  unfold SW absSum
  rw [hσ, cZero_eq, cCount_eq, cEps5_eq, cOne_eq, ← EReal.coe_add,
    Ideal.div_coe (by norm_num : (45088768 : ℝ) ≠ 0), ← EReal.coe_mul, coe_max',
    Ideal.div_coe hμ.ne', ← EReal.coe_mul]

/-! ### The two formulas agree -/

theorem GkerAt_eq_GrefAt (x : XArr) (w : WArr) (hx : ∀ j, ∃ r : ℝ, x j = (r : EReal))
    (hw : ∀ j, ∃ r : ℝ, w j = (r : EReal)) (t : Fin 8192) (o : Fin 11008) :
    GkerAt x w t o = GrefAt x w t o := by
  obtain ⟨a, ha0, ha⟩ := pos_amax x hx t
  obtain ⟨s, hs⟩ := real_SW w hw
  choose q hq using real_Q x t
  choose τ hτ using real_TW w o
  have hB : (0 : ℝ) < a + 8796093 / 2 ^ 42 := add_pos ha0 eps2_pos
  have hD : (127 : ℝ) * (1 / (a + 8796093 / 2 ^ 42)) ≠ 0 :=
    mul_ne_zero (by norm_num) (one_div_ne_zero hB.ne')
  unfold GkerAt GrefAt
  simp only [hq, hτ]
  rw [ha, hs, cEps2_eq, c127_eq, ← EReal.coe_add, Ideal.div_coe hB.ne', ← EReal.coe_mul]
  simp only [Ideal.div_coe hD, ← EReal.coe_mul]
  rw [coe_finset_sum, coe_finset_sum, Ideal.div_coe (by norm_num : (127 : ℝ) ≠ 0)]
  simp only [← EReal.coe_mul]
  rw [EReal.coe_eq_coe_iff]
  have e : ∀ k, q k * (1 / (127 * (1 / (a + 8796093 / 2 ^ 42)))) * τ k
      = (1 / (127 * (1 / (a + 8796093 / 2 ^ 42)))) * (q k * τ k) := fun k => by ring
  simp only [e]
  rw [← Finset.mul_sum]
  field_simp

/-- On real inputs the kernel's formula is the reference's. -/
theorem Gker_eq_Gref (x : XArr) (w : WArr) (hx : ∀ j, ∃ r : ℝ, x j = (r : EReal))
    (hw : ∀ j, ∃ r : ℝ, w j = (r : EReal)) : Gker x w = Gref x w :=
  funext fun j => GkerAt_eq_GrefAt x w hx hw (j 0) (j 1)

end Cert.BitLinear

end
-- ==== Proof.BlockSum.lean ====
/-
  A contraction over 4096 terms taken in eight consecutive blocks of 512, accumulated left to right from zero, is
  the contraction over all 4096 terms: addition of extended reals is associative and commutative, and the pair
  (block, place in the block) runs over all the indices exactly once.
-/
import proofs.«119196_j24962349924855_2_alg».proof.Proof.Spec
import proofs.«119196_j24962349924855_2_alg».proof.Proof.Algebra

noncomputable section

namespace Cert.BitLinear

open Idealize.ShloMosaic Idealize.ShloMosaic.ValueIdx

/-- The index of place l of block k. -/
def kidx (k : Fin 8) (l : Fin 512) : Fin 4096 := ⟨k.val * 512 + l.val, by have := k.isLt; have := l.isLt; omega⟩

/-- Summing block by block is summing over all indices. -/
theorem sum_blocks (f : Fin 4096 → EReal) : ∑ k : Fin 8, ∑ l : Fin 512, f (kidx k l) = ∑ i : Fin 4096, f i := by
  rw [← Fintype.sum_prod_type' (fun k l => f (kidx k l))]
  exact Fintype.sum_equiv (finProdFinEquiv : Fin 8 × Fin 512 ≃ Fin (8 * 512)) (fun p => f (kidx p.1 p.2)) (fun i => f i)
    (fun p => congrArg f (Fin.ext (by
      show p.1.val * 512 + p.2.val = (finProdFinEquiv p).val
      rw [finProdFinEquiv_apply_val]; omega)))

/-- The eight blocks accumulated from the zero literal, left to right. -/
theorem blocks_eq_sum (f : Fin 4096 → EReal) :
    ((((((((cZero + ∑ l : Fin 512, f (kidx 0 l)) + ∑ l : Fin 512, f (kidx 1 l)) + ∑ l : Fin 512, f (kidx 2 l)) + ∑ l : Fin 512, f (kidx 3 l)) + ∑ l : Fin 512, f (kidx 4 l)) + ∑ l : Fin 512, f (kidx 5 l)) + ∑ l : Fin 512, f (kidx 6 l)) + ∑ l : Fin 512, f (kidx 7 l)) = ∑ i : Fin 4096, f i := by
  rw [cZero_eq, EReal.coe_zero, zero_add, ← sum_blocks f, Fin.sum_univ_eight]

/-- The kernel's formula with its contraction taken in eight blocks. -/
theorem GkerAt_blocks (x : XArr) (w : WArr) (t : Fin 8192) (o : Fin 11008) :
    ((((((((cZero + ∑ l : Fin 512, Q x t (kidx 0 l) * TW w o (kidx 0 l)) + ∑ l : Fin 512, Q x t (kidx 1 l) * TW w o (kidx 1 l)) + ∑ l : Fin 512, Q x t (kidx 2 l) * TW w o (kidx 2 l)) + ∑ l : Fin 512, Q x t (kidx 3 l) * TW w o (kidx 3 l)) + ∑ l : Fin 512, Q x t (kidx 4 l) * TW w o (kidx 4 l)) + ∑ l : Fin 512, Q x t (kidx 5 l) * TW w o (kidx 5 l)) + ∑ l : Fin 512, Q x t (kidx 6 l) * TW w o (kidx 6 l)) + ∑ l : Fin 512, Q x t (kidx 7 l) * TW w o (kidx 7 l))
      * Ideal.div (SW w * (amax x t + cEps2)) c127 = GkerAt x w t o :=
  congrArg (fun z => z * Ideal.div (SW w * (amax x t + cEps2)) c127) (blocks_eq_sum (fun i => Q x t i * TW w o i))

end Cert.BitLinear

end
-- ==== Proof.R2G.lean ====
import proofs.«119196_j24962349924855_2_alg».proof.Proof.BlockSum
import proofs.«119196_j24962349924855_2_alg».proof.Proof.R0Final

set_option maxRecDepth 16384

noncomputable section

namespace Cert.KernelIdeal.R2V

open Cert.KernelIdeal Cert.KernelIdeal.Gen Cert.BitLinear
open Idealize.ShloMosaic Idealize.ShloMosaic.ValueIdx

/-! # The array the matmul pipeline leaves, as a function of the arrays it reads

At row `R`, column `O`: the contraction of the quantized activations' row `R` with the ternary weights' row `O`, taken in
eight consecutive blocks of 512 accumulated left to right from the zero literal, times the scale times the row scale
plus the small literal, over 127. -/

/-- The entry at `(R, O)`. -/
def G2At (Qa : S8192x4096.Idx → EReal) (Aa : S8192x1.Idx → EReal) (Ta : S11008x4096.Idx → EReal) (s : S1x1.Idx → EReal)
    (R : Fin 8192) (O : Fin 11008) : EReal :=
  ((((((((cZero + ∑ l : Fin 512, Qa (ix2 R (kidx 0 l)) * Ta (ix2 O (kidx 0 l))) + ∑ l : Fin 512, Qa (ix2 R (kidx 1 l)) * Ta (ix2 O (kidx 1 l))) + ∑ l : Fin 512, Qa (ix2 R (kidx 2 l)) * Ta (ix2 O (kidx 2 l))) + ∑ l : Fin 512, Qa (ix2 R (kidx 3 l)) * Ta (ix2 O (kidx 3 l))) + ∑ l : Fin 512, Qa (ix2 R (kidx 4 l)) * Ta (ix2 O (kidx 4 l))) + ∑ l : Fin 512, Qa (ix2 R (kidx 5 l)) * Ta (ix2 O (kidx 5 l))) + ∑ l : Fin 512, Qa (ix2 R (kidx 6 l)) * Ta (ix2 O (kidx 6 l))) + ∑ l : Fin 512, Qa (ix2 R (kidx 7 l)) * Ta (ix2 O (kidx 7 l)))
    * Ideal.div (s (ix2 (0 : Fin 1) (0 : Fin 1)) * (Aa (ix2 R (0 : Fin 1)) + cEps2)) c127

/-- The whole array. -/
def G2 (Qa : S8192x4096.Idx → EReal) (Aa : S8192x1.Idx → EReal) (Ta : S11008x4096.Idx → EReal) (s : S1x1.Idx → EReal) :
    S8192x11008.Idx → EReal := fun i => G2At Qa Aa Ta s (i 0) (i 1)

theorem G2_ix2 (Qa : S8192x4096.Idx → EReal) (Aa : S8192x1.Idx → EReal) (Ta : S11008x4096.Idx → EReal) (s : S1x1.Idx → EReal)
    (R : Fin 8192) (O : Fin 11008) : G2 Qa Aa Ta s (ix2 R O) = G2At Qa Aa Ta s R O := rfl

/-- Of the quantized activations, the row scales, the ternary weights and the weight scale of one pair of inputs it is
    the kernel's formula. -/
theorem G2At_spec (x : XArr) (w : WArr) (R : Fin 8192) (O : Fin 11008) :
    G2At (R0V.GQ x) (R0V.GA x) (fun i => TW w (i 0) (i 1)) (fun _ => SW w) R O = GkerAt x w R O :=
  GkerAt_blocks x w R O

theorem G2_spec (x : XArr) (w : WArr) :
    G2 (R0V.GQ x) (R0V.GA x) (fun i => TW w (i 0) (i 1)) (fun _ => SW w) = Gker x w :=
  funext fun j => G2At_spec x w (j 0) (j 1)

end Cert.KernelIdeal.R2V

end
-- ==== Proof.R2Final.lean ====
import proofs.«119196_j24962349924855_2_alg».proof.Proof.R2Acc
import proofs.«119196_j24962349924855_2_alg».proof.Proof.R2Reads
import proofs.«119196_j24962349924855_2_alg».proof.Proof.R2G
import Idealize.ShloMosaic.Lib.Pipeline.Value

set_option maxRecDepth 16384

noncomputable section

namespace Cert.KernelIdeal.R2V

open Cert.KernelIdeal Cert.KernelIdeal.Gen Cert.KernelIdeal.R2 Cert.BitLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The result array the matmul pipeline leaves, index by index -/

/-- The entry-array names at their literal types. -/
abbrev Qarr (c : Dev nD) : S8192x4096.Idx → EReal := V c main_v0_0
abbrev Aarr (c : Dev nD) : S8192x1.Idx → EReal := V c main_v0_1
abbrev Tarr (c : Dev nD) : S11008x4096.Idx → EReal := V c main_v7
abbrev Sarr (c : Dev nD) : S1x1.Idx → EReal := V c main_v6

/-! ## One block product's entry, over the entry arrays

At position `k` of the group of eight points ending at the flushing point `t`, the entry (p, q) of the block product is
the contraction over block `k` of the columns of the activations' row and the weights' row that (p, q) sits at. -/

theorem blockTerm_global (c : Dev nD) (t : Fin cfg2.N) (ht : t.val % 8 = 7) (k : Fin 8) (p : Fin 2048) (q : Fin 1024)
    (hq : q.val < win2_4.xsize (grid2.coords t) 1) (R : Fin 8192) (O : Fin 11008)
    (hR : R.val = (t.val / 88) * 2048 + p.val) (hO : O.val = ((t.val / 8) % 11) * 1024 + q.val) :
    blockTerm V c (gpt t ht k) p q = ∑ l : Fin 512, Qarr V c (ix2 R (kidx k l)) * Tarr V c (ix2 O (kidx k l)) := by
  have hq' : q.val < win2_4.xsize (grid2.coords (gpt t ht k)) 1 := by rw [(cut_group t ht k).2]; exact hq
  refine (blockTerm_blocks V c (gpt t ht k) p q hq').trans ?_
  refine Finset.sum_congr rfl fun l _ => ?_
  have hA : aBlk V c (gpt t ht k) (ix2 p l) = Qarr V c (ix2 R (kidx k l)) := by
    refine (iblk2_0_tk V c t ht k p l).trans ?_
    exact congrArg (Qarr V c) (funext fun a => Fin.ext (by
      match a with
      | ⟨0, _⟩ => exact hR.symm
      | ⟨1, _⟩ => rfl))
  have hB : wBlk V c (gpt t ht k) (widx (gpt t ht k) q l hq') = Tarr V c (ix2 O (kidx k l)) := by
    refine (iblk2_2_tk V c t ht k (widx (gpt t ht k) q l hq')).trans ?_
    exact congrArg (Tarr V c) (funext fun a => Fin.ext (by
      match a with
      | ⟨0, _⟩ => exact hO.symm
      | ⟨1, _⟩ => rfl))
  exact congrArg₂ (fun a b : EReal => a * b) hA hB

theorem gBlk_global (c : Dev nD) (t : Fin cfg2.N) : gBlk V c t (ix2 (0 : Fin 1) (0 : Fin 1)) = Sarr V c (ix2 (0 : Fin 1) (0 : Fin 1)) :=
  iblk2_3_at V c t 0 0

theorem rBlk_global (c : Dev nD) (t : Fin cfg2.N) (p : Fin 2048) (R : Fin 8192) (hR : R.val = (t.val / 88) * 2048 + p.val) :
    rBlk V c t (ix2 p (0 : Fin 1)) = Aarr V c (ix2 R (0 : Fin 1)) := by
  refine (iblk2_1_at V c t p 0).trans ?_
  exact congrArg (Aarr V c) (funext fun a => Fin.ext (by
    match a with
    | ⟨0, _⟩ => exact hR.symm
    | ⟨1, _⟩ => rfl))

/-- The running sum's entry at a flushing point, over the entry arrays: the whole-array function's entry. -/
theorem entry_eq (c : Dev nD) (t : Fin cfg2.N) (ht : t.val % 8 = 7) (p : Fin 2048) (q : Fin 1024)
    (hq : q.val < win2_4.xsize (grid2.coords t) 1) (R : Fin 8192) (O : Fin 11008)
    (hR : R.val = (t.val / 88) * 2048 + p.val) (hO : O.val = ((t.val / 8) % 11) * 1024 + q.val) :
    ((((((((cZero + blockTerm V c (gpt t ht 0) p q) + blockTerm V c (gpt t ht 1) p q) + blockTerm V c (gpt t ht 2) p q) + blockTerm V c (gpt t ht 3) p q) + blockTerm V c (gpt t ht 4) p q) + blockTerm V c (gpt t ht 5) p q) + blockTerm V c (gpt t ht 6) p q) + blockTerm V c (gpt t ht 7) p q)
        * Ideal.div (gBlk V c t (ix2 (0 : Fin 1) (0 : Fin 1)) * (rBlk V c t (ix2 p (0 : Fin 1)) + cEps2)) c127
      = G2At (Qarr V c) (Aarr V c) (Tarr V c) (Sarr V c) R O := by
  unfold G2At
  rw [blockTerm_global V c t ht 0 p q hq R O hR hO,
    blockTerm_global V c t ht 1 p q hq R O hR hO,
    blockTerm_global V c t ht 2 p q hq R O hR hO,
    blockTerm_global V c t ht 3 p q hq R O hR hO,
    blockTerm_global V c t ht 4 p q hq R O hR hO,
    blockTerm_global V c t ht 5 p q hq R O hR hO,
    blockTerm_global V c t ht 6 p q hq R O hR hO,
    blockTerm_global V c t ht 7 p q hq R O hR hO,
    gBlk_global V c t, rBlk_global V c t p R hR]

/-! ## What a flushing point writes back, the cover, the final array -/

/-- A point at the last position along the contracted axis writes back its block of the whole-array function. -/
theorem flushed4_eq (c : Dev nD) (t : Fin cfg2.N) (hf : (cfg2.win 4).flush t = true) :
    (dat2 V c).flushed 4 t
      = ((cfg2.win 4).blk t).view.read (Elt Ideal) (G2 (Qarr V c) (Aarr V c) (Tarr V c) (Sarr V c)) := by
  have ht : t.val % 8 = 7 := (flush2_4 t).mp hf
  show (cfg2.win 4).cut (grid2.coords t) ((dat2 V c).after 4 t) = _
  rw [after2_4]
  funext y
  refine (cut_acc V c t ht y).trans ?_
  refine (entry_eq V c t ht _ _ (y 1).isLt
    (⟨(t.val / 88) * 2048 + (y 0).val, (y4_lt t y).1⟩ : Fin 8192)
    (⟨((t.val / 8) % 11) * 1024 + (y 1).val, (y4_lt t y).2⟩ : Fin 11008) rfl rfl).trans ?_
  exact (blk4_read (Val := Elt Ideal) c (G2 (Qarr V c) (Aarr V c) (Tarr V c) (Sarr V c)) t y).symm

/-- After the pipeline the result array holds, at every index, the whole-array function of the quantized activations,
    the row scales, the ternary weights and the weight scale as the region found them. -/
theorem final_out (c : Dev nD) :
    (dat2 V c).arrAt 4 cfg2.N = G2 (V c main_v0_0) (V c main_v0_1) (V c main_v7) (V c main_v6) :=
  (dat2 V c).arrAt_eq_of_cover 4 (G2 (Qarr V c) (Aarr V c) (Tarr V c) (Sarr V c)) (fun t hf => flushed4_eq V c t hf) cover4

end Cert.KernelIdeal.R2V

end
-- ==== Proof.Final.lean ====
import proofs.«119196_j24962349924855_2_alg».proof.Proof.WalkISW
import proofs.«119196_j24962349924855_2_alg».proof.Proof.R0Final
import proofs.«119196_j24962349924855_2_alg».proof.Proof.R1Final
import proofs.«119196_j24962349924855_2_alg».proof.Proof.R2Final
import proofs.«119196_j24962349924855_2_alg».proof.Proof.Region2Local

set_option maxRecDepth 16384

noncomputable section

namespace Cert.KernelIdeal.RunI

open Cert.KernelIdeal Cert.KernelIdeal.Gen Cert.BitLinear
open Idealize.ShloMosaic Idealize.ShloMosaic.TcCoe
open Idealize.SL Idealize.SL.Sem

/-! # The idealized kernel's result array

On the extended reals the three regions compose: the first leaves the clipped rounded activations and the row scales,
the second the clipped rounded weights at the global scale the host operations computed, and the third, for each
result entry, the eight block products summed in order and rescaled by the entry's row: the kernel's formula. -/

variable (m : (ℓ : Loc nD τ sig) → Buf (Elt Ideal) ℓ) (ρ : Dev nD → PrngReg)

/-- The result array after the run is the kernel's formula of the two argument arrays. -/
theorem v8_eq (c : Dev nD) :
    W6 m ρ c (Proc.devRef .tc main_v8) = Gker (m ((c : Thread nD τ).loc main_arg0)) (m ((c : Thread nD τ).loc main_arg1)) := by
  have hs : R1V.scaleOf (V4 m ρ) c = SW (m ((c : Thread nD τ).loc main_arg1)) := by
    unfold R1V.scaleOf; rw [V4_main_v6]
  rw [W6_main_v8, R2V.final_out (V5 m ρ) c, V5_main_v0_0, V5_main_v0_1, V5_main_v7, V5_main_v6_SW,
    R0V.final_Q (V0 m ρ) c, R0V.final_amax (V0 m ρ) c, R1V.final_TW (V4 m ρ) c, hs, V0_main_arg0, V4_main_arg1]
  exact R2V.G2_spec _ _

/-- At the compiled mesh, from any memory with zero counters: every weakly fair execution of the idealized kernel's
    @main terminates, nothing faulting, with the result array at the kernel's formula and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v8) = Gker (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v8 (by decide))).trans (v8_eq m ρ c),
     (h c _ (mem_uc main_arg0 (by decide))).trans (W6_main_arg0 m ρ c),
     (h c _ (mem_uc main_arg1 (by decide))).trans (W6_main_arg1 m ρ c)⟩) (run_all m ρ R2.local2_Ideal)

end Cert.KernelIdeal.RunI

end
-- ==== Proof.Finite.lean ====
/-
  From the precondition to "every input entry is a real number".

  The precondition says a printed predicate is all ones: the conjunction of two "all entries satisfy |v| < +inf",
  one per input array. A conjunction of one-bit words that is 1 has both words 1; a reduction by "and" over all
  axes that is 1 met a 1 at every index; and an extended real whose absolute value lies strictly below plus
  infinity is neither infinity, so it is a real number.
-/
import proofs.«119196_j24962349924855_2_alg».proof.Defs
import proofs.«119196_j24962349924855_2_alg».proof.Proof.Gen.KernelIdeal
import proofs.«119196_j24962349924855_2_alg».proof.Proof.Gen.Pre_finite_inputs
import proofs.«119196_j24962349924855_2_alg».proof.Proof.LibFiniteOps
import Idealize.ShloMosaic.Lib.ReduceAll
import Idealize.ShloMosaic.Lib.ValueIdx

noncomputable section

namespace Cert.BitLinear

open Idealize.ShloMosaic Idealize.ShloMosaic.TcCoe Idealize.SL.Sem Cert.LibFiniteOps

/-- The printed predicate all ones: both arrays have only real entries. -/
theorem real_of_fn (x : FVec Ideal Cert.Pre_finite_inputs.S8192x4096 .f32) (w : FVec Ideal Cert.Pre_finite_inputs.S11008x4096 .f32)
    (h : Cert.Pre_finite_inputs.fn (F := Ideal) x w = fun _ => 1#1) : AllReal x ∧ AllReal w := by
  have h0 := congrFun h ValueIdx.ix0
  dsimp only [Cert.Pre_finite_inputs.fn] at h0
  obtain ⟨h3, h7⟩ := IntOp.andi_eq_one.1 h0
  haveI : Subsingleton Cert.Pre_finite_inputs.S_.Idx := ⟨fun a b => funext fun d => d.elim0⟩
  exact ⟨allReal_of_abs_lt_top (fun _ => ofBits_7F800000) (fun i => Host.reduce_andi_all _ _ _ _ _ h3 i),
    allReal_of_abs_lt_top (fun _ => ofBits_7F800000) (fun i => Host.reduce_andi_all _ _ _ _ _ h7 i)⟩

/-- Under the precondition, on every device both argument arrays hold only real numbers. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : (⟨2, ![8192, 4096]⟩ : Shape).Idx, ∃ r : ℝ,
        (m ((c.tc : Thread Cert.KernelIdeal.nD Cert.KernelIdeal.τ).loc Cert.KernelIdeal.main_arg0)
          : (⟨2, ![8192, 4096]⟩ : Shape).Idx → EReal) j = (r : EReal))
    ∧ (∀ j : (⟨2, ![11008, 4096]⟩ : Shape).Idx, ∃ r : ℝ,
        (m ((c.tc : Thread Cert.KernelIdeal.nD Cert.KernelIdeal.τ).loc Cert.KernelIdeal.main_arg1)
          : (⟨2, ![11008, 4096]⟩ : Shape).Idx → EReal) j = (r : EReal)) :=
  real_of_fn _ _ (h c)

end Cert.BitLinear

end
-- ==== Proof.RefKer.lean ====
/-
  The reference's run, stated against the kernel's formula.

  From memories that agree on the two arguments, and under the precondition on the kernel's memory (all input
  entries real), the reference program ends with its result buffer at the kernel's formula of the kernel's
  arguments: its run gives the reference formula of its own arguments, these are the kernel's arguments, and on
  real inputs the two formulas are one function.
-/
import proofs.«119196_j24962349924855_2_alg».proof.Proof.RefSpec
import proofs.«119196_j24962349924855_2_alg».proof.Proof.Algebra
import proofs.«119196_j24962349924855_2_alg».proof.Proof.Finite

noncomputable section

namespace Cert.BitLinear

open Idealize.ShloMosaic Idealize.ShloMosaic.TcCoe Idealize.SL.Sem

theorem ref_run_Gker
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v27)
        = Gker (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans (by
        rw [(hagree c).1, (hagree c).2]
        exact (Gker_eq_Gref _ _ (real_of_pre m hpre c).1 (real_of_pre m hpre c).2).symm), (h c).2⟩)
    (Cert.BitLinear.Ref.ref_run m' g')

/-- The reference program runs and leaves its two arguments unchanged. -/
theorem frame_ref : Cert.frame_ReferenceIdeal := fun m ρ _ =>
  (θ_run Cert.ReferenceIdeal.defs _ _).mono (fun _ h c => (h c).2) (Cert.BitLinear.Ref.ref_run m ρ)

end Cert.BitLinear

end
-- ==== Proof.lean ====
/- The certificate's claims, assembled.

   The kernel is a ternary-weight, 8-bit-activation linear layer in three launches: the activations x [8192, 4096] are
   clipped and rounded row by row against the row's largest magnitude (512 rows at a time), the weights w [11008, 4096]
   are clipped and rounded against one global scale, 1 over the mean magnitude of w, computed by host operations, and a
   blocked matrix product accumulates the 4096 contracted positions in eight blocks of 512 into each [2048, 1024] block
   of the result, rescaling each row once at the end. The reference computes the same quantities with whole-array
   operations and divides every activation by its row's scale before one matrix product.

   On the extended reals both results are, at entry (t, o), the sum over i of Q[t,i] · TW[o,i] scaled by
   SW · (amax[t] + ε) / 127: the kernel applies the row's factor once to the finished sum, the reference inside every
   term. Every clipped value is a real number whatever was rounded, and for finite inputs every row maximum and the
   global scale are positive reals, so the two arrangements agree by distributivity in ℝ. This is where the
   precondition (finite inputs) is used; the kernel's own formula holds for every input.

   The frames: the word-level kernel's through relational proof data for the matrix product (its block's part inside
   the array depends on staging words past the array's end, which nothing names), the idealized kernel's and the
   reference's as their value runs with the result dropped. No rewrite was applied by the idealization, so the
   preservation claim is trivial. -/
import proofs.«119196_j24962349924855_2_alg».proof.Defs
import proofs.«119196_j24962349924855_2_alg».proof.Proof.Gen.Kernel
import proofs.«119196_j24962349924855_2_alg».proof.Proof.Gen.KernelIdeal
import proofs.«119196_j24962349924855_2_alg».proof.Proof.Gen.ReferenceIdeal
import proofs.«119196_j24962349924855_2_alg».proof.Proof.Gen.Pre_finite_inputs
import proofs.«119196_j24962349924855_2_alg».proof.Proof.FrameBRun
import proofs.«119196_j24962349924855_2_alg».proof.Proof.Final
import proofs.«119196_j24962349924855_2_alg».proof.Proof.RefKer
import Idealize.ShloMosaic.Adequacy
import Idealize.ShloMosaic.Init

noncomputable section

namespace Cert.Proof

open Idealize.ShloMosaic Idealize.SL.Sem

theorem frame_k [hP : Cert.Pre_finite_inputs.Facts] : Cert.frame_Kernel (hKernel := Cert.Kernel.Gen.facts) :=
  fun m g _ => Cert.Kernel.FrameB.frame (F := Bits) m g

theorem frame_ki [hP : Cert.Pre_finite_inputs.Facts] : Cert.frame_KernelIdeal (hKernelIdeal := Cert.KernelIdeal.Gen.facts) :=
  fun m g _ => (θ_run Cert.KernelIdeal.defs _ _).mono (fun _ h c => (h c).2) (Cert.KernelIdeal.RunI.kernel_run m g)

theorem frame_ri [hP : Cert.Pre_finite_inputs.Facts] : Cert.frame_ReferenceIdeal (hReferenceIdeal := Cert.ReferenceIdeal.Gen.facts) :=
  fun m g _ => (θ_run Cert.ReferenceIdeal.defs _ _).mono (fun _ h c => (h c).2) (Cert.BitLinear.Ref.ref_run m g)

theorem algebraic [hP : Cert.Pre_finite_inputs.Facts] :
    Cert.algebraic_KernelIdeal_ReferenceIdeal (hKernelIdeal := Cert.KernelIdeal.Gen.facts) (hReferenceIdeal := Cert.ReferenceIdeal.Gen.facts) :=
  fun m g m' g' hpre hagree =>
    ⟨_, Cert.KernelIdeal.RunI.kernel_run m g, Cert.BitLinear.ref_run_Gker m m' g' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
